-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x4x4096x4096 : Shape := ⟨4, ![2, 4, 4096, 4096]⟩
abbrev S2x4096x256 : Shape := ⟨3, ![2, 4096, 256]⟩
abbrev S2x256 : Shape := ⟨2, ![2, 256]⟩
abbrev S2x256x128 : Shape := ⟨3, ![2, 256, 128]⟩
abbrev S2x128 : Shape := ⟨2, ![2, 128]⟩
abbrev S2x128x1 : Shape := ⟨3, ![2, 128, 1]⟩
abbrev S2x1 : Shape := ⟨2, ![2, 1]⟩
abbrev S_ : Shape := ⟨0, ![]⟩

class Facts : Prop where
  bcast_S_S2x4x4096x4096 : S_.BroadcastsInDim S2x4x4096x4096 (![] : Fin 0 → Fin S2x4x4096x4096.rank)
  reducesTo_S2x4x4096x4096_S_d0_1_2_3 : S2x4x4096x4096.ReducesTo [0, 1, 2, 3] S_
  h_S_ : 0 < S_.numel
  bcast_S_S2x4096x256 : S_.BroadcastsInDim S2x4096x256 (![] : Fin 0 → Fin S2x4096x256.rank)
  reducesTo_S2x4096x256_S_d0_1_2 : S2x4096x256.ReducesTo [0, 1, 2] S_
  bcast_S_S2x256 : S_.BroadcastsInDim S2x256 (![] : Fin 0 → Fin S2x256.rank)
  reducesTo_S2x256_S_d0_1 : S2x256.ReducesTo [0, 1] S_
  bcast_S_S2x256x128 : S_.BroadcastsInDim S2x256x128 (![] : Fin 0 → Fin S2x256x128.rank)
  reducesTo_S2x256x128_S_d0_1_2 : S2x256x128.ReducesTo [0, 1, 2] S_
  bcast_S_S2x128 : S_.BroadcastsInDim S2x128 (![] : Fin 0 → Fin S2x128.rank)
  reducesTo_S2x128_S_d0_1 : S2x128.ReducesTo [0, 1] S_
  bcast_S_S2x128x1 : S_.BroadcastsInDim S2x128x1 (![] : Fin 0 → Fin S2x128x1.rank)
  reducesTo_S2x128x1_S_d0_1_2 : S2x128x1.ReducesTo [0, 1, 2] S_
  bcast_S_S2x1 : S_.BroadcastsInDim S2x1 (![] : Fin 0 → Fin S2x1.rank)
  reducesTo_S2x1_S_d0_1 : S2x1.ReducesTo [0, 1] S_

variable [Facts]

def fn_part3 {F : FTy → Type} [FloatOps F] (main_v48 : IVec S_ 1) (main_v49 : FVec F S2x1 .f32) (main_v50 : FVec F S2x1 .f32) : IVec S_ 1 :=
  let main_v51 : IVec S2x1 1 := cmpf .olt main_v49 main_v50
  let main_c_19 : IVec S_ 1 := constantI S_ 1 1#1
  let main_v52 : IVec S_ 1 := (fun x v => Host.reduce IntOp.andi x v reducesTo_S2x1_S_d0_1 h_S_) main_v51 main_c_19
  let main_v53 : IVec S_ 1 := andi main_v48 main_v52
  main_v53

def fn_part2 {F : FTy → Type} [FloatOps F] (main_arg7 : FVec F S2x128 .f32) (main_arg8 : FVec F S2x128 .f32) (main_arg9 : FVec F S2x128x1 .f32) (main_arg10 : FVec F S2x1 .f32) (main_v33 : IVec S_ 1) : IVec S_ 1 :=
  let main_v34 : FVec F S2x128 .f32 := Host.absf main_arg7
  let main_cst_12 : FVec F S_ .f32 := constant S_ .f32 0x7F800000#32
  let main_v35 : FVec F S2x128 .f32 := broadcastInDim S2x128 ![] bcast_S_S2x128 main_cst_12
  let main_v36 : IVec S2x128 1 := cmpf .olt main_v34 main_v35
  let main_c_13 : IVec S_ 1 := constantI S_ 1 1#1
  let main_v37 : IVec S_ 1 := (fun x v => Host.reduce IntOp.andi x v reducesTo_S2x128_S_d0_1 h_S_) main_v36 main_c_13
  let main_v38 : IVec S_ 1 := andi main_v33 main_v37
  let main_v39 : FVec F S2x128 .f32 := Host.absf main_arg8
  let main_cst_14 : FVec F S_ .f32 := constant S_ .f32 0x7F800000#32
  let main_v40 : FVec F S2x128 .f32 := broadcastInDim S2x128 ![] bcast_S_S2x128 main_cst_14
  let main_v41 : IVec S2x128 1 := cmpf .olt main_v39 main_v40
  let main_c_15 : IVec S_ 1 := constantI S_ 1 1#1
  let main_v42 : IVec S_ 1 := (fun x v => Host.reduce IntOp.andi x v reducesTo_S2x128_S_d0_1 h_S_) main_v41 main_c_15
  let main_v43 : IVec S_ 1 := andi main_v38 main_v42
  let main_v44 : FVec F S2x128x1 .f32 := Host.absf main_arg9
  let main_cst_16 : FVec F S_ .f32 := constant S_ .f32 0x7F800000#32
  let main_v45 : FVec F S2x128x1 .f32 := broadcastInDim S2x128x1 ![] bcast_S_S2x128x1 main_cst_16
  let main_v46 : IVec S2x128x1 1 := cmpf .olt main_v44 main_v45
  let main_c_17 : IVec S_ 1 := constantI S_ 1 1#1
  let main_v47 : IVec S_ 1 := (fun x v => Host.reduce IntOp.andi x v reducesTo_S2x128x1_S_d0_1_2 h_S_) main_v46 main_c_17
  let main_v48 : IVec S_ 1 := andi main_v43 main_v47
  let main_v49 : FVec F S2x1 .f32 := Host.absf main_arg10
  let main_cst_18 : FVec F S_ .f32 := constant S_ .f32 0x7F800000#32
  let main_v50 : FVec F S2x1 .f32 := broadcastInDim S2x1 ![] bcast_S_S2x1 main_cst_18
  fn_part3 (F := F) main_v48 main_v49 main_v50

def fn_part1 {F : FTy → Type} [FloatOps F] (main_arg4 : FVec F S2x256 .f32) (main_arg5 : FVec F S2x256x128 .f32) (main_arg6 : FVec F S2x128 .f32) (main_arg7 : FVec F S2x128 .f32) (main_arg8 : FVec F S2x128 .f32) (main_arg9 : FVec F S2x128x1 .f32) (main_arg10 : FVec F S2x1 .f32) (main_v13 : IVec S_ 1) (main_v16 : IVec S2x256 1) : IVec S_ 1 :=
  let main_c_5 : IVec S_ 1 := constantI S_ 1 1#1
  let main_v17 : IVec S_ 1 := (fun x v => Host.reduce IntOp.andi x v reducesTo_S2x256_S_d0_1 h_S_) main_v16 main_c_5
  let main_v18 : IVec S_ 1 := andi main_v13 main_v17
  let main_v19 : FVec F S2x256 .f32 := Host.absf main_arg4
  let main_cst_6 : FVec F S_ .f32 := constant S_ .f32 0x7F800000#32
  let main_v20 : FVec F S2x256 .f32 := broadcastInDim S2x256 ![] bcast_S_S2x256 main_cst_6
  let main_v21 : IVec S2x256 1 := cmpf .olt main_v19 main_v20
  let main_c_7 : IVec S_ 1 := constantI S_ 1 1#1
  let main_v22 : IVec S_ 1 := (fun x v => Host.reduce IntOp.andi x v reducesTo_S2x256_S_d0_1 h_S_) main_v21 main_c_7
  let main_v23 : IVec S_ 1 := andi main_v18 main_v22
  let main_v24 : FVec F S2x256x128 .f32 := Host.absf main_arg5
  let main_cst_8 : FVec F S_ .f32 := constant S_ .f32 0x7F800000#32
  let main_v25 : FVec F S2x256x128 .f32 := broadcastInDim S2x256x128 ![] bcast_S_S2x256x128 main_cst_8
  let main_v26 : IVec S2x256x128 1 := cmpf .olt main_v24 main_v25
  let main_c_9 : IVec S_ 1 := constantI S_ 1 1#1
  let main_v27 : IVec S_ 1 := (fun x v => Host.reduce IntOp.andi x v reducesTo_S2x256x128_S_d0_1_2 h_S_) main_v26 main_c_9
  let main_v28 : IVec S_ 1 := andi main_v23 main_v27
  let main_v29 : FVec F S2x128 .f32 := Host.absf main_arg6
  let main_cst_10 : FVec F S_ .f32 := constant S_ .f32 0x7F800000#32
  let main_v30 : FVec F S2x128 .f32 := broadcastInDim S2x128 ![] bcast_S_S2x128 main_cst_10
  let main_v31 : IVec S2x128 1 := cmpf .olt main_v29 main_v30
  let main_c_11 : IVec S_ 1 := constantI S_ 1 1#1
  let main_v32 : IVec S_ 1 := (fun x v => Host.reduce IntOp.andi x v reducesTo_S2x128_S_d0_1 h_S_) main_v31 main_c_11
  let main_v33 : IVec S_ 1 := andi main_v28 main_v32
  fn_part2 (F := F) main_arg7 main_arg8 main_arg9 main_arg10 main_v33

def fn {F : FTy → Type} [FloatOps F] (main_arg0 : FVec F S2x4x4096x4096 .f32) (main_arg1 : FVec F S2x4096x256 .f32) (main_arg2 : FVec F S2x256 .f32) (main_arg3 : FVec F S2x256 .f32) (main_arg4 : FVec F S2x256 .f32) (main_arg5 : FVec F S2x256x128 .f32) (main_arg6 : FVec F S2x128 .f32) (main_arg7 : FVec F S2x128 .f32) (main_arg8 : FVec F S2x128 .f32) (main_arg9 : FVec F S2x128x1 .f32) (main_arg10 : FVec F S2x1 .f32) : IVec S_ 1 :=
  let main_v0 : FVec F S2x4x4096x4096 .f32 := Host.absf main_arg0
  let main_cst : FVec F S_ .f32 := constant S_ .f32 0x7F800000#32
  let main_v1 : FVec F S2x4x4096x4096 .f32 := broadcastInDim S2x4x4096x4096 ![] bcast_S_S2x4x4096x4096 main_cst
  let main_v2 : IVec S2x4x4096x4096 1 := cmpf .olt main_v0 main_v1
  let main_c : IVec S_ 1 := constantI S_ 1 1#1
  let main_v3 : IVec S_ 1 := (fun x v => Host.reduce IntOp.andi x v reducesTo_S2x4x4096x4096_S_d0_1_2_3 h_S_) main_v2 main_c
  let main_v4 : FVec F S2x4096x256 .f32 := Host.absf main_arg1
  let main_cst_0 : FVec F S_ .f32 := constant S_ .f32 0x7F800000#32
  let main_v5 : FVec F S2x4096x256 .f32 := broadcastInDim S2x4096x256 ![] bcast_S_S2x4096x256 main_cst_0
  let main_v6 : IVec S2x4096x256 1 := cmpf .olt main_v4 main_v5
  let main_c_1 : IVec S_ 1 := constantI S_ 1 1#1
  let main_v7 : IVec S_ 1 := (fun x v => Host.reduce IntOp.andi x v reducesTo_S2x4096x256_S_d0_1_2 h_S_) main_v6 main_c_1
  let main_v8 : IVec S_ 1 := andi main_v3 main_v7
  let main_v9 : FVec F S2x256 .f32 := Host.absf main_arg2
  let main_cst_2 : FVec F S_ .f32 := constant S_ .f32 0x7F800000#32
  let main_v10 : FVec F S2x256 .f32 := broadcastInDim S2x256 ![] bcast_S_S2x256 main_cst_2
  let main_v11 : IVec S2x256 1 := cmpf .olt main_v9 main_v10
  let main_c_3 : IVec S_ 1 := constantI S_ 1 1#1
  let main_v12 : IVec S_ 1 := (fun x v => Host.reduce IntOp.andi x v reducesTo_S2x256_S_d0_1 h_S_) main_v11 main_c_3
  let main_v13 : IVec S_ 1 := andi main_v8 main_v12
  let main_v14 : FVec F S2x256 .f32 := Host.absf main_arg3
  let main_cst_4 : FVec F S_ .f32 := constant S_ .f32 0x7F800000#32
  let main_v15 : FVec F S2x256 .f32 := broadcastInDim S2x256 ![] bcast_S_S2x256 main_cst_4
  let main_v16 : IVec S2x256 1 := cmpf .olt main_v14 main_v15
  fn_part1 (F := F) main_arg4 main_arg5 main_arg6 main_arg7 main_arg8 main_arg9 main_arg10 main_v13 main_v16
-- ==== Kernel.lean ====
abbrev S2x4x4096x4096 : Shape := ⟨4, ![2, 4, 4096, 4096]⟩
abbrev S2x4096x256 : Shape := ⟨3, ![2, 4096, 256]⟩
abbrev S2x256 : Shape := ⟨2, ![2, 256]⟩
abbrev S2x256x128 : Shape := ⟨3, ![2, 256, 128]⟩
abbrev S2x128 : Shape := ⟨2, ![2, 128]⟩
abbrev S2x128x1 : Shape := ⟨3, ![2, 128, 1]⟩
abbrev S2x1 : Shape := ⟨2, ![2, 1]⟩
abbrev S2x1x256 : Shape := ⟨3, ![2, 1, 256]⟩
abbrev S2x1x128 : Shape := ⟨3, ![2, 1, 128]⟩
abbrev S2x1x1 : Shape := ⟨3, ![2, 1, 1]⟩
abbrev S2x4x4096 : Shape := ⟨3, ![2, 4, 4096]⟩
abbrev S1x4x128x4096 : Shape := ⟨4, ![1, 4, 128, 4096]⟩
abbrev S1x4096x256 : Shape := ⟨3, ![1, 4096, 256]⟩
abbrev S1x1x256 : Shape := ⟨3, ![1, 1, 256]⟩
abbrev S1x256x128 : Shape := ⟨3, ![1, 256, 128]⟩
abbrev S1x1x128 : Shape := ⟨3, ![1, 1, 128]⟩
abbrev S1x128x1 : Shape := ⟨3, ![1, 128, 1]⟩
abbrev S1x1x1 : Shape := ⟨3, ![1, 1, 1]⟩
abbrev S1x4x128 : Shape := ⟨3, ![1, 4, 128]⟩
abbrev S4x128x4096 : Shape := ⟨3, ![4, 128, 4096]⟩
abbrev S512x4096 : Shape := ⟨2, ![512, 4096]⟩
abbrev S4096x256 : Shape := ⟨2, ![4096, 256]⟩
abbrev S512x256 : Shape := ⟨2, ![512, 256]⟩
abbrev S4x128x256 : Shape := ⟨3, ![4, 128, 256]⟩
abbrev S1x256 : Shape := ⟨2, ![1, 256]⟩
abbrev S128x256 : Shape := ⟨2, ![128, 256]⟩
abbrev S1x128x256 : Shape := ⟨3, ![1, 128, 256]⟩
abbrev S256x128 : Shape := ⟨2, ![256, 128]⟩
abbrev S512x128 : Shape := ⟨2, ![512, 128]⟩
abbrev S4x128x128 : Shape := ⟨3, ![4, 128, 128]⟩
abbrev S1x128 : Shape := ⟨2, ![1, 128]⟩
abbrev S128x128 : Shape := ⟨2, ![128, 128]⟩
abbrev S1x128x128 : Shape := ⟨3, ![1, 128, 128]⟩
abbrev S128x1 : Shape := ⟨2, ![128, 1]⟩
abbrev S128 : Shape := ⟨1, ![128]⟩
abbrev S4x128 : Shape := ⟨2, ![4, 128]⟩
abbrev S1x1 : Shape := ⟨2, ![1, 1]⟩
abbrev S4x4096x2 : Shape := ⟨3, ![4, 4096, 2]⟩

abbrev nBuf : Space → Nat
  | .hbm => 20
  | .vmem => 14
  | .smem => 0
  | _ => 0

abbrev bufTy : (tb : Table) → Fin (tcTables nBuf tb) → BufTy
  | .hbm, ⟨0, _⟩ => ⟨S2x4x4096x4096, .f32⟩
  | .hbm, ⟨1, _⟩ => ⟨S2x4096x256, .f32⟩
  | .hbm, ⟨2, _⟩ => ⟨S2x256, .f32⟩
  | .hbm, ⟨3, _⟩ => ⟨S2x256, .f32⟩
  | .hbm, ⟨4, _⟩ => ⟨S2x256, .f32⟩
  | .hbm, ⟨5, _⟩ => ⟨S2x256x128, .f32⟩
  | .hbm, ⟨6, _⟩ => ⟨S2x128, .f32⟩
  | .hbm, ⟨7, _⟩ => ⟨S2x128, .f32⟩
  | .hbm, ⟨8, _⟩ => ⟨S2x128, .f32⟩
  | .hbm, ⟨9, _⟩ => ⟨S2x128x1, .f32⟩
  | .hbm, ⟨10, _⟩ => ⟨S2x1, .f32⟩
  | .hbm, ⟨11, _⟩ => ⟨S2x1x256, .f32⟩
  | .hbm, ⟨12, _⟩ => ⟨S2x1x256, .f32⟩
  | .hbm, ⟨13, _⟩ => ⟨S2x1x256, .f32⟩
  | .hbm, ⟨14, _⟩ => ⟨S2x1x128, .f32⟩
  | .hbm, ⟨15, _⟩ => ⟨S2x1x128, .f32⟩
  | .hbm, ⟨16, _⟩ => ⟨S2x1x128, .f32⟩
  | .hbm, ⟨17, _⟩ => ⟨S2x1x1, .f32⟩
  | .hbm, ⟨18, _⟩ => ⟨S2x4x4096, .f32⟩
  | .hbm, ⟨19, _⟩ => ⟨S4x4096x2, .f32⟩
  | .local _ .vmem, ⟨0, _⟩ => ⟨S1x4x128x4096, .f32⟩
  | .local _ .vmem, ⟨1, _⟩ => ⟨S1x4x128x4096, .f32⟩
  | .local _ .vmem, ⟨2, _⟩ => ⟨S1x4096x256, .f32⟩
  | .local _ .vmem, ⟨3, _⟩ => ⟨S1x1x256, .f32⟩
  | .local _ .vmem, ⟨4, _⟩ => ⟨S1x1x256, .f32⟩
  | .local _ .vmem, ⟨5, _⟩ => ⟨S1x1x256, .f32⟩
  | .local _ .vmem, ⟨6, _⟩ => ⟨S1x256x128, .f32⟩
  | .local _ .vmem, ⟨7, _⟩ => ⟨S1x1x128, .f32⟩
  | .local _ .vmem, ⟨8, _⟩ => ⟨S1x1x128, .f32⟩
  | .local _ .vmem, ⟨9, _⟩ => ⟨S1x1x128, .f32⟩
  | .local _ .vmem, ⟨10, _⟩ => ⟨S1x128x1, .f32⟩
  | .local _ .vmem, ⟨11, _⟩ => ⟨S1x1x1, .f32⟩
  | .local _ .vmem, ⟨12, _⟩ => ⟨S1x4x128, .f32⟩
  | .local _ .vmem, ⟨13, _⟩ => ⟨S1x4x128, .f32⟩
  | _, _ => ⟨S2x4x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg11_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem11_1 : DmaSem sig := 13

abbrev nD : Nat := 1
abbrev τ : Topo := Topo.v7x

variable {F : FTy → Type} [FloatOps F]

abbrev grid0 : Pipeline.Grid := ⟨2, ![2, 32], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x4x128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x4096x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S1x1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 1 → Memref sig .tc .vmem S1x1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 1 → Memref sig .tc .vmem S1x1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]

abbrev stage0_5 : Fin 1 → Memref sig .tc .vmem S1x256x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false]

abbrev stage0_6 : Fin 1 → Memref sig .tc .vmem S1x1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, false]

abbrev stage0_7 : Fin 1 → Memref sig .tc .vmem S1x1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, false]

abbrev stage0_8 : Fin 1 → Memref sig .tc .vmem S1x1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true, false]

abbrev stage0_9 : Fin 1 → Memref sig .tc .vmem S1x128x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true, false]

abbrev stage0_10 : Fin 1 → Memref sig .tc .vmem S1x1x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true, false]

abbrev stage0_11 : Fin 2 → Memref sig .tc .vmem S1x4x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

class Facts₀ : Prop where
  shapeCasts_S2x256_S2x1x256 : S2x256.ShapeCasts S2x1x256
  shapeCasts_S2x128_S2x1x128 : S2x128.ShapeCasts S2x1x128
  shapeCasts_S2x1_S2x1x1 : S2x1.ShapeCasts S2x1x1
  inb_S1x4x128x4096_S1x4x128x4096_0_0_0_0 : ∀ a, (![0, 0, 0, 0] : Fin 4 → Nat) a + S1x4x128x4096.size a ≤ S1x4x128x4096.size a
  h_S1x4x128x4096 : 0 < S1x4x128x4096.numel
  shapeCasts_S1x4x128x4096_S4x128x4096 : S1x4x128x4096.ShapeCasts S4x128x4096
  shapeCasts_S4x128x4096_S512x4096 : S4x128x4096.ShapeCasts S512x4096
  inb_S1x4096x256_S1x4096x256_0_0_0 : ∀ a, (![0, 0, 0] : Fin 3 → Nat) a + S1x4096x256.size a ≤ S1x4096x256.size a
  h_S1x4096x256 : 0 < S1x4096x256.numel
  shapeCasts_S1x4096x256_S4096x256 : S1x4096x256.ShapeCasts S4096x256
  shapeCasts_S512x256_S4x128x256 : S512x256.ShapeCasts S4x128x256
  inb_S1x1x256_S1x1x256_0_0_0 : ∀ a, (![0, 0, 0] : Fin 3 → Nat) a + S1x1x256.size a ≤ S1x1x256.size a
  h_S1x1x256 : 0 < S1x1x256.numel
  shapeCasts_S1x1x256_S1x256 : S1x1x256.ShapeCasts S1x256
  shapeCasts_S1x256_S1x1x256 : S1x256.ShapeCasts S1x1x256
  broadcasts_S1x1x256_S4x128x256 : S1x1x256.Broadcasts S4x128x256
  reduces_S4x128x256_S128x256 : S4x128x256.Reduces [0] S128x256
  shapeCasts_S128x256_S1x128x256 : S128x256.ShapeCasts S1x128x256
  broadcasts_S1x128x256_S4x128x256 : S1x128x256.Broadcasts S4x128x256
  shapeCasts_S4x128x256_S512x256 : S4x128x256.ShapeCasts S512x256
  inb_S1x256x128_S1x256x128_0_0_0 : ∀ a, (![0, 0, 0] : Fin 3 → Nat) a + S1x256x128.size a ≤ S1x256x128.size a
  h_S1x256x128 : 0 < S1x256x128.numel
  shapeCasts_S1x256x128_S256x128 : S1x256x128.ShapeCasts S256x128
  shapeCasts_S512x128_S4x128x128 : S512x128.ShapeCasts S4x128x128
  inb_S1x1x128_S1x1x128_0_0_0 : ∀ a, (![0, 0, 0] : Fin 3 → Nat) a + S1x1x128.size a ≤ S1x1x128.size a
  h_S1x1x128 : 0 < S1x1x128.numel
  shapeCasts_S1x1x128_S1x128 : S1x1x128.ShapeCasts S1x128
  shapeCasts_S1x128_S1x1x128 : S1x128.ShapeCasts S1x1x128
  broadcasts_S1x1x128_S4x128x128 : S1x1x128.Broadcasts S4x128x128
  reduces_S4x128x128_S128x128 : S4x128x128.Reduces [0] S128x128
  shapeCasts_S128x128_S1x128x128 : S128x128.ShapeCasts S1x128x128
  broadcasts_S1x128x128_S4x128x128 : S1x128x128.Broadcasts S4x128x128
  inb_S1x128x1_S1x128x1_0_0_0 : ∀ a, (![0, 0, 0] : Fin 3 → Nat) a + S1x128x1.size a ≤ S1x128x1.size a
  h_S1x128x1 : 0 < S1x128x1.numel
  shapeCasts_S1x128x1_S128x1 : S1x128x1.ShapeCasts S128x1
  shapeCasts_S128x1_S128 : S128x1.ShapeCasts S128
  shapeCasts_S128_S1x1x128 : S128.ShapeCasts S1x1x128
  reduces_S4x128x128_S4x128 : S4x128x128.Reduces [2] S4x128
  inb_S1x1x1_S1x1x1_0_0_0 : ∀ a, (![0, 0, 0] : Fin 3 → Nat) a + S1x1x1.size a ≤ S1x1x1.size a
  h_S1x1x1 : 0 < S1x1x1.numel
  shapeCasts_S1x1x1_S1x1 : S1x1x1.ShapeCasts S1x1
  inpos_S1x1_p0_0 : ∀ a, (![0, 0] : Fin 2 → Nat) a < S1x1.size a
  inb_S1x4x128_S1x4x128_0_0_0 : ∀ a, (![0, 0, 0] : Fin 3 → Nat) a + S1x4x128.size a ≤ S1x4x128.size a
  h_S1x4x128 : 0 < S1x4x128.numel
  shapeCasts_S1x4x128_S4x128 : S1x4x128.ShapeCasts S4x128
  shapeCasts_S4x128_S1x4x128 : S4x128.ShapeCasts S1x4x128
  transposes_S2x4x4096_S4x4096x2_1_2_0 : S2x4x4096.Transposes [1, 2, 0] S4x4096x2
  dot_S512x4096_S4096x256_S512x256_1_0_0_1_n_n_wf : DotDims.WF S512x4096 S4096x256 S512x256 [1] [0] [0] [1] [] []
  dot_S512x256_S256x128_S512x128_1_0_0_1_n_n_wf : DotDims.WF S512x256 S256x128 S512x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x4x128x4096.size a ≤ S2x4x4096x4096.size a
  hwx0_0 : ∀ i : grid0.Coords, EltTy.bits .f32 = 32 ∨ (Rect.block (s := S2x4x4096x4096) S1x4x128x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x4096x256.size a ≤ S2x4096x256.size a
  hwx0_1 : ∀ i : grid0.Coords, EltTy.bits .f32 = 32 ∨ (Rect.block (s := S2x4096x256) S1x4096x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1x256.size a ≤ S2x1x256.size a
  hwx0_2 : ∀ i : grid0.Coords, EltTy.bits .f32 = 32 ∨ (Rect.block (s := S2x1x256) S1x1x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1x256.size a ≤ S2x1x256.size a
  hwx0_3 : ∀ i : grid0.Coords, EltTy.bits .f32 = 32 ∨ (Rect.block (s := S2x1x256) S1x1x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1x256.size a ≤ S2x1x256.size a
  hwx0_4 : ∀ i : grid0.Coords, EltTy.bits .f32 = 32 ∨ (Rect.block (s := S2x1x256) S1x1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256x128.size a ≤ S2x256x128.size a
  hwx0_5 : ∀ i : grid0.Coords, EltTy.bits .f32 = 32 ∨ (Rect.block (s := S2x256x128) S1x256x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1x128.size a ≤ S2x1x128.size a
  hwx0_6 : ∀ i : grid0.Coords, EltTy.bits .f32 = 32 ∨ (Rect.block (s := S2x1x128) S1x1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x1x128.size a ≤ S2x1x128.size a
  hwx0_7 : ∀ i : grid0.Coords, EltTy.bits .f32 = 32 ∨ (Rect.block (s := S2x1x128) S1x1x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x1x128.size a ≤ S2x1x128.size a
  hwx0_8 : ∀ i : grid0.Coords, EltTy.bits .f32 = 32 ∨ (Rect.block (s := S2x1x128) S1x1x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x128x1.size a ≤ S2x128x1.size a
  hwx0_9 : ∀ i : grid0.Coords, EltTy.bits .f32 = 32 ∨ (Rect.block (s := S2x128x1) S1x128x1.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x1x1.size a ≤ S2x1x1.size a
  hwx0_10 : ∀ i : grid0.Coords, EltTy.bits .f32 = 32 ∨ (Rect.block (s := S2x1x1) S1x1x1.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S1x4x128.size a ≤ S2x4x4096.size a
  hwx0_11 : ∀ i : grid0.Coords, EltTy.bits .f32 = 32 ∨ (Rect.block (s := S2x4x4096) S1x4x128.size (cc0_transform_11 i) (hinb0_11 i)).WholeWords (EltTy.packing .f32)

variable [Facts₀]

def dot_S512x4096_S4096x256_S512x256_1_0_0_1_n_n : DotDims S512x4096 S4096x256 S512x256 where
  lhsContracting := [1]
  rhsContracting := [0]
  lhsNonContracting := [0]
  rhsNonContracting := [1]
  lhsBatch := []
  rhsBatch := []
  wf := dot_S512x4096_S4096x256_S512x256_1_0_0_1_n_n_wf
def dot_S512x256_S256x128_S512x128_1_0_0_1_n_n : DotDims S512x256 S256x128 S512x128 where
  lhsContracting := [1]
  rhsContracting := [0]
  lhsNonContracting := [0]
  rhsNonContracting := [1]
  lhsBatch := []
  rhsBatch := []
  wf := dot_S512x256_S256x128_S512x128_1_0_0_1_n_n_wf

abbrev win0_0 : Pipeline.Window sig grid0 :=
  Pipeline.Window.ofSpec (Memref.whole main_arg0) S1x4x128x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x4096x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S1x256x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v3) S1x1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v4) S1x1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v5) S1x1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S1x128x1.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v6) S1x1x1.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v7) S1x4x128.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S2x4x4096x4096 : Shape := ⟨4, ![2, 4, 4096, 4096]⟩
abbrev S2x4096x256 : Shape := ⟨3, ![2, 4096, 256]⟩
abbrev S2x256 : Shape := ⟨2, ![2, 256]⟩
abbrev S2x256x128 : Shape := ⟨3, ![2, 256, 128]⟩
abbrev S2x128 : Shape := ⟨2, ![2, 128]⟩
abbrev S2x128x1 : Shape := ⟨3, ![2, 128, 1]⟩
abbrev S2x1 : Shape := ⟨2, ![2, 1]⟩
abbrev S2x4x4096x256 : Shape := ⟨4, ![2, 4, 4096, 256]⟩
abbrev S2x1x1x256 : Shape := ⟨4, ![2, 1, 1, 256]⟩
abbrev S_ : Shape := ⟨0, ![]⟩
abbrev S2x1x4096x256 : Shape := ⟨4, ![2, 1, 4096, 256]⟩
abbrev S1x4096x256 : Shape := ⟨3, ![1, 4096, 256]⟩
abbrev S2x4x4096x128 : Shape := ⟨4, ![2, 4, 4096, 128]⟩
abbrev S2x1x1x128 : Shape := ⟨4, ![2, 1, 1, 128]⟩
abbrev S2x4096x128 : Shape := ⟨3, ![2, 4096, 128]⟩
abbrev S2x1x4096x128 : Shape := ⟨4, ![2, 1, 4096, 128]⟩
abbrev S1x4096x128 : Shape := ⟨3, ![1, 4096, 128]⟩
abbrev S2x4x4096x1 : Shape := ⟨4, ![2, 4, 4096, 1]⟩
abbrev S2x1x1x1 : Shape := ⟨4, ![2, 1, 1, 1]⟩
abbrev S2x4x4096 : Shape := ⟨3, ![2, 4, 4096]⟩
abbrev S4x4096x2 : Shape := ⟨3, ![4, 4096, 2]⟩

abbrev nBuf : Space → Nat
  | .hbm => 121
  | .vmem => 0
  | .smem => 0
  | _ => 0

abbrev bufTy : (tb : Table) → Fin (tcTables nBuf tb) → BufTy
  | .hbm, ⟨0, _⟩ => ⟨S2x4x4096x4096, .f32⟩
  | .hbm, ⟨1, _⟩ => ⟨S2x4096x256, .f32⟩
  | .hbm, ⟨2, _⟩ => ⟨S2x256, .f32⟩
  | .hbm, ⟨3, _⟩ => ⟨S2x256, .f32⟩
  | .hbm, ⟨4, _⟩ => ⟨S2x256, .f32⟩
  | .hbm, ⟨5, _⟩ => ⟨S2x256x128, .f32⟩
  | .hbm, ⟨6, _⟩ => ⟨S2x128, .f32⟩
  | .hbm, ⟨7, _⟩ => ⟨S2x128, .f32⟩
  | .hbm, ⟨8, _⟩ => ⟨S2x128, .f32⟩
  | .hbm, ⟨9, _⟩ => ⟨S2x128x1, .f32⟩
  | .hbm, ⟨10, _⟩ => ⟨S2x1, .f32⟩
  | .hbm, ⟨11, _⟩ => ⟨S2x4x4096x256, .f32⟩
  | .hbm, ⟨12, _⟩ => ⟨S2x1x1x256, .f32⟩
  | .hbm, ⟨13, _⟩ => ⟨S2x4x4096x256, .f32⟩
  | .hbm, ⟨14, _⟩ => ⟨S2x4x4096x256, .f32⟩
  | .hbm, ⟨15, _⟩ => ⟨S_, .f32⟩
  | .hbm, ⟨16, _⟩ => ⟨S2x4096x256, .f32⟩
  | .hbm, ⟨17, _⟩ => ⟨S2x1x4096x256, .f32⟩
  | .hbm, ⟨18, _⟩ => ⟨S_, .f32⟩
  | .hbm, ⟨19, _⟩ => ⟨S2x1x4096x256, .f32⟩
  | .hbm, ⟨20, _⟩ => ⟨S2x1x4096x256, .f32⟩
  | .hbm, ⟨21, _⟩ => ⟨S_, .i32⟩
  | .hbm, ⟨22, _⟩ => ⟨S_, .f32⟩
  | .hbm, ⟨23, _⟩ => ⟨S2x4096x256, .f32⟩
  | .hbm, ⟨24, _⟩ => ⟨S2x1x4096x256, .f32⟩
  | .hbm, ⟨25, _⟩ => ⟨S_, .f32⟩
  | .hbm, ⟨26, _⟩ => ⟨S2x1x4096x256, .f32⟩
  | .hbm, ⟨27, _⟩ => ⟨S2x1x4096x256, .f32⟩
  | .hbm, ⟨28, _⟩ => ⟨S2x4x4096x256, .f32⟩
  | .hbm, ⟨29, _⟩ => ⟨S2x4x4096x256, .f32⟩
  | .hbm, ⟨30, _⟩ => ⟨S2x4x4096x256, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S2x4096x256, .f32⟩
  | .hbm, ⟨36, _⟩ => ⟨S2x1x4096x256, .f32⟩
  | .hbm, ⟨37, _⟩ => ⟨S2x1x4096x256, .f32⟩
  | .hbm, ⟨38, _⟩ => ⟨S2x1x4096x256, .f32⟩
  | .hbm, ⟨39, _⟩ => ⟨S_, .f32⟩
  | .hbm, ⟨40, _⟩ => ⟨S_, .i1⟩
  | .hbm, ⟨41, _⟩ => ⟨S_, .f32⟩
  | .hbm, ⟨42, _⟩ => ⟨S_, .f32⟩
  | .hbm, ⟨43, _⟩ => ⟨S1x4096x256, .f32⟩
  | .hbm, ⟨44, _⟩ => ⟨S2x1x4096x256, .f32⟩
  | .hbm, ⟨45, _⟩ => ⟨S2x1x4096x256, .f32⟩
  | .hbm, ⟨46, _⟩ => ⟨S2x4x4096x256, .f32⟩
  | .hbm, ⟨47, _⟩ => ⟨S2x4x4096x256, .f32⟩
  | .hbm, ⟨48, _⟩ => ⟨S2x1x1x256, .f32⟩
  | .hbm, ⟨49, _⟩ => ⟨S2x4x4096x256, .f32⟩
  | .hbm, ⟨50, _⟩ => ⟨S2x4x4096x256, .f32⟩
  | .hbm, ⟨51, _⟩ => ⟨S_, .f32⟩
  | .hbm, ⟨52, _⟩ => ⟨S2x1x4096x256, .f32⟩
  | .hbm, ⟨53, _⟩ => ⟨S2x1x4096x256, .f32⟩
  | .hbm, ⟨54, _⟩ => ⟨S2x1x4096x256, .f32⟩
  | .hbm, ⟨55, _⟩ => ⟨S2x4x4096x256, .f32⟩
  | .hbm, ⟨56, _⟩ => ⟨S2x4x4096x256, .f32⟩
  | .hbm, ⟨57, _⟩ => ⟨S2x1x1x256, .f32⟩
  | .hbm, ⟨58, _⟩ => ⟨S2x4x4096x256, .f32⟩
  | .hbm, ⟨59, _⟩ => ⟨S2x4x4096x256, .f32⟩
  | .hbm, ⟨60, _⟩ => ⟨S_, .f32⟩
  | .hbm, ⟨61, _⟩ => ⟨S2x4x4096x256, .f32⟩
  | .hbm, ⟨62, _⟩ => ⟨S2x4x4096x256, .f32⟩
  | .hbm, ⟨63, _⟩ => ⟨S2x4x4096x128, .f32⟩
  | .hbm, ⟨64, _⟩ => ⟨S2x1x1x128, .f32⟩
  | .hbm, ⟨65, _⟩ => ⟨S2x4x4096x128, .f32⟩
  | .hbm, ⟨66, _⟩ => ⟨S2x4x4096x128, .f32⟩
  | .hbm, ⟨67, _⟩ => ⟨S_, .f32⟩
  | .hbm, ⟨68, _⟩ => ⟨S2x4096x128, .f32⟩
  | .hbm, ⟨69, _⟩ => ⟨S2x1x4096x128, .f32⟩
  | .hbm, ⟨70, _⟩ => ⟨S_, .f32⟩
  | .hbm, ⟨71, _⟩ => ⟨S2x1x4096x128, .f32⟩
  | .hbm, ⟨72, _⟩ => ⟨S2x1x4096x128, .f32⟩
  | .hbm, ⟨73, _⟩ => ⟨S_, .i32⟩
  | .hbm, ⟨74, _⟩ => ⟨S_, .f32⟩
  | .hbm, ⟨75, _⟩ => ⟨S2x4096x128, .f32⟩
  | .hbm, ⟨76, _⟩ => ⟨S2x1x4096x128, .f32⟩
  | .hbm, ⟨77, _⟩ => ⟨S_, .f32⟩
  | .hbm, ⟨78, _⟩ => ⟨S2x1x4096x128, .f32⟩
  | .hbm, ⟨79, _⟩ => ⟨S2x1x4096x128, .f32⟩
  | .hbm, ⟨80, _⟩ => ⟨S2x4x4096x128, .f32⟩
  | .hbm, ⟨81, _⟩ => ⟨S2x4x4096x128, .f32⟩
  | .hbm, ⟨82, _⟩ => ⟨S2x4x4096x128, .f32⟩
  | .hbm, ⟨83, _⟩ => ⟨S_, .f32⟩
  | .hbm, ⟨84, _⟩ => ⟨S_, .f32⟩
  | .hbm, ⟨85, _⟩ => ⟨S_, .f32⟩
  | .hbm, ⟨86, _⟩ => ⟨S_, .f32⟩
  | .hbm, ⟨87, _⟩ => ⟨S2x4096x128, .f32⟩
  | .hbm, ⟨88, _⟩ => ⟨S2x1x4096x128, .f32⟩
  | .hbm, ⟨89, _⟩ => ⟨S2x1x4096x128, .f32⟩
  | .hbm, ⟨90, _⟩ => ⟨S2x1x4096x128, .f32⟩
  | .hbm, ⟨91, _⟩ => ⟨S_, .f32⟩
  | .hbm, ⟨92, _⟩ => ⟨S_, .i1⟩
  | .hbm, ⟨93, _⟩ => ⟨S_, .f32⟩
  | .hbm, ⟨94, _⟩ => ⟨S_, .f32⟩
  | .hbm, ⟨95, _⟩ => ⟨S1x4096x128, .f32⟩
  | .hbm, ⟨96, _⟩ => ⟨S2x1x4096x128, .f32⟩
  | .hbm, ⟨97, _⟩ => ⟨S2x1x4096x128, .f32⟩
  | .hbm, ⟨98, _⟩ => ⟨S2x4x4096x128, .f32⟩
  | .hbm, ⟨99, _⟩ => ⟨S2x4x4096x128, .f32⟩
  | .hbm, ⟨100, _⟩ => ⟨S2x1x1x128, .f32⟩
  | .hbm, ⟨101, _⟩ => ⟨S2x4x4096x128, .f32⟩
  | .hbm, ⟨102, _⟩ => ⟨S2x4x4096x128, .f32⟩
  | .hbm, ⟨103, _⟩ => ⟨S_, .f32⟩
  | .hbm, ⟨104, _⟩ => ⟨S2x1x4096x128, .f32⟩
  | .hbm, ⟨105, _⟩ => ⟨S2x1x4096x128, .f32⟩
  | .hbm, ⟨106, _⟩ => ⟨S2x1x4096x128, .f32⟩
  | .hbm, ⟨107, _⟩ => ⟨S2x4x4096x128, .f32⟩
  | .hbm, ⟨108, _⟩ => ⟨S2x4x4096x128, .f32⟩
  | .hbm, ⟨109, _⟩ => ⟨S2x1x1x128, .f32⟩
  | .hbm, ⟨110, _⟩ => ⟨S2x4x4096x128, .f32⟩
  | .hbm, ⟨111, _⟩ => ⟨S2x4x4096x128, .f32⟩
  | .hbm, ⟨112, _⟩ => ⟨S_, .f32⟩
  | .hbm, ⟨113, _⟩ => ⟨S2x4x4096x128, .f32⟩
  | .hbm, ⟨114, _⟩ => ⟨S2x4x4096x128, .f32⟩
  | .hbm, ⟨115, _⟩ => ⟨S2x4x4096x1, .f32⟩
  | .hbm, ⟨116, _⟩ => ⟨S2x1x1x1, .f32⟩
  | .hbm, ⟨117, _⟩ => ⟨S2x4x4096x1, .f32⟩
  | .hbm, ⟨118, _⟩ => ⟨S2x4x4096x1, .f32⟩
  | .hbm, ⟨119, _⟩ => ⟨S2x4x4096, .f32⟩
  | .hbm, ⟨120, _⟩ => ⟨S4x4096x2, .f32⟩
  | _, _ => ⟨S2x4x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_v5 : Ref sig .tc := ⟨.hbm, 17, rfl⟩
abbrev main_cst_0 : Ref sig .tc := ⟨.hbm, 18, rfl⟩
abbrev main_v6 : Ref sig .tc := ⟨.hbm, 19, rfl⟩
abbrev main_v7 : Ref sig .tc := ⟨.hbm, 20, rfl⟩
abbrev main_c : Ref sig .tc := ⟨.hbm, 21, rfl⟩
abbrev main_call0_cst : Ref sig .tc := ⟨.hbm, 22, rfl⟩
abbrev main_call0_v0 : Ref sig .tc := ⟨.hbm, 23, rfl⟩
abbrev main_call0_v1 : Ref sig .tc := ⟨.hbm, 24, rfl⟩
abbrev main_call0_cst_0 : Ref sig .tc := ⟨.hbm, 25, rfl⟩
abbrev main_call0_v2 : Ref sig .tc := ⟨.hbm, 26, rfl⟩
abbrev main_call0_v3 : Ref sig .tc := ⟨.hbm, 27, rfl⟩
abbrev main_call0_v4 : Ref sig .tc := ⟨.hbm, 28, rfl⟩
abbrev main_call0_v5 : Ref sig .tc := ⟨.hbm, 29, rfl⟩
abbrev main_call0_v6 : Ref sig .tc := ⟨.hbm, 30, rfl⟩
abbrev main_call0_v7 : Ref sig .tc := ⟨.hbm, 31, rfl⟩
abbrev main_call0_cst_1 : Ref sig .tc := ⟨.hbm, 32, rfl⟩
abbrev main_call0_v8 : Ref sig .tc := ⟨.hbm, 33, rfl⟩
abbrev main_call0_cst_2 : Ref sig .tc := ⟨.hbm, 34, rfl⟩
abbrev main_call0_v9 : Ref sig .tc := ⟨.hbm, 35, rfl⟩
abbrev main_call0_v10 : Ref sig .tc := ⟨.hbm, 36, rfl⟩
abbrev main_call0_v11 : Ref sig .tc := ⟨.hbm, 37, rfl⟩
abbrev main_call0_v12 : Ref sig .tc := ⟨.hbm, 38, rfl⟩
abbrev main_call0_cst_3 : Ref sig .tc := ⟨.hbm, 39, rfl⟩
abbrev main_call0_v13 : Ref sig .tc := ⟨.hbm, 40, rfl⟩
abbrev main_call0_cst_4 : Ref sig .tc := ⟨.hbm, 41, rfl⟩
abbrev main_call0_call0_v0 : Ref sig .tc := ⟨.hbm, 42, rfl⟩
abbrev main_call0_call0_v1 : Ref sig .tc := ⟨.hbm, 43, rfl⟩
abbrev main_call0_call0_v2 : Ref sig .tc := ⟨.hbm, 44, rfl⟩
abbrev main_v8 : Ref sig .tc := ⟨.hbm, 45, rfl⟩
abbrev main_v9 : Ref sig .tc := ⟨.hbm, 46, rfl⟩
abbrev main_v10 : Ref sig .tc := ⟨.hbm, 47, rfl⟩
abbrev main_v11 : Ref sig .tc := ⟨.hbm, 48, rfl⟩
abbrev main_v12 : Ref sig .tc := ⟨.hbm, 49, rfl⟩
abbrev main_v13 : Ref sig .tc := ⟨.hbm, 50, rfl⟩
abbrev main_cst_1 : Ref sig .tc := ⟨.hbm, 51, rfl⟩
abbrev main_v14 : Ref sig .tc := ⟨.hbm, 52, rfl⟩
abbrev main_v15 : Ref sig .tc := ⟨.hbm, 53, rfl⟩
abbrev main_v16 : Ref sig .tc := ⟨.hbm, 54, rfl⟩
abbrev main_v17 : Ref sig .tc := ⟨.hbm, 55, rfl⟩
abbrev main_v18 : Ref sig .tc := ⟨.hbm, 56, rfl⟩
abbrev main_v19 : Ref sig .tc := ⟨.hbm, 57, rfl⟩
abbrev main_v20 : Ref sig .tc := ⟨.hbm, 58, rfl⟩
abbrev main_v21 : Ref sig .tc := ⟨.hbm, 59, rfl⟩
abbrev main_call1_cst : Ref sig .tc := ⟨.hbm, 60, rfl⟩
abbrev main_call1_v0 : Ref sig .tc := ⟨.hbm, 61, rfl⟩
abbrev main_v22 : Ref sig .tc := ⟨.hbm, 62, rfl⟩
abbrev main_v23 : Ref sig .tc := ⟨.hbm, 63, rfl⟩
abbrev main_v24 : Ref sig .tc := ⟨.hbm, 64, rfl⟩
abbrev main_v25 : Ref sig .tc := ⟨.hbm, 65, rfl⟩
abbrev main_v26 : Ref sig .tc := ⟨.hbm, 66, rfl⟩
abbrev main_cst_2 : Ref sig .tc := ⟨.hbm, 67, rfl⟩
abbrev main_v27 : Ref sig .tc := ⟨.hbm, 68, rfl⟩
abbrev main_v28 : Ref sig .tc := ⟨.hbm, 69, rfl⟩
abbrev main_cst_3 : Ref sig .tc := ⟨.hbm, 70, rfl⟩
abbrev main_v29 : Ref sig .tc := ⟨.hbm, 71, rfl⟩
abbrev main_v30 : Ref sig .tc := ⟨.hbm, 72, rfl⟩
abbrev main_c_4 : Ref sig .tc := ⟨.hbm, 73, rfl⟩
abbrev main_call2_cst : Ref sig .tc := ⟨.hbm, 74, rfl⟩
abbrev main_call2_v0 : Ref sig .tc := ⟨.hbm, 75, rfl⟩
abbrev main_call2_v1 : Ref sig .tc := ⟨.hbm, 76, rfl⟩
abbrev main_call2_cst_0 : Ref sig .tc := ⟨.hbm, 77, rfl⟩
abbrev main_call2_v2 : Ref sig .tc := ⟨.hbm, 78, rfl⟩
abbrev main_call2_v3 : Ref sig .tc := ⟨.hbm, 79, rfl⟩
abbrev main_call2_v4 : Ref sig .tc := ⟨.hbm, 80, rfl⟩
abbrev main_call2_v5 : Ref sig .tc := ⟨.hbm, 81, rfl⟩
abbrev main_call2_v6 : Ref sig .tc := ⟨.hbm, 82, rfl⟩
abbrev main_call2_v7 : Ref sig .tc := ⟨.hbm, 83, rfl⟩
abbrev main_call2_cst_1 : Ref sig .tc := ⟨.hbm, 84, rfl⟩
abbrev main_call2_v8 : Ref sig .tc := ⟨.hbm, 85, rfl⟩
abbrev main_call2_cst_2 : Ref sig .tc := ⟨.hbm, 86, rfl⟩
abbrev main_call2_v9 : Ref sig .tc := ⟨.hbm, 87, rfl⟩
abbrev main_call2_v10 : Ref sig .tc := ⟨.hbm, 88, rfl⟩
abbrev main_call2_v11 : Ref sig .tc := ⟨.hbm, 89, rfl⟩
abbrev main_call2_v12 : Ref sig .tc := ⟨.hbm, 90, rfl⟩
abbrev main_call2_cst_3 : Ref sig .tc := ⟨.hbm, 91, rfl⟩
abbrev main_call2_v13 : Ref sig .tc := ⟨.hbm, 92, rfl⟩
abbrev main_call2_cst_4 : Ref sig .tc := ⟨.hbm, 93, rfl⟩
abbrev main_call2_call0_v0 : Ref sig .tc := ⟨.hbm, 94, rfl⟩
abbrev main_call2_call0_v1 : Ref sig .tc := ⟨.hbm, 95, rfl⟩
abbrev main_call2_call0_v2 : Ref sig .tc := ⟨.hbm, 96, rfl⟩
abbrev main_v31 : Ref sig .tc := ⟨.hbm, 97, rfl⟩
abbrev main_v32 : Ref sig .tc := ⟨.hbm, 98, rfl⟩
abbrev main_v33 : Ref sig .tc := ⟨.hbm, 99, rfl⟩
abbrev main_v34 : Ref sig .tc := ⟨.hbm, 100, rfl⟩
abbrev main_v35 : Ref sig .tc := ⟨.hbm, 101, rfl⟩
abbrev main_v36 : Ref sig .tc := ⟨.hbm, 102, rfl⟩
abbrev main_cst_5 : Ref sig .tc := ⟨.hbm, 103, rfl⟩
abbrev main_v37 : Ref sig .tc := ⟨.hbm, 104, rfl⟩
abbrev main_v38 : Ref sig .tc := ⟨.hbm, 105, rfl⟩
abbrev main_v39 : Ref sig .tc := ⟨.hbm, 106, rfl⟩
abbrev main_v40 : Ref sig .tc := ⟨.hbm, 107, rfl⟩
abbrev main_v41 : Ref sig .tc := ⟨.hbm, 108, rfl⟩
abbrev main_v42 : Ref sig .tc := ⟨.hbm, 109, rfl⟩
abbrev main_v43 : Ref sig .tc := ⟨.hbm, 110, rfl⟩
abbrev main_v44 : Ref sig .tc := ⟨.hbm, 111, rfl⟩
abbrev main_call3_cst : Ref sig .tc := ⟨.hbm, 112, rfl⟩
abbrev main_call3_v0 : Ref sig .tc := ⟨.hbm, 113, rfl⟩
abbrev main_v45 : Ref sig .tc := ⟨.hbm, 114, rfl⟩
abbrev main_v46 : Ref sig .tc := ⟨.hbm, 115, rfl⟩
abbrev main_v47 : Ref sig .tc := ⟨.hbm, 116, rfl⟩
abbrev main_v48 : Ref sig .tc := ⟨.hbm, 117, rfl⟩
abbrev main_v49 : Ref sig .tc := ⟨.hbm, 118, rfl⟩
abbrev main_v50 : Ref sig .tc := ⟨.hbm, 119, rfl⟩
abbrev main_v51 : Ref sig .tc := ⟨.hbm, 120, rfl⟩

abbrev nD : Nat := 1
abbrev τ : Topo := Topo.v7x

variable {F : FTy → Type} [FloatOps F]

class Facts₀ : Prop where
  bcast_S2x256_S2x1x1x256_0_3 : S2x256.BroadcastsInDim S2x1x1x256 (![0, 3] : Fin 2 → Fin S2x1x1x256.rank)
  bcast_S2x1x1x256_S2x4x4096x256_0_1_2_3 : S2x1x1x256.BroadcastsInDim S2x4x4096x256 (![0, 1, 2, 3] : Fin 4 → Fin S2x4x4096x256.rank)
  reducesTo_S2x4x4096x256_S2x4096x256_d1 : S2x4x4096x256.ReducesTo [1] S2x4096x256
  h_S_ : 0 < S_.numel
  bcast_S2x4096x256_S2x1x4096x256_0_2_3 : S2x4096x256.BroadcastsInDim S2x1x4096x256 (![0, 2, 3] : Fin 3 → Fin S2x1x4096x256.rank)
  bcast_S_S2x1x4096x256 : S_.BroadcastsInDim S2x1x4096x256 (![] : Fin 0 → Fin S2x1x4096x256.rank)
  bcast_S2x1x4096x256_S2x4x4096x256_0_1_2_3 : S2x1x4096x256.BroadcastsInDim S2x4x4096x256 (![0, 1, 2, 3] : Fin 4 → Fin S2x4x4096x256.rank)
  bcast_S_S1x4096x256 : S_.BroadcastsInDim S1x4096x256 (![] : Fin 0 → Fin S1x4096x256.rank)
  bcast_S1x4096x256_S2x1x4096x256_1_2_3 : S1x4096x256.BroadcastsInDim S2x1x4096x256 (![1, 2, 3] : Fin 3 → Fin S2x1x4096x256.rank)
  bcast_S_S2x4x4096x256 : S_.BroadcastsInDim S2x4x4096x256 (![] : Fin 0 → Fin S2x4x4096x256.rank)
  bcast_S2x128_S2x1x1x128_0_3 : S2x128.BroadcastsInDim S2x1x1x128 (![0, 3] : Fin 2 → Fin S2x1x1x128.rank)
  bcast_S2x1x1x128_S2x4x4096x128_0_1_2_3 : S2x1x1x128.BroadcastsInDim S2x4x4096x128 (![0, 1, 2, 3] : Fin 4 → Fin S2x4x4096x128.rank)
  reducesTo_S2x4x4096x128_S2x4096x128_d1 : S2x4x4096x128.ReducesTo [1] S2x4096x128
  bcast_S2x4096x128_S2x1x4096x128_0_2_3 : S2x4096x128.BroadcastsInDim S2x1x4096x128 (![0, 2, 3] : Fin 3 → Fin S2x1x4096x128.rank)
  bcast_S_S2x1x4096x128 : S_.BroadcastsInDim S2x1x4096x128 (![] : Fin 0 → Fin S2x1x4096x128.rank)
  bcast_S2x1x4096x128_S2x4x4096x128_0_1_2_3 : S2x1x4096x128.BroadcastsInDim S2x4x4096x128 (![0, 1, 2, 3] : Fin 4 → Fin S2x4x4096x128.rank)
  bcast_S_S1x4096x128 : S_.BroadcastsInDim S1x4096x128 (![] : Fin 0 → Fin S1x4096x128.rank)
  bcast_S1x4096x128_S2x1x4096x128_1_2_3 : S1x4096x128.BroadcastsInDim S2x1x4096x128 (![1, 2, 3] : Fin 3 → Fin S2x1x4096x128.rank)
  bcast_S_S2x4x4096x128 : S_.BroadcastsInDim S2x4x4096x128 (![] : Fin 0 → Fin S2x4x4096x128.rank)
  bcast_S2x1_S2x1x1x1_0_3 : S2x1.BroadcastsInDim S2x1x1x1 (![0, 3] : Fin 2 → Fin S2x1x1x1.rank)
  bcast_S2x1x1x1_S2x4x4096x1_0_1_2_3 : S2x1x1x1.BroadcastsInDim S2x4x4096x1 (![0, 1, 2, 3] : Fin 4 → Fin S2x4x4096x1.rank)
  shapeCasts_S2x4x4096x1_S2x4x4096 : S2x4x4096x1.ShapeCasts S2x4x4096
  transposes_S2x4x4096_S4x4096x2_1_2_0 : S2x4x4096.Transposes [1, 2, 0] S4x4096x2
  dot_S2x4x4096x4096_S2x4096x256_S2x4x4096x256_3_1_12_2_0_0_wf : DotDims.WF S2x4x4096x4096 S2x4096x256 S2x4x4096x256 [3] [1] [1, 2] [2] [0] [0]
  dot_S2x4x4096x256_S2x256x128_S2x4x4096x128_3_1_12_2_0_0_wf : DotDims.WF S2x4x4096x256 S2x256x128 S2x4x4096x128 [3] [1] [1, 2] [2] [0] [0]
  dot_S2x4x4096x128_S2x128x1_S2x4x4096x1_3_1_12_2_0_0_wf : DotDims.WF S2x4x4096x128 S2x128x1 S2x4x4096x1 [3] [1] [1, 2] [2] [0] [0]

variable [Facts₀]

def dot_S2x4x4096x4096_S2x4096x256_S2x4x4096x256_3_1_12_2_0_0 : DotDims S2x4x4096x4096 S2x4096x256 S2x4x4096x256 where
  lhsContracting := [3]
  rhsContracting := [1]
  lhsNonContracting := [1, 2]
  rhsNonContracting := [2]
  lhsBatch := [0]
  rhsBatch := [0]
  wf := dot_S2x4x4096x4096_S2x4096x256_S2x4x4096x256_3_1_12_2_0_0_wf
def dot_S2x4x4096x256_S2x256x128_S2x4x4096x128_3_1_12_2_0_0 : DotDims S2x4x4096x256 S2x256x128 S2x4x4096x128 where
  lhsContracting := [3]
  rhsContracting := [1]
  lhsNonContracting := [1, 2]
  rhsNonContracting := [2]
  lhsBatch := [0]
  rhsBatch := [0]
  wf := dot_S2x4x4096x256_S2x256x128_S2x4x4096x128_3_1_12_2_0_0_wf
def dot_S2x4x4096x128_S2x128x1_S2x4x4096x1_3_1_12_2_0_0 : DotDims S2x4x4096x128 S2x128x1 S2x4x4096x1 where
  lhsContracting := [3]
  rhsContracting := [1]
  lhsNonContracting := [1, 2]
  rhsNonContracting := [2]
  lhsBatch := [0]
  rhsBatch := [0]
  wf := dot_S2x4x4096x128_S2x128x1_S2x4x4096x1_3_1_12_2_0_0_wf

class Facts : Prop extends Facts₀ where

variable [Facts]
-- ==== Proof.Spec.lean ====
/-
  The function both programs compute, stated once over coordinates.

  For each model m (two of them), position s (4096 of them) and batch entry b (four of them) the result is a
  three-layer head applied to the rows hs[m, ·, s, ·] of the four batch entries at that position:

    y1 = row · W1[m] + b1[m]                      (4096 → 256)
    x1 = relu (g1[m] · (y1 − mean y1) · rsqrt (var y1 + ε) + be1[m])
    y2 = x1 · W2[m] + b2[m]                       (256 → 128)
    x2 = relu (g2[m] · (y2 − mean y2) · rsqrt (var y2 + ε) + be2[m])
    out = x2 · W3[m] + b3[m]                      (128 → 1)

  where the mean and the (biased) variance of a feature are taken over the FOUR batch entries at the same
  position, independently per position and feature: mean y = (∑ b, y b) · ¼ and var y = (∑ b, (y b − mean y)²) · ¼.
  So the head is a function of ONE position's four rows and ONE model's parameters (`head` below); the result array,
  indexed (b, s, m), applies it position by position (`score`, `result`).  Everything is an extended real; the
  three literals that occur (the quarter, ε and the zero that relu compares against) are kept as the words the
  programs print.
-/
import Idealize.ShloMosaic.PureOps.Ideal
import Idealize.ShloMosaic.Lib.ValueIdx

noncomputable section

open scoped BigOperators

namespace Cert.Head

open Idealize.ShloMosaic Idealize.ShloMosaic.ValueIdx

/-- The quarter the batch statistics are scaled by (the word of 0.25). -/
def quarter : EReal := Ideal.ofBits .f32 0x3E800000#32
/-- The ε added to a variance before the reciprocal square root (the word of f32 1e-5). -/
def eps : EReal := Ideal.ofBits .f32 0x3727C5AC#32
/-- The zero a relu compares against (the zero word). -/
def zero : EReal := Ideal.ofBits .f32 0x00000000#32

/-- The mean of a feature over the four batch entries. -/
def mean (y : Fin 4 → EReal) : EReal := (∑ b : Fin 4, y b) * quarter

/-- The biased variance of a feature over the four batch entries. -/
def var (y : Fin 4 → EReal) : EReal := (∑ b : Fin 4, (y b - mean y) * (y b - mean y)) * quarter

/-- Batch normalisation over the four batch entries, at batch entry b (before the relu). -/
def bn (y : Fin 4 → EReal) (g be : EReal) (b : Fin 4) : EReal :=
  g * (y b - mean y) * Ideal.rsqrt (var y + eps) + be

/-- Batch normalisation followed by relu. -/
def bnrelu (y : Fin 4 → EReal) (g be : EReal) (b : Fin 4) : EReal := max (bn y g be b) zero

section
variable (row : Fin 4 → Fin 4096 → EReal) (W1 : Fin 4096 → Fin 256 → EReal)
  (b1 g1 be1 : Fin 256 → EReal) (W2 : Fin 256 → Fin 128 → EReal)
  (b2 g2 be2 : Fin 128 → EReal) (W3 : Fin 128 → EReal) (b3 : EReal)

/-- The first linear layer, at batch entry b and feature f. -/
def y1 (b : Fin 4) (f : Fin 256) : EReal := (∑ h : Fin 4096, row b h * W1 h f) + b1 f

/-- The first layer normalised over the batch and rectified. -/
def x1 (b : Fin 4) (f : Fin 256) : EReal := bnrelu (fun b' => y1 row W1 b1 b' f) (g1 f) (be1 f) b

/-- The second linear layer. -/
def y2 (b : Fin 4) (g : Fin 128) : EReal := (∑ f : Fin 256, x1 row W1 b1 g1 be1 b f * W2 f g) + b2 g

/-- The second layer normalised over the batch and rectified. -/
def x2 (b : Fin 4) (g : Fin 128) : EReal := bnrelu (fun b' => y2 row W1 b1 g1 be1 W2 b2 b' g) (g2 g) (be2 g) b

/-- The score of batch entry b: the last projection onto one output. -/
def head (b : Fin 4) : EReal := (∑ g : Fin 128, x2 row W1 b1 g1 be1 W2 b2 g2 be2 b g * W3 g) + b3

end

/-- The score as a function of the eleven argument ARRAYS, at coordinates (b, s, m) of the result: the head of
    position s's four rows under model m's parameters. -/
def score (a0 : (⟨4, ![2, 4, 4096, 4096]⟩ : Shape).Idx → EReal) (a1 : (⟨3, ![2, 4096, 256]⟩ : Shape).Idx → EReal)
    (a2 a3 a4 : (⟨2, ![2, 256]⟩ : Shape).Idx → EReal) (a5 : (⟨3, ![2, 256, 128]⟩ : Shape).Idx → EReal)
    (a6 a7 a8 : (⟨2, ![2, 128]⟩ : Shape).Idx → EReal) (a9 : (⟨3, ![2, 128, 1]⟩ : Shape).Idx → EReal)
    (a10 : (⟨2, ![2, 1]⟩ : Shape).Idx → EReal) (b : Fin 4) (s : Fin 4096) (m : Fin 2) : EReal :=
  head (fun b h => a0 (ix4 m b s h)) (fun h f => a1 (ix3 m h f)) (fun f => a2 (ix2 m f))
    (fun f => a3 (ix2 m f)) (fun f => a4 (ix2 m f)) (fun f g => a5 (ix3 m f g)) (fun g => a6 (ix2 m g))
    (fun g => a7 (ix2 m g)) (fun g => a8 (ix2 m g)) (fun g => a9 (ix3 m g (0 : Fin 1)))
    (a10 (ix2 m (0 : Fin 1))) b

/-- The result array [4, 4096, 2]: entry (b, s, m) is the score of model m at batch entry b and position s. -/
def result (a0 : (⟨4, ![2, 4, 4096, 4096]⟩ : Shape).Idx → EReal) (a1 : (⟨3, ![2, 4096, 256]⟩ : Shape).Idx → EReal)
    (a2 a3 a4 : (⟨2, ![2, 256]⟩ : Shape).Idx → EReal) (a5 : (⟨3, ![2, 256, 128]⟩ : Shape).Idx → EReal)
    (a6 a7 a8 : (⟨2, ![2, 128]⟩ : Shape).Idx → EReal) (a9 : (⟨3, ![2, 128, 1]⟩ : Shape).Idx → EReal)
    (a10 : (⟨2, ![2, 1]⟩ : Shape).Idx → EReal) : (⟨3, ![4, 4096, 2]⟩ : Shape).Idx → EReal :=
  fun j => score a0 a1 a2 a3 a4 a5 a6 a7 a8 a9 a10 (j 0) (j 1) (j 2)

/-- The result array at explicit coordinates. -/
theorem result_ix3 (a0 : (⟨4, ![2, 4, 4096, 4096]⟩ : Shape).Idx → EReal) (a1 : (⟨3, ![2, 4096, 256]⟩ : Shape).Idx → EReal)
    (a2 a3 a4 : (⟨2, ![2, 256]⟩ : Shape).Idx → EReal) (a5 : (⟨3, ![2, 256, 128]⟩ : Shape).Idx → EReal)
    (a6 a7 a8 : (⟨2, ![2, 128]⟩ : Shape).Idx → EReal) (a9 : (⟨3, ![2, 128, 1]⟩ : Shape).Idx → EReal)
    (a10 : (⟨2, ![2, 1]⟩ : Shape).Idx → EReal) (b : Fin 4) (s : Fin 4096) (m : Fin 2) :
    result a0 a1 a2 a3 a4 a5 a6 a7 a8 a9 a10 (ix3 b s m) = score a0 a1 a2 a3 a4 a5 a6 a7 a8 a9 a10 b s m := rfl

end Cert.Head

end
-- ==== Proof.LibBatchBlocks.lean ====
/-
  Layout operations and reductions of rank-3 blocks [a, b, c] read at explicit coordinates: what a kernel meets when it
  treats a block of a batches of b rows as one matrix of a·b rows and takes statistics over the batch axis.

  * merging the two leading axes by a shape cast, [a, b, c] → [a·b, c], and splitting them again: row i·b + r of the
    matrix is row r of batch i;
  * one row [1, 1, c], and one matrix [1, b, c], broadcast over the leading axes;
  * at the ideal values, a sum over the batch axis (axis 0) and over the lane axis (axis 2) as sums over that axis's
    coordinates;
  * at the ideal values, a plain matrix product into a zero accumulator as the sum over the contraction coordinate, for
    any dimension numbers that contract the left operand's columns with the right operand's rows;
  * the small casts [a, 1] → [a] and [a] → [1, 1, a].
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.LibBatchBlocks

open Idealize.ShloMosaic Idealize.ShloMosaic.ValueIdx

variable {α : Type}

/-- An [a, b, c] array cast to [n, c] (n = a·b) reads, at row p = i·b + r and column k, the operand at (i, r, k). -/
theorem shapeCast_merge01_apply {a b c n : ℕ} (x : (⟨3, ![a, b, c]⟩ : Shape).Idx → α)
    (h : (⟨3, ![a, b, c]⟩ : Shape).ShapeCasts ⟨2, ![n, c]⟩) (p : Fin n) (i : Fin a) (r : Fin b) (k : Fin c)
    (hp : p.val = i.val * b + r.val) : shapeCast ⟨2, ![n, c]⟩ x h (ix2 p k) = x (ix3 i r k) :=
  shapeCast_apply x h _ _ (by
    rw [Shape.rowMajor_val_three, Shape.rowMajor_val_two]
    show (i.val * b + r.val) * c + k.val = p.val * c + k.val
    rw [hp])

/-- An [n, c] array (n = a·b) cast to [a, b, c] reads, at (i, r, k), the operand at row p = i·b + r and column k. -/
theorem shapeCast_split01_apply {a b c n : ℕ} (x : (⟨2, ![n, c]⟩ : Shape).Idx → α)
    (h : (⟨2, ![n, c]⟩ : Shape).ShapeCasts ⟨3, ![a, b, c]⟩) (p : Fin n) (i : Fin a) (r : Fin b) (k : Fin c)
    (hp : p.val = i.val * b + r.val) : shapeCast ⟨3, ![a, b, c]⟩ x h (ix3 i r k) = x (ix2 p k) :=
  shapeCast_apply x h _ _ (by
    rw [Shape.rowMajor_val_three, Shape.rowMajor_val_two]
    show p.val * c + k.val = (i.val * b + r.val) * c + k.val
    rw [hp])

/-- A row [1, 1, c] broadcast to [a, b, c] reads, at (i, r, k), the row at k. -/
theorem broadcastTo_11c_abc_apply {a b c : ℕ} (v : (⟨3, ![1, 1, c]⟩ : Shape).Idx → α)
    (h : (⟨3, ![1, 1, c]⟩ : Shape).Broadcasts ⟨3, ![a, b, c]⟩) (i : Fin a) (r : Fin b) (k : Fin c) :
    broadcastTo ⟨3, ![a, b, c]⟩ v h (ix3 i r k) = v (ix3 (0 : Fin 1) (0 : Fin 1) k) := by
  refine broadcastTo_apply v h (ix3 i r k) (ix3 (0 : Fin 1) (0 : Fin 1) k) fun ax => ?_
  match ax with
  | ⟨0, _⟩ => rfl
  | ⟨1, _⟩ => rfl
  | ⟨2, _⟩ =>
    show k.val = if c = 1 then 0 else k.val
    split
    · have := k.isLt; omega
    · rfl

/-- A matrix [1, b, c] broadcast to [a, b, c] reads, at (i, r, k), the matrix at (r, k). -/
theorem broadcastTo_1bc_abc_apply {a b c : ℕ} (v : (⟨3, ![1, b, c]⟩ : Shape).Idx → α)
    (h : (⟨3, ![1, b, c]⟩ : Shape).Broadcasts ⟨3, ![a, b, c]⟩) (i : Fin a) (r : Fin b) (k : Fin c) :
    broadcastTo ⟨3, ![a, b, c]⟩ v h (ix3 i r k) = v (ix3 (0 : Fin 1) r k) := by
  refine broadcastTo_apply v h (ix3 i r k) (ix3 (0 : Fin 1) r k) fun ax => ?_
  match ax with
  | ⟨0, _⟩ => rfl
  | ⟨1, _⟩ =>
    show r.val = if b = 1 then 0 else r.val
    split
    · have := r.isLt; omega
    · rfl
  | ⟨2, _⟩ =>
    show k.val = if c = 1 then 0 else k.val
    split
    · have := k.isLt; omega
    · rfl

/-- An [a, 1] column cast to the vector [a] reads, at i, the column's entry (i, 0). -/
theorem shapeCast_a1_a_apply {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    omega)

/-- A vector [a] cast to [1, 1, a] reads, at (u, v, i), the vector's entry i. -/
theorem shapeCast_a_11a_apply {a : ℕ} (x : (⟨1, ![a]⟩ : Shape).Idx → α)
    (h : (⟨1, ![a]⟩ : Shape).ShapeCasts ⟨3, ![1, 1, a]⟩) (u v : Fin 1) (i : Fin a) :
    shapeCast ⟨3, ![1, 1, a]⟩ x h (ix3 u v i) = x (ix1 i) :=
  shapeCast_apply x h _ _ (by
    have hu : u.val = 0 := by omega
    have hv : v.val = 0 := by omega
    rw [Shape.rowMajor_val_three, Shape.rowMajor_val_one]
    show i.val = (u.val * 1 + v.val) * a + i.val
    rw [hu, hv]; omega)

/-- At the ideal values the sum of an [a, b, c] block over its batch axis reads, at (r, k), the sum over the batches i of
    the block at (i, r, k). -/
theorem sum_axis0_apply {a b c : ℕ} (src : FVec Ideal ⟨3, ![a, b, c]⟩ .f32)
    (h : Shape.Reduces ⟨3, ![a, b, c]⟩ [0] ⟨2, ![b, c]⟩) (hφ : FKind.Formats .f32)
    (hacc : (0x00000000#32 : BitVec 32) = FKind.add.neutral .f32 hφ) (r : Fin b) (k : Fin c) :
    multiReduction .add [0] ⟨2, ![b, c]⟩ src 0x00000000#32 h hφ hacc (ix2 r k) = ∑ i : Fin a, src (ix3 i r k) := by
  refine (Ideal.multiReduction_add_single src _ h hφ hacc (ix2 r k)).trans ?_
  refine Finset.sum_congr rfl fun i _ => ?_
  exact congrArg src (funext fun ax => Fin.ext (by match ax with | ⟨0, _⟩ => rfl | ⟨1, _⟩ => rfl | ⟨2, _⟩ => rfl))

/-- At the ideal values the sum of an [a, b, c] block over its last axis reads, at (i, r), the sum over k of the block at
    (i, r, k). -/
theorem sum_axis2_apply {a b c : ℕ} (src : FVec Ideal ⟨3, ![a, b, c]⟩ .f32)
    (h : Shape.Reduces ⟨3, ![a, b, c]⟩ [2] ⟨2, ![a, b]⟩) (hφ : FKind.Formats .f32)
    (hacc : (0x00000000#32 : BitVec 32) = FKind.add.neutral .f32 hφ) (i : Fin a) (r : Fin b) :
    multiReduction .add [2] ⟨2, ![a, b]⟩ src 0x00000000#32 h hφ hacc (ix2 i r) = ∑ k : Fin c, src (ix3 i r k) := by
  refine (Ideal.multiReduction_add_single src _ h hφ hacc (ix2 i r)).trans ?_
  refine Finset.sum_congr rfl fun k _ => ?_
  exact congrArg src (funext fun ax => Fin.ext (by match ax with | ⟨0, _⟩ => rfl | ⟨1, _⟩ => rfl | ⟨2, _⟩ => rfl))

/-- At the ideal values a matrix product [n, K] × [K, F] into the zero accumulator reads, at (p, f), the sum over the
    contraction coordinate k of left (p, k) times right (k, f) — for any dimension numbers with one contracted axis of
    extent K whose operand indices are the rows of the left operand and the columns of the right one (the four
    coordinate facts, which compute on a literal record). -/
theorem matmul_rows_apply {n K F : ℕ} (D : DotDims ⟨2, ![n, K]⟩ ⟨2, ![K, F]⟩ ⟨2, ![n, F]⟩)
    (hr : D.contr.rank = 1) (hs : D.contr.size ⟨0, by omega⟩ = K)
    (hl0 : ∀ j q, (D.lhsIdx j q 0).val = (j 0).val) (hl1 : ∀ j q, (D.lhsIdx j q 1).val = (q ⟨0, by omega⟩).val)
    (hr0 : ∀ j q, (D.rhsIdx j q 0).val = (q ⟨0, by omega⟩).val) (hr1 : ∀ j q, (D.rhsIdx j q 1).val = (j 1).val)
    (prec : Option ContractPrecision) (l : FVec Ideal ⟨2, ![n, K]⟩ .f32) (r : FVec Ideal ⟨2, ![K, F]⟩ .f32)
    (p : Fin n) (f : Fin F) :
    matmul D prec l r (constant ⟨2, ![n, F]⟩ .f32 0x00000000#32) (ix2 p f) = ∑ k : Fin K, l (ix2 p k) * r (ix2 k f) := by
  refine (Ideal.matmul_constant_zero_apply D prec l r (ix2 p f)).trans ?_
  rw [← Equiv.sum_comp (contrEquiv1 D K hr hs).symm]
  refine Finset.sum_congr rfl fun k _ => ?_
  have hk := contrEquiv1_symm_val D K hr hs k
  have el : D.lhsIdx (ix2 p f) ((contrEquiv1 D K hr hs).symm k) = ix2 p k := funext fun ax => Fin.ext (by
    match ax with
    | ⟨0, _⟩ => exact hl0 _ _
    | ⟨1, _⟩ => exact (hl1 _ _).trans hk)
  have er : D.rhsIdx (ix2 p f) ((contrEquiv1 D K hr hs).symm k) = ix2 k f := funext fun ax => Fin.ext (by
    match ax with
    | ⟨0, _⟩ => exact (hr0 _ _).trans hk
    | ⟨1, _⟩ => exact hr1 _ _)
  rw [el, er]

end Cert.LibBatchBlocks

end
-- ==== Proof.BlockNorm.lean ====
/-
  Batch normalisation of a block [4, 128, c] as a kernel computes it, read at a coordinate.

  The block holds, for each of 128 positions r and c features k, the four batch entries y(b, r, k).  The kernel sums the
  block over its batch axis, scales the sum by the quarter (the mean, a [1, 128, c] block), subtracts the mean broadcast
  back over the batch axis, squares, and repeats the sum-and-scale on the squares (the biased variance).  Read at
  (b, r, k) every one of these is the corresponding statistic of the four numbers y(·, r, k): `Cert.Head.mean`,
  `Cert.Head.var`, and the normalised value `Cert.Head.bn`.  The per-feature parameters arrive as rows [1, 1, c] that
  are cast to [1, c] and back before they are broadcast.  All of it for any feature count c.
-/
import proofs.«142921_j49486613185071_2_alg».proof.Proof.Spec
import proofs.«142921_j49486613185071_2_alg».proof.Proof.LibBatchBlocks

noncomputable section

open scoped BigOperators

namespace Cert.Head.Block

open Idealize.ShloMosaic Idealize.ShloMosaic.ValueIdx Cert.LibBatchBlocks

variable {c : ℕ}
  (hR : Shape.Reduces ⟨3, ![4, 128, c]⟩ [0] ⟨2, ![128, c]⟩)
  (hC : (⟨2, ![128, c]⟩ : Shape).ShapeCasts ⟨3, ![1, 128, c]⟩)
  (hB : (⟨3, ![1, 128, c]⟩ : Shape).Broadcasts ⟨3, ![4, 128, c]⟩)
  (hC1 : (⟨3, ![1, 1, c]⟩ : Shape).ShapeCasts ⟨2, ![1, c]⟩)
  (hC2 : (⟨2, ![1, c]⟩ : Shape).ShapeCasts ⟨3, ![1, 1, c]⟩)
  (hB1 : (⟨3, ![1, 1, c]⟩ : Shape).Broadcasts ⟨3, ![4, 128, c]⟩)

/-- The sum over the batch axis scaled by the quarter: the mean block [1, 128, c]. -/
def meanK (y : FVec Ideal ⟨3, ![4, 128, c]⟩ .f32) : FVec Ideal ⟨3, ![1, 128, c]⟩ .f32 :=
  mulf (shapeCast ⟨3, ![1, 128, c]⟩ (multiReduction .add [0] ⟨2, ![128, c]⟩ y 0x00000000#32 hR (.inl rfl) rfl) hC)
    (broadcast ⟨3, ![1, 128, c]⟩ (Scalar.ofBits .f32 0x3E800000#32))

/-- At (0, r, k) it is the mean of the four batch entries at (r, k). -/
theorem meanK_apply (y : FVec Ideal ⟨3, ![4, 128, c]⟩ .f32) (r : Fin 128) (k : Fin c) :
    meanK hR hC y (ix3 (0 : Fin 1) r k) = Cert.Head.mean (fun b => y (ix3 b r k)) := by
  show shapeCast ⟨3, ![1, 128, c]⟩ (multiReduction .add [0] ⟨2, ![128, c]⟩ y 0x00000000#32 hR (.inl rfl) rfl) hC
      (ix3 (0 : Fin 1) r k) * Cert.Head.quarter = (∑ b : Fin 4, y (ix3 b r k)) * Cert.Head.quarter
  exact congrArg (· * Cert.Head.quarter)
    ((shapeCast_ab_1ab_apply _ hC (0 : Fin 1) r k).trans (sum_axis0_apply y hR _ _ r k))

/-- The block with its mean subtracted. -/
def cen (y : FVec Ideal ⟨3, ![4, 128, c]⟩ .f32) : FVec Ideal ⟨3, ![4, 128, c]⟩ .f32 :=
  subf y (broadcastTo ⟨3, ![4, 128, c]⟩ (meanK hR hC y) hB)

theorem cen_apply (y : FVec Ideal ⟨3, ![4, 128, c]⟩ .f32) (b : Fin 4) (r : Fin 128) (k : Fin c) :
    cen hR hC hB y (ix3 b r k) = y (ix3 b r k) - Cert.Head.mean (fun b' => y (ix3 b' r k)) := by
  show y (ix3 b r k) - broadcastTo ⟨3, ![4, 128, c]⟩ (meanK hR hC y) hB (ix3 b r k) = _
  exact congrArg (y (ix3 b r k) - ·) ((broadcastTo_1bc_abc_apply _ hB b r k).trans (meanK_apply hR hC y r k))

/-- The mean of the squared deviations: the biased variance block [1, 128, c]. -/
def varK (y : FVec Ideal ⟨3, ![4, 128, c]⟩ .f32) : FVec Ideal ⟨3, ![1, 128, c]⟩ .f32 :=
  meanK hR hC (mulf (cen hR hC hB y) (cen hR hC hB y))

theorem varK_apply (y : FVec Ideal ⟨3, ![4, 128, c]⟩ .f32) (r : Fin 128) (k : Fin c) :
    varK hR hC hB y (ix3 (0 : Fin 1) r k) = Cert.Head.var (fun b => y (ix3 b r k)) := by
  refine (meanK_apply hR hC _ r k).trans ?_
  show (∑ b : Fin 4, cen hR hC hB y (ix3 b r k) * cen hR hC hB y (ix3 b r k)) * Cert.Head.quarter
    = (∑ b : Fin 4, (y (ix3 b r k) - Cert.Head.mean (fun b' => y (ix3 b' r k)))
        * (y (ix3 b r k) - Cert.Head.mean (fun b' => y (ix3 b' r k)))) * Cert.Head.quarter
  refine congrArg (· * Cert.Head.quarter) (Finset.sum_congr rfl fun b _ => ?_)
  rw [cen_apply]

/-- A parameter row [1, 1, c], cast to [1, c] and back, broadcast over the block. -/
def rowB (v : Vec Ideal ⟨3, ![1, 1, c]⟩ .f32) : FVec Ideal ⟨3, ![4, 128, c]⟩ .f32 :=
  broadcastTo ⟨3, ![4, 128, c]⟩ (shapeCast ⟨3, ![1, 1, c]⟩ (shapeCast ⟨2, ![1, c]⟩ v hC1) hC2) hB1

theorem rowB_apply (v : Vec Ideal ⟨3, ![1, 1, c]⟩ .f32) (b : Fin 4) (r : Fin 128) (k : Fin c) :
    rowB hC1 hC2 hB1 v (ix3 b r k) = v (ix3 (0 : Fin 1) (0 : Fin 1) k) :=
  (broadcastTo_11c_abc_apply _ hB1 b r k).trans
    ((shapeCast_ab_1ab_apply _ hC2 (0 : Fin 1) (0 : Fin 1) k).trans (shapeCast_1ab_ab_apply v hC1 (0 : Fin 1) k))

/-- The scaled, centred block times the reciprocal square root of the variance plus ε (the shift not yet added). -/
def scaled (y : FVec Ideal ⟨3, ![4, 128, c]⟩ .f32) (g : Vec Ideal ⟨3, ![1, 1, c]⟩ .f32) :
    FVec Ideal ⟨3, ![4, 128, c]⟩ .f32 :=
  mulf (mulf (rowB hC1 hC2 hB1 g) (cen hR hC hB y))
    (broadcastTo ⟨3, ![4, 128, c]⟩
      (rsqrt (addf (varK hR hC hB y) (broadcast ⟨3, ![1, 128, c]⟩ (Scalar.ofBits .f32 0x3727C5AC#32)))) hB)

theorem scaled_apply (y : FVec Ideal ⟨3, ![4, 128, c]⟩ .f32) (g : Vec Ideal ⟨3, ![1, 1, c]⟩ .f32)
    (b : Fin 4) (r : Fin 128) (k : Fin c) :
    scaled hR hC hB hC1 hC2 hB1 y g (ix3 b r k)
      = g (ix3 (0 : Fin 1) (0 : Fin 1) k) * (y (ix3 b r k) - Cert.Head.mean (fun b' => y (ix3 b' r k)))
          * Ideal.rsqrt (Cert.Head.var (fun b' => y (ix3 b' r k)) + Cert.Head.eps) := by
  show rowB hC1 hC2 hB1 g (ix3 b r k) * cen hR hC hB y (ix3 b r k)
      * broadcastTo ⟨3, ![4, 128, c]⟩
          (rsqrt (addf (varK hR hC hB y) (broadcast ⟨3, ![1, 128, c]⟩ (Scalar.ofBits .f32 0x3727C5AC#32)))) hB (ix3 b r k) = _
  rw [rowB_apply, cen_apply, broadcastTo_1bc_abc_apply]
  show _ * Ideal.rsqrt (varK hR hC hB y (ix3 (0 : Fin 1) r k) + Cert.Head.eps) = _
  rw [varK_apply]

/-- With the shift row added: the normalised block, at (b, r, k) the batch normalisation of the four entries. -/
theorem scaled_add_apply (y : FVec Ideal ⟨3, ![4, 128, c]⟩ .f32) (g be : Vec Ideal ⟨3, ![1, 1, c]⟩ .f32)
    (b : Fin 4) (r : Fin 128) (k : Fin c) :
    addf (scaled hR hC hB hC1 hC2 hB1 y g) (rowB hC1 hC2 hB1 be) (ix3 b r k)
      = Cert.Head.bn (fun b' => y (ix3 b' r k)) (g (ix3 (0 : Fin 1) (0 : Fin 1) k))
          (be (ix3 (0 : Fin 1) (0 : Fin 1) k)) b := by
  show scaled hR hC hB hC1 hC2 hB1 y g (ix3 b r k) + rowB hC1 hC2 hB1 be (ix3 b r k) = _
  rw [scaled_apply, rowB_apply]
  rfl

end Cert.Head.Block

end
-- ==== Proof.KBody.lean ====
/-
  The kernel's body, read at one entry of the block it stores.

  At a grid point the body holds one model's parameters and, for 128 consecutive positions r, the four batch rows
  hs(b, r, ·) of each position.  It treats the 4 × 128 rows as one matrix, multiplies by W1, adds b1, normalises each
  feature over the FOUR batch entries of the same position (sum over the batch axis scaled by the quarter), rectifies,
  and does the same again with W2; the last projection is a sum over the 128 lanes against W3's one column.  So the
  stored block, at batch entry b and position r, is the head of position r's four rows: `Cert.Head.head`.
-/
import proofs.«142921_j49486613185071_2_alg».proof.Proof.Gen.KernelIdeal.Skeleton
import proofs.«142921_j49486613185071_2_alg».proof.Proof.BlockNorm

noncomputable section

open scoped BigOperators

namespace Cert.KernelIdeal.Body

open Idealize.ShloMosaic Idealize.ShloMosaic.ValueIdx Cert.LibBatchBlocks Cert.Head.Block
open Cert.KernelIdeal Cert.KernelIdeal.Facts₀

/-! ## The two matrix products' operand indices -/

theorem D1_l0 (j : S512x256.Idx) (q : dot_S512x4096_S4096x256_S512x256_1_0_0_1_n_n.contr.Idx) :
    (dot_S512x4096_S4096x256_S512x256_1_0_0_1_n_n.lhsIdx j q 0).val = (j 0).val := by
  unfold DotDims.lhsIdx
  rw [dif_neg (show ¬(0 : Fin S512x4096.rank) ∈ dot_S512x4096_S4096x256_S512x256_1_0_0_1_n_n.lhsBatch by decide),
    dif_pos (show (0 : Fin S512x4096.rank) ∈ dot_S512x4096_S4096x256_S512x256_1_0_0_1_n_n.lhsNonContracting by decide)]
  rfl
theorem D1_l1 (j : S512x256.Idx) (q : dot_S512x4096_S4096x256_S512x256_1_0_0_1_n_n.contr.Idx) :
    (dot_S512x4096_S4096x256_S512x256_1_0_0_1_n_n.lhsIdx j q 1).val = (q ⟨0, by decide⟩).val :=
  dot_S512x4096_S4096x256_S512x256_1_0_0_1_n_n.lhsIdx_val_of_single rfl j q
theorem D1_r0 (j : S512x256.Idx) (q : dot_S512x4096_S4096x256_S512x256_1_0_0_1_n_n.contr.Idx) :
    (dot_S512x4096_S4096x256_S512x256_1_0_0_1_n_n.rhsIdx j q 0).val = (q ⟨0, by decide⟩).val :=
  dot_S512x4096_S4096x256_S512x256_1_0_0_1_n_n.rhsIdx_val_of_single rfl j q
theorem D1_r1 (j : S512x256.Idx) (q : dot_S512x4096_S4096x256_S512x256_1_0_0_1_n_n.contr.Idx) :
    (dot_S512x4096_S4096x256_S512x256_1_0_0_1_n_n.rhsIdx j q 1).val = (j 1).val := by
  unfold DotDims.rhsIdx
  rw [dif_neg (show ¬(1 : Fin S4096x256.rank) ∈ dot_S512x4096_S4096x256_S512x256_1_0_0_1_n_n.rhsBatch by decide),
    dif_pos (show (1 : Fin S4096x256.rank) ∈ dot_S512x4096_S4096x256_S512x256_1_0_0_1_n_n.rhsNonContracting by decide)]
  rfl

theorem D2_l0 (j : S512x128.Idx) (q : dot_S512x256_S256x128_S512x128_1_0_0_1_n_n.contr.Idx) :
    (dot_S512x256_S256x128_S512x128_1_0_0_1_n_n.lhsIdx j q 0).val = (j 0).val := by
  unfold DotDims.lhsIdx
  rw [dif_neg (show ¬(0 : Fin S512x256.rank) ∈ dot_S512x256_S256x128_S512x128_1_0_0_1_n_n.lhsBatch by decide),
    dif_pos (show (0 : Fin S512x256.rank) ∈ dot_S512x256_S256x128_S512x128_1_0_0_1_n_n.lhsNonContracting by decide)]
  rfl
theorem D2_l1 (j : S512x128.Idx) (q : dot_S512x256_S256x128_S512x128_1_0_0_1_n_n.contr.Idx) :
    (dot_S512x256_S256x128_S512x128_1_0_0_1_n_n.lhsIdx j q 1).val = (q ⟨0, by decide⟩).val :=
  dot_S512x256_S256x128_S512x128_1_0_0_1_n_n.lhsIdx_val_of_single rfl j q
theorem D2_r0 (j : S512x128.Idx) (q : dot_S512x256_S256x128_S512x128_1_0_0_1_n_n.contr.Idx) :
    (dot_S512x256_S256x128_S512x128_1_0_0_1_n_n.rhsIdx j q 0).val = (q ⟨0, by decide⟩).val :=
  dot_S512x256_S256x128_S512x128_1_0_0_1_n_n.rhsIdx_val_of_single rfl j q
theorem D2_r1 (j : S512x128.Idx) (q : dot_S512x256_S256x128_S512x128_1_0_0_1_n_n.contr.Idx) :
    (dot_S512x256_S256x128_S512x128_1_0_0_1_n_n.rhsIdx j q 1).val = (j 1).val := by
  unfold DotDims.rhsIdx
  rw [dif_neg (show ¬(1 : Fin S256x128.rank) ∈ dot_S512x256_S256x128_S512x128_1_0_0_1_n_n.rhsBatch by decide),
    dif_pos (show (1 : Fin S256x128.rank) ∈ dot_S512x256_S256x128_S512x128_1_0_0_1_n_n.rhsNonContracting by decide)]
  rfl

/-! ## The two linear layers -/

/-- The first linear layer as the body computes it: the loaded block [1, 4, 128, 4096] as a 512-row matrix times W1's
    block, reshaped back to [4, 128, 256], plus the bias row. -/
def lin1 (v0 : FVec Ideal S1x4x128x4096 .f32) (v3 : FVec Ideal S1x4096x256 .f32) (v7 : FVec Ideal S1x1x256 .f32) :
    FVec Ideal S4x128x256 .f32 :=
  addf (shapeCast S4x128x256
      (matmul dot_S512x4096_S4096x256_S512x256_1_0_0_1_n_n none
        (shapeCast S512x4096 (shapeCast S4x128x4096 v0 shapeCasts_S1x4x128x4096_S4x128x4096) shapeCasts_S4x128x4096_S512x4096)
        (shapeCast S4096x256 v3 shapeCasts_S1x4096x256_S4096x256) (constant S512x256 .f32 0x00000000#32))
      shapeCasts_S512x256_S4x128x256)
    (rowB shapeCasts_S1x1x256_S1x256 shapeCasts_S1x256_S1x1x256 broadcasts_S1x1x256_S4x128x256 v7)

/-- At (b, r, f) it is the first linear layer of position r's rows. -/
theorem lin1_apply (v0 : FVec Ideal S1x4x128x4096 .f32) (v3 : FVec Ideal S1x4096x256 .f32) (v7 : FVec Ideal S1x1x256 .f32)
    (b : Fin 4) (r : Fin 128) (f : Fin 256) :
    lin1 v0 v3 v7 (ix3 b r f)
      = Cert.Head.y1 (fun b' h => v0 (ix4 (0 : Fin 1) b' r h)) (fun h f' => v3 (ix3 (0 : Fin 1) h f'))
          (fun f' => v7 (ix3 (0 : Fin 1) (0 : Fin 1) f')) b f := by
  unfold lin1
  refine (addf_apply _ _ _).trans (congrArg₂ (· + ·) ?_ (rowB_apply _ _ _ v7 b r f))
  refine (shapeCast_split01_apply _ shapeCasts_S512x256_S4x128x256 ⟨b.val * 128 + r.val, by omega⟩ b r f rfl).trans ?_
  refine (matmul_rows_apply dot_S512x4096_S4096x256_S512x256_1_0_0_1_n_n rfl rfl D1_l0 D1_l1 D1_r0 D1_r1 none _ _
    ⟨b.val * 128 + r.val, by omega⟩ f).trans ?_
  refine Finset.sum_congr rfl fun h _ => ?_
  exact congrArg₂ (· * ·)
    ((shapeCast_merge01_apply _ shapeCasts_S4x128x4096_S512x4096 ⟨b.val * 128 + r.val, by omega⟩ b r h rfl).trans
      (shapeCast_1abc_abc_apply v0 shapeCasts_S1x4x128x4096_S4x128x4096 b r h))
    (shapeCast_1ab_ab_apply v3 shapeCasts_S1x4096x256_S4096x256 h f)

/-- The second linear layer as the body computes it, on a block [4, 128, 256]. -/
def lin2 (x : FVec Ideal S4x128x256 .f32) (v41 : FVec Ideal S1x256x128 .f32) (v45 : FVec Ideal S1x1x128 .f32) :
    FVec Ideal S4x128x128 .f32 :=
  addf (shapeCast S4x128x128
      (matmul dot_S512x256_S256x128_S512x128_1_0_0_1_n_n none
        (shapeCast S512x256 x shapeCasts_S4x128x256_S512x256)
        (shapeCast S256x128 v41 shapeCasts_S1x256x128_S256x128) (constant S512x128 .f32 0x00000000#32))
      shapeCasts_S512x128_S4x128x128)
    (rowB shapeCasts_S1x1x128_S1x128 shapeCasts_S1x128_S1x1x128 broadcasts_S1x1x128_S4x128x128 v45)

theorem lin2_apply (x : FVec Ideal S4x128x256 .f32) (v41 : FVec Ideal S1x256x128 .f32) (v45 : FVec Ideal S1x1x128 .f32)
    (b : Fin 4) (r : Fin 128) (g : Fin 128) :
    lin2 x v41 v45 (ix3 b r g)
      = (∑ f : Fin 256, x (ix3 b r f) * v41 (ix3 (0 : Fin 1) f g)) + v45 (ix3 (0 : Fin 1) (0 : Fin 1) g) := by
  unfold lin2
  refine (addf_apply _ _ _).trans (congrArg₂ (· + ·) ?_ (rowB_apply _ _ _ v45 b r g))
  refine (shapeCast_split01_apply _ shapeCasts_S512x128_S4x128x128 ⟨b.val * 128 + r.val, by omega⟩ b r g rfl).trans ?_
  refine (matmul_rows_apply dot_S512x256_S256x128_S512x128_1_0_0_1_n_n rfl rfl D2_l0 D2_l1 D2_r0 D2_r1 none _ _
    ⟨b.val * 128 + r.val, by omega⟩ g).trans ?_
  refine Finset.sum_congr rfl fun f _ => ?_
  exact congrArg₂ (· * ·)
    (shapeCast_merge01_apply x shapeCasts_S4x128x256_S512x256 ⟨b.val * 128 + r.val, by omega⟩ b r f rfl)
    (shapeCast_1ab_ab_apply v41 shapeCasts_S1x256x128_S256x128 f g)

/-! ## The payloads are these stages -/

theorem pay2_eq (v0 : FVec Ideal S1x4x128x4096 .f32) (v3 : FVec Ideal S1x4096x256 .f32) (v7 v23 : FVec Ideal S1x1x256 .f32) :
    Gen.k0_pay2 v0 v3 v7 v23
      = scaled reduces_S4x128x256_S128x256 shapeCasts_S128x256_S1x128x256 broadcasts_S1x128x256_S4x128x256
          shapeCasts_S1x1x256_S1x256 shapeCasts_S1x256_S1x1x256 broadcasts_S1x1x256_S4x128x256 (lin1 v0 v3 v7) v23 := rfl

theorem pay3_eq (v33 : FVec Ideal S1x1x256 .f32) :
    broadcastTo S4x128x256 (Gen.k0_pay3 v33) broadcasts_S1x1x256_S4x128x256
      = rowB shapeCasts_S1x1x256_S1x256 shapeCasts_S1x256_S1x1x256 broadcasts_S1x1x256_S4x128x256 v33 := rfl

theorem pay4_eq (v32 : FVec Ideal S4x128x256 .f32) (v35 : FVec Ideal S1x1x256 .f32) (v41 : FVec Ideal S1x256x128 .f32)
    (v45 v61 v71 : FVec Ideal S1x1x128 .f32) :
    Gen.k0_pay4 v32 v35 v41 v45 v61 v71
      = addf (scaled reduces_S4x128x128_S128x128 shapeCasts_S128x128_S1x128x128 broadcasts_S1x128x128_S4x128x128
          shapeCasts_S1x1x128_S1x128 shapeCasts_S1x128_S1x1x128 broadcasts_S1x1x128_S4x128x128
          (lin2 (maximumf (addf v32 (broadcastTo S4x128x256 v35 broadcasts_S1x1x256_S4x128x256))
            (broadcast S4x128x256 (Scalar.ofBits .f32 0x00000000#32))) v41 v45) v61)
        (rowB shapeCasts_S1x1x128_S1x128 shapeCasts_S1x128_S1x1x128 broadcasts_S1x1x128_S4x128x128 v71) := rfl

/-- The last projection: at (0, b, r) the sum over the lanes g of the rectified block times W3's column, plus b3. -/
theorem pay1_apply (v75 : FVec Ideal S4x128x128 .f32) (cst : Ideal .f32) (v78 : FVec Ideal S1x128x1 .f32)
    (v85 : FVec Ideal S1x1x1 .f32) (b : Fin 4) (r : Fin 128) :
    Gen.k0_pay1 v75 cst v78 v85 (ix3 (0 : Fin 1) b r)
      = (∑ g : Fin 128, max (v75 (ix3 b r g)) cst * v78 (ix3 (0 : Fin 1) g (0 : Fin 1)))
          + v85 (ix3 (0 : Fin 1) (0 : Fin 1) (0 : Fin 1)) := by
  unfold Gen.k0_pay1
  dsimp only
  refine (shapeCast_ab_1ab_apply _ shapeCasts_S4x128_S1x4x128 (0 : Fin 1) b r).trans ?_
  refine (addf_apply _ _ _).trans (congrArg₂ (· + ·) ?_ ?_)
  · refine (sum_axis2_apply _ reduces_S4x128x128_S4x128 _ _ b r).trans (Finset.sum_congr rfl fun g _ => ?_)
    refine (mulf_apply _ _ _).trans (congrArg₂ (· * ·) rfl ?_)
    exact (broadcastTo_11c_abc_apply _ broadcasts_S1x1x128_S4x128x128 b r g).trans
      ((shapeCast_a_11a_apply _ shapeCasts_S128_S1x1x128 (0 : Fin 1) (0 : Fin 1) g).trans
        ((shapeCast_a1_a_apply _ shapeCasts_S128x1_S128 g).trans
          (shapeCast_1ab_ab_apply v78 shapeCasts_S1x128x1_S128x1 g (0 : Fin 1))))
  · show shapeCast S1x1 v85 shapeCasts_S1x1x1_S1x1 _ = _
    refine shapeCast_apply v85 shapeCasts_S1x1x1_S1x1 _ (ix3 (0 : Fin 1) (0 : Fin 1) (0 : Fin 1)) ?_
    rw [Shape.rowMajor_val_three, Shape.rowMajor_val_two]
    rfl

/-! ## The stored block -/

/-- WHAT THE BODY STORES, at batch entry b and position r of the block: the head of position r's four rows under the
    block's parameters. -/
theorem body_apply (x0 : FVec Ideal S1x4x128x4096 .f32) (x1 : FVec Ideal S1x4096x256 .f32)
    (x2 x3 x4 : FVec Ideal S1x1x256 .f32) (x5 : FVec Ideal S1x256x128 .f32) (x6 x7 x8 : FVec Ideal S1x1x128 .f32)
    (x9 : FVec Ideal S1x128x1 .f32) (x10 : FVec Ideal S1x1x1 .f32) (b : Fin 4) (r : Fin 128) :
    Gen.k0_pay1 (F := Ideal) (Gen.k0_pay4 (Gen.k0_pay2 x0 x1 x2 x3) (Gen.k0_pay3 x4) x5 x6 x7 x8) (Scalar.ofBits .f32 0x00000000#32) x9 x10
        (ix3 (0 : Fin 1) b r)
      = Cert.Head.head (fun b' h => x0 (ix4 (0 : Fin 1) b' r h)) (fun h f => x1 (ix3 (0 : Fin 1) h f))
          (fun f => x2 (ix3 (0 : Fin 1) (0 : Fin 1) f)) (fun f => x3 (ix3 (0 : Fin 1) (0 : Fin 1) f))
          (fun f => x4 (ix3 (0 : Fin 1) (0 : Fin 1) f)) (fun f g => x5 (ix3 (0 : Fin 1) f g))
          (fun g => x6 (ix3 (0 : Fin 1) (0 : Fin 1) g)) (fun g => x7 (ix3 (0 : Fin 1) (0 : Fin 1) g))
          (fun g => x8 (ix3 (0 : Fin 1) (0 : Fin 1) g)) (fun g => x9 (ix3 (0 : Fin 1) g (0 : Fin 1)))
          (x10 (ix3 (0 : Fin 1) (0 : Fin 1) (0 : Fin 1))) b := by
  rw [pay1_apply]
  unfold Cert.Head.head
  refine congrArg (· + _) (Finset.sum_congr rfl fun g _ => congrArg (· * _) ?_)
  rw [pay4_eq, scaled_add_apply]
  unfold Cert.Head.x2 Cert.Head.bnrelu
  refine congrArg (fun Y => max (Cert.Head.bn Y _ _ b) _) (funext fun b' => ?_)
  rw [lin2_apply]
  unfold Cert.Head.y2
  refine congrArg (· + _) (Finset.sum_congr rfl fun f _ => congrArg (· * _) ?_)
  show max (addf (Gen.k0_pay2 (F := Ideal) x0 x1 x2 x3) (broadcastTo S4x128x256 (Gen.k0_pay3 (F := Ideal) x4) broadcasts_S1x1x256_S4x128x256) (ix3 b' r f))
    (Scalar.ofBits (F := Ideal) .f32 0x00000000#32) = _
  rw [pay2_eq, pay3_eq, scaled_add_apply]
  unfold Cert.Head.x1 Cert.Head.bnrelu
  refine congrArg (fun Y => max (Cert.Head.bn Y _ _ b') _) (funext fun b'' => ?_)
  exact lin1_apply x0 x1 x2 b'' r f

/-- The same with the block's operands named as pieces of whole arrays: if the eleven loaded blocks are model mm's
    parameters and positions st·128 … st·128 + 127 of the rows (the eleven hypotheses), the stored block at (b, r) is
    the score of model mm at batch entry b and position st·128 + r. -/
theorem block_value (x0 : FVec Ideal S1x4x128x4096 .f32) (x1 : FVec Ideal S1x4096x256 .f32)
    (x2 x3 x4 : FVec Ideal S1x1x256 .f32) (x5 : FVec Ideal S1x256x128 .f32) (x6 x7 x8 : FVec Ideal S1x1x128 .f32)
    (x9 : FVec Ideal S1x128x1 .f32) (x10 : FVec Ideal S1x1x1 .f32)
    (a0 : (⟨4, ![2, 4, 4096, 4096]⟩ : Shape).Idx → EReal) (a1 : (⟨3, ![2, 4096, 256]⟩ : Shape).Idx → EReal)
    (a2 a3 a4 : (⟨2, ![2, 256]⟩ : Shape).Idx → EReal) (a5 : (⟨3, ![2, 256, 128]⟩ : Shape).Idx → EReal)
    (a6 a7 a8 : (⟨2, ![2, 128]⟩ : Shape).Idx → EReal) (a9 : (⟨3, ![2, 128, 1]⟩ : Shape).Idx → EReal)
    (a10 : (⟨2, ![2, 1]⟩ : Shape).Idx → EReal) (mm : Fin 2) (st : ℕ) (hst : st < 32)
    (h0 : ∀ (b : Fin 4) (r : Fin 128) (h : Fin 4096),
      x0 (ix4 (0 : Fin 1) b r h) = a0 (ix4 mm b (⟨st * 128 + r.val, by omega⟩ : Fin 4096) h))
    (h1 : ∀ (h : Fin 4096) (f : Fin 256), x1 (ix3 (0 : Fin 1) h f) = a1 (ix3 mm h f))
    (h2 : ∀ f : Fin 256, x2 (ix3 (0 : Fin 1) (0 : Fin 1) f) = a2 (ix2 mm f))
    (h3 : ∀ f : Fin 256, x3 (ix3 (0 : Fin 1) (0 : Fin 1) f) = a3 (ix2 mm f))
    (h4 : ∀ f : Fin 256, x4 (ix3 (0 : Fin 1) (0 : Fin 1) f) = a4 (ix2 mm f))
    (h5 : ∀ (f : Fin 256) (g : Fin 128), x5 (ix3 (0 : Fin 1) f g) = a5 (ix3 mm f g))
    (h6 : ∀ g : Fin 128, x6 (ix3 (0 : Fin 1) (0 : Fin 1) g) = a6 (ix2 mm g))
    (h7 : ∀ g : Fin 128, x7 (ix3 (0 : Fin 1) (0 : Fin 1) g) = a7 (ix2 mm g))
    (h8 : ∀ g : Fin 128, x8 (ix3 (0 : Fin 1) (0 : Fin 1) g) = a8 (ix2 mm g))
    (h9 : ∀ g : Fin 128, x9 (ix3 (0 : Fin 1) g (0 : Fin 1)) = a9 (ix3 mm g (0 : Fin 1)))
    (h10 : x10 (ix3 (0 : Fin 1) (0 : Fin 1) (0 : Fin 1)) = a10 (ix2 mm (0 : Fin 1)))
    (b : Fin 4) (r : Fin 128) :
    Gen.k0_pay1 (F := Ideal) (Gen.k0_pay4 (Gen.k0_pay2 x0 x1 x2 x3) (Gen.k0_pay3 x4) x5 x6 x7 x8) (Scalar.ofBits .f32 0x00000000#32) x9 x10
        (ix3 (0 : Fin 1) b r)
      = Cert.Head.score a0 a1 a2 a3 a4 a5 a6 a7 a8 a9 a10 b (⟨st * 128 + r.val, by omega⟩ : Fin 4096) mm := by
  rw [body_apply]
  unfold Cert.Head.score
  simp only [h0, h1, h2, h3, h4, h5, h6, h7, h8, h9, h10]

end Cert.KernelIdeal.Body

end
-- ==== Proof.LibMiddleUnit.lean ====
/-
  A unit axis put in the middle of a matrix by a shape cast, read at explicit coordinates: an [a, b] matrix cast to
  [a, 1, b] (each row becomes a one-row matrix) reads, at (i, u, j), the matrix at (i, j).  With b = 1 this is a column
  [a, 1] cast to [a, 1, 1].
-/
import Idealize.ShloMosaic.Lib.ValueIdx
import Idealize.ShloMosaic.Lib.Pipeline.Value

noncomputable section

namespace Cert.LibMiddleUnit

open Idealize.ShloMosaic Idealize.ShloMosaic.ValueIdx

variable {α : Type}

/-- An [a, b] matrix cast to [a, 1, b] reads, at (i, u, j), the matrix at (i, j). -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

end Cert.LibMiddleUnit

end
-- ==== Proof.KValue.lean ====
/-
  From the kernel's blocks to its result array.

  The grid has one point per model mm (two) and per tile st of 128 consecutive positions (32 tiles).  At the point
  (mm, st) the eleven input windows hold model mm's parameters — the seven parameter vectors through the host's
  reshapes [2, n] → [2, 1, n] that run before the launch — and rows st·128 … st·128 + 127 of model mm's four batch
  entries; the output window's block is [mm, ·, st·128 …] of the score array [2, 4, 4096].  So what the point writes
  back is that block of ONE function of the arguments (`scores`), the 64 blocks tile the array, and the array ends
  holding the scores; the transpose after the launch turns index (mm, b, s) into (b, s, mm): `Cert.Head.result`.
-/
import proofs.«142921_j49486613185071_2_alg».proof.Proof.Gen.KernelIdeal.Frame
import proofs.«142921_j49486613185071_2_alg».proof.Proof.KBody
import proofs.«142921_j49486613185071_2_alg».proof.Proof.LibMiddleUnit
import Idealize.ShloMosaic.Lib.StableHlo.Run
import Idealize.ShloMosaic.Lib.Pipeline.Value

set_option maxRecDepth 16384

noncomputable section

namespace Cert.KernelIdeal.RunValue

open Idealize.ShloMosaic Idealize.ShloMosaic.TcCoe Idealize.SL.Sem Idealize.ShloMosaic.ValueIdx
open Cert.KernelIdeal Cert.KernelIdeal.Gen Cert.LibMiddleUnit

variable (m : (ℓ : Loc nD τ sig) → Buf (Elt Ideal) ℓ) (ρ : Dev nD → PrngReg)

/-! ## The parameter vectors as the launch finds them: the host's reshapes -/

theorem V_v0 (c : Dev nD) : (V m c main_v0 : S2x1x256.Idx → EReal)
    = shapeCast S2x1x256 (m ((c : Thread nD τ).loc main_arg2)) Facts₀.shapeCasts_S2x256_S2x1x256 := by
  show StableHlo.after hostOps0 (fun b => m (c, b)) (Proc.devRef .tc main_v0) = _
  after_results
  rfl
theorem V_v1 (c : Dev nD) : (V m c main_v1 : S2x1x256.Idx → EReal)
    = shapeCast S2x1x256 (m ((c : Thread nD τ).loc main_arg3)) Facts₀.shapeCasts_S2x256_S2x1x256 := by
  show StableHlo.after hostOps0 (fun b => m (c, b)) (Proc.devRef .tc main_v1) = _
  after_results
  rfl
theorem V_v2 (c : Dev nD) : (V m c main_v2 : S2x1x256.Idx → EReal)
    = shapeCast S2x1x256 (m ((c : Thread nD τ).loc main_arg4)) Facts₀.shapeCasts_S2x256_S2x1x256 := by
  show StableHlo.after hostOps0 (fun b => m (c, b)) (Proc.devRef .tc main_v2) = _
  after_results
  rfl
theorem V_v3 (c : Dev nD) : (V m c main_v3 : S2x1x128.Idx → EReal)
    = shapeCast S2x1x128 (m ((c : Thread nD τ).loc main_arg6)) Facts₀.shapeCasts_S2x128_S2x1x128 := by
  show StableHlo.after hostOps0 (fun b => m (c, b)) (Proc.devRef .tc main_v3) = _
  after_results
  rfl
theorem V_v4 (c : Dev nD) : (V m c main_v4 : S2x1x128.Idx → EReal)
    = shapeCast S2x1x128 (m ((c : Thread nD τ).loc main_arg7)) Facts₀.shapeCasts_S2x128_S2x1x128 := by
  show StableHlo.after hostOps0 (fun b => m (c, b)) (Proc.devRef .tc main_v4) = _
  after_results
  rfl
theorem V_v5 (c : Dev nD) : (V m c main_v5 : S2x1x128.Idx → EReal)
    = shapeCast S2x1x128 (m ((c : Thread nD τ).loc main_arg8)) Facts₀.shapeCasts_S2x128_S2x1x128 := by
  show StableHlo.after hostOps0 (fun b => m (c, b)) (Proc.devRef .tc main_v5) = _
  after_results
  rfl
theorem V_v6 (c : Dev nD) : (V m c main_v6 : S2x1x1.Idx → EReal)
    = shapeCast S2x1x1 (m ((c : Thread nD τ).loc main_arg10)) Facts₀.shapeCasts_S2x1_S2x1x1 := by
  show StableHlo.after hostOps0 (fun b => m (c, b)) (Proc.devRef .tc main_v6) = _
  after_results
  rfl

/-! ## The index maps, decided over the 64 grid points -/

/-- The rows' window moves with the output's on the model axis and the tile axis. -/
theorem idx0 : ∀ t : Fin cfg0.N,
    win0_0.index t (0 : Fin 4) = win0_11.index t (0 : Fin 3) ∧ win0_0.index t (1 : Fin 4) = 0
    ∧ win0_0.index t (2 : Fin 4) = win0_11.index t (2 : Fin 3) ∧ win0_0.index t (3 : Fin 4) = 0 :=
  (by decide +kernel : ∀ t : Fin grid0.N, _)
/-- Each parameter window holds the output's model, whole. -/
theorem idx1 : ∀ t : Fin cfg0.N, win0_1.index t (0 : Fin 3) = win0_11.index t (0 : Fin 3)
    ∧ win0_1.index t (1 : Fin 3) = 0 ∧ win0_1.index t (2 : Fin 3) = 0 := (by decide +kernel : ∀ t : Fin grid0.N, _)
theorem idx2 : ∀ t : Fin cfg0.N, win0_2.index t (0 : Fin 3) = win0_11.index t (0 : Fin 3)
    ∧ win0_2.index t (1 : Fin 3) = 0 ∧ win0_2.index t (2 : Fin 3) = 0 := (by decide +kernel : ∀ t : Fin grid0.N, _)
theorem idx3 : ∀ t : Fin cfg0.N, win0_3.index t (0 : Fin 3) = win0_11.index t (0 : Fin 3)
    ∧ win0_3.index t (1 : Fin 3) = 0 ∧ win0_3.index t (2 : Fin 3) = 0 := (by decide +kernel : ∀ t : Fin grid0.N, _)
theorem idx4 : ∀ t : Fin cfg0.N, win0_4.index t (0 : Fin 3) = win0_11.index t (0 : Fin 3)
    ∧ win0_4.index t (1 : Fin 3) = 0 ∧ win0_4.index t (2 : Fin 3) = 0 := (by decide +kernel : ∀ t : Fin grid0.N, _)
theorem idx5 : ∀ t : Fin cfg0.N, win0_5.index t (0 : Fin 3) = win0_11.index t (0 : Fin 3)
    ∧ win0_5.index t (1 : Fin 3) = 0 ∧ win0_5.index t (2 : Fin 3) = 0 := (by decide +kernel : ∀ t : Fin grid0.N, _)
theorem idx6 : ∀ t : Fin cfg0.N, win0_6.index t (0 : Fin 3) = win0_11.index t (0 : Fin 3)
    ∧ win0_6.index t (1 : Fin 3) = 0 ∧ win0_6.index t (2 : Fin 3) = 0 := (by decide +kernel : ∀ t : Fin grid0.N, _)
theorem idx7 : ∀ t : Fin cfg0.N, win0_7.index t (0 : Fin 3) = win0_11.index t (0 : Fin 3)
    ∧ win0_7.index t (1 : Fin 3) = 0 ∧ win0_7.index t (2 : Fin 3) = 0 := (by decide +kernel : ∀ t : Fin grid0.N, _)
theorem idx8 : ∀ t : Fin cfg0.N, win0_8.index t (0 : Fin 3) = win0_11.index t (0 : Fin 3)
    ∧ win0_8.index t (1 : Fin 3) = 0 ∧ win0_8.index t (2 : Fin 3) = 0 := (by decide +kernel : ∀ t : Fin grid0.N, _)
theorem idx9 : ∀ t : Fin cfg0.N, win0_9.index t (0 : Fin 3) = win0_11.index t (0 : Fin 3)
    ∧ win0_9.index t (1 : Fin 3) = 0 ∧ win0_9.index t (2 : Fin 3) = 0 := (by decide +kernel : ∀ t : Fin grid0.N, _)
theorem idx10 : ∀ t : Fin cfg0.N, win0_10.index t (0 : Fin 3) = win0_11.index t (0 : Fin 3)
    ∧ win0_10.index t (1 : Fin 3) = 0 ∧ win0_10.index t (2 : Fin 3) = 0 := (by decide +kernel : ∀ t : Fin grid0.N, _)
/-- The output's block indices stay in their ranges: the model below 2, the batch axis whole, the tile below 32. -/
theorem idx11 : ∀ t : Fin cfg0.N, win0_11.index t (0 : Fin 3) ≤ 1 ∧ win0_11.index t (1 : Fin 3) = 0
    ∧ win0_11.index t (2 : Fin 3) ≤ 31 := (by decide +kernel : ∀ t : Fin grid0.N, _)
/-- Every (model, tile) pair is SOME point's output block. -/
theorem idx_onto : ∀ (q0 : Fin 2) (q2 : Fin 32), ∃ t : Fin cfg0.N, win0_11.index t = ![q0.val, 0, q2.val] :=
  (by decide +kernel : ∀ (q0 : Fin 2) (q2 : Fin 32), ∃ t : Fin grid0.N, win0_11.index t = ![q0.val, 0, q2.val])

/-! ## Each input window's block at a point, read off the argument arrays -/

section Blocks
variable (c : Dev nD) (t : Fin cfg0.N) (M ST : ℕ) (hM : win0_11.index t (0 : Fin 3) = M)
  (hST : win0_11.index t (2 : Fin 3) = ST) (hM' : M < 2) (hST' : ST < 32)
include hM hST

theorem blk0 (b : Fin 4) (r : Fin 128) (h : Fin 4096) :
    (iblk m c 0 t : S1x4x128x4096.Idx → EReal) (ix4 (0 : Fin 1) b r h)
      = m ((c : Thread nD τ).loc main_arg0) (ix4 (⟨M, hM'⟩ : Fin 2) b (⟨ST * 128 + r.val, by omega⟩ : Fin 4096) h) := by
  show V m c main_arg0 (((cfg0.win 0).blk t).view.emb (ix4 (0 : Fin 1) b r h)) = _
  rw [V_main_arg0]
  obtain ⟨e0, e1, e2, e3⟩ := idx0 t
  refine congrArg (m ((c : Thread nD τ).loc main_arg0)) (funext fun a => Fin.ext ?_)
  match a with
  | ⟨0, _⟩ => show win0_0.index t (0 : Fin 4) * 1 + 1 * 0 = M; omega
  | ⟨1, _⟩ => show win0_0.index t (1 : Fin 4) * 4 + 1 * b.val = b.val; omega
  | ⟨2, _⟩ => show win0_0.index t (2 : Fin 4) * 128 + 1 * r.val = ST * 128 + r.val; omega
  | ⟨3, _⟩ => show win0_0.index t (3 : Fin 4) * 4096 + 1 * h.val = h.val; omega

omit hST in
theorem blk1 (h : Fin 4096) (f : Fin 256) :
    (iblk m c 1 t : S1x4096x256.Idx → EReal) (ix3 (0 : Fin 1) h f)
      = m ((c : Thread nD τ).loc main_arg1) (ix3 (⟨M, hM'⟩ : Fin 2) h f) := by
  show V m c main_arg1 (((cfg0.win 1).blk t).view.emb (ix3 (0 : Fin 1) h f)) = _
  rw [V_main_arg1]
  obtain ⟨e0, e1, e2⟩ := idx1 t
  refine congrArg (m ((c : Thread nD τ).loc main_arg1)) (funext fun a => Fin.ext ?_)
  match a with
  | ⟨0, _⟩ => show win0_1.index t (0 : Fin 3) * 1 + 1 * 0 = M; omega
  | ⟨1, _⟩ => show win0_1.index t (1 : Fin 3) * 4096 + 1 * h.val = h.val; omega
  | ⟨2, _⟩ => show win0_1.index t (2 : Fin 3) * 256 + 1 * f.val = f.val; omega

omit hST in
theorem blk2 (f : Fin 256) :
    (iblk m c 2 t : S1x1x256.Idx → EReal) (ix3 (0 : Fin 1) (0 : Fin 1) f)
      = m ((c : Thread nD τ).loc main_arg2) (ix2 (⟨M, hM'⟩ : Fin 2) f) := by
  show V m c main_v0 (((cfg0.win 2).blk t).view.emb (ix3 (0 : Fin 1) (0 : Fin 1) f)) = _
  rw [V_v0]
  obtain ⟨e0, e1, e2⟩ := idx2 t
  refine Eq.trans (congrArg (shapeCast S2x1x256 (m ((c : Thread nD τ).loc main_arg2)) Facts₀.shapeCasts_S2x256_S2x1x256)
    (?_ : _ = ix3 (⟨M, hM'⟩ : Fin 2) (0 : Fin 1) f)) (shapeCast_ab_a1b_apply _ _ _ _ _)
  refine funext fun a => Fin.ext ?_
  match a with
  | ⟨0, _⟩ => show win0_2.index t (0 : Fin 3) * 1 + 1 * 0 = M; omega
  | ⟨1, _⟩ => show win0_2.index t (1 : Fin 3) * 1 + 1 * 0 = 0; omega
  | ⟨2, _⟩ => show win0_2.index t (2 : Fin 3) * 256 + 1 * f.val = f.val; omega

omit hST in
theorem blk3 (f : Fin 256) :
    (iblk m c 3 t : S1x1x256.Idx → EReal) (ix3 (0 : Fin 1) (0 : Fin 1) f)
      = m ((c : Thread nD τ).loc main_arg3) (ix2 (⟨M, hM'⟩ : Fin 2) f) := by
  show V m c main_v1 (((cfg0.win 3).blk t).view.emb (ix3 (0 : Fin 1) (0 : Fin 1) f)) = _
  rw [V_v1]
  obtain ⟨e0, e1, e2⟩ := idx3 t
  refine Eq.trans (congrArg (shapeCast S2x1x256 (m ((c : Thread nD τ).loc main_arg3)) Facts₀.shapeCasts_S2x256_S2x1x256)
    (?_ : _ = ix3 (⟨M, hM'⟩ : Fin 2) (0 : Fin 1) f)) (shapeCast_ab_a1b_apply _ _ _ _ _)
  refine funext fun a => Fin.ext ?_
  match a with
  | ⟨0, _⟩ => show win0_3.index t (0 : Fin 3) * 1 + 1 * 0 = M; omega
  | ⟨1, _⟩ => show win0_3.index t (1 : Fin 3) * 1 + 1 * 0 = 0; omega
  | ⟨2, _⟩ => show win0_3.index t (2 : Fin 3) * 256 + 1 * f.val = f.val; omega

omit hST in
theorem blk4 (f : Fin 256) :
    (iblk m c 4 t : S1x1x256.Idx → EReal) (ix3 (0 : Fin 1) (0 : Fin 1) f)
      = m ((c : Thread nD τ).loc main_arg4) (ix2 (⟨M, hM'⟩ : Fin 2) f) := by
  show V m c main_v2 (((cfg0.win 4).blk t).view.emb (ix3 (0 : Fin 1) (0 : Fin 1) f)) = _
  rw [V_v2]
  obtain ⟨e0, e1, e2⟩ := idx4 t
  refine Eq.trans (congrArg (shapeCast S2x1x256 (m ((c : Thread nD τ).loc main_arg4)) Facts₀.shapeCasts_S2x256_S2x1x256)
    (?_ : _ = ix3 (⟨M, hM'⟩ : Fin 2) (0 : Fin 1) f)) (shapeCast_ab_a1b_apply _ _ _ _ _)
  refine funext fun a => Fin.ext ?_
  match a with
  | ⟨0, _⟩ => show win0_4.index t (0 : Fin 3) * 1 + 1 * 0 = M; omega
  | ⟨1, _⟩ => show win0_4.index t (1 : Fin 3) * 1 + 1 * 0 = 0; omega
  | ⟨2, _⟩ => show win0_4.index t (2 : Fin 3) * 256 + 1 * f.val = f.val; omega

omit hST in
theorem blk5 (f : Fin 256) (g : Fin 128) :
    (iblk m c 5 t : S1x256x128.Idx → EReal) (ix3 (0 : Fin 1) f g)
      = m ((c : Thread nD τ).loc main_arg5) (ix3 (⟨M, hM'⟩ : Fin 2) f g) := by
  show V m c main_arg5 (((cfg0.win 5).blk t).view.emb (ix3 (0 : Fin 1) f g)) = _
  rw [V_main_arg5]
  obtain ⟨e0, e1, e2⟩ := idx5 t
  refine congrArg (m ((c : Thread nD τ).loc main_arg5)) (funext fun a => Fin.ext ?_)
  match a with
  | ⟨0, _⟩ => show win0_5.index t (0 : Fin 3) * 1 + 1 * 0 = M; omega
  | ⟨1, _⟩ => show win0_5.index t (1 : Fin 3) * 256 + 1 * f.val = f.val; omega
  | ⟨2, _⟩ => show win0_5.index t (2 : Fin 3) * 128 + 1 * g.val = g.val; omega

omit hST in
theorem blk6 (g : Fin 128) :
    (iblk m c 6 t : S1x1x128.Idx → EReal) (ix3 (0 : Fin 1) (0 : Fin 1) g)
      = m ((c : Thread nD τ).loc main_arg6) (ix2 (⟨M, hM'⟩ : Fin 2) g) := by
  show V m c main_v3 (((cfg0.win 6).blk t).view.emb (ix3 (0 : Fin 1) (0 : Fin 1) g)) = _
  rw [V_v3]
  obtain ⟨e0, e1, e2⟩ := idx6 t
  refine Eq.trans (congrArg (shapeCast S2x1x128 (m ((c : Thread nD τ).loc main_arg6)) Facts₀.shapeCasts_S2x128_S2x1x128)
    (?_ : _ = ix3 (⟨M, hM'⟩ : Fin 2) (0 : Fin 1) g)) (shapeCast_ab_a1b_apply _ _ _ _ _)
  refine funext fun a => Fin.ext ?_
  match a with
  | ⟨0, _⟩ => show win0_6.index t (0 : Fin 3) * 1 + 1 * 0 = M; omega
  | ⟨1, _⟩ => show win0_6.index t (1 : Fin 3) * 1 + 1 * 0 = 0; omega
  | ⟨2, _⟩ => show win0_6.index t (2 : Fin 3) * 128 + 1 * g.val = g.val; omega

omit hST in
theorem blk7 (g : Fin 128) :
    (iblk m c 7 t : S1x1x128.Idx → EReal) (ix3 (0 : Fin 1) (0 : Fin 1) g)
      = m ((c : Thread nD τ).loc main_arg7) (ix2 (⟨M, hM'⟩ : Fin 2) g) := by
  show V m c main_v4 (((cfg0.win 7).blk t).view.emb (ix3 (0 : Fin 1) (0 : Fin 1) g)) = _
  rw [V_v4]
  obtain ⟨e0, e1, e2⟩ := idx7 t
  refine Eq.trans (congrArg (shapeCast S2x1x128 (m ((c : Thread nD τ).loc main_arg7)) Facts₀.shapeCasts_S2x128_S2x1x128)
    (?_ : _ = ix3 (⟨M, hM'⟩ : Fin 2) (0 : Fin 1) g)) (shapeCast_ab_a1b_apply _ _ _ _ _)
  refine funext fun a => Fin.ext ?_
  match a with
  | ⟨0, _⟩ => show win0_7.index t (0 : Fin 3) * 1 + 1 * 0 = M; omega
  | ⟨1, _⟩ => show win0_7.index t (1 : Fin 3) * 1 + 1 * 0 = 0; omega
  | ⟨2, _⟩ => show win0_7.index t (2 : Fin 3) * 128 + 1 * g.val = g.val; omega

omit hST in
theorem blk8 (g : Fin 128) :
    (iblk m c 8 t : S1x1x128.Idx → EReal) (ix3 (0 : Fin 1) (0 : Fin 1) g)
      = m ((c : Thread nD τ).loc main_arg8) (ix2 (⟨M, hM'⟩ : Fin 2) g) := by
  show V m c main_v5 (((cfg0.win 8).blk t).view.emb (ix3 (0 : Fin 1) (0 : Fin 1) g)) = _
  rw [V_v5]
  obtain ⟨e0, e1, e2⟩ := idx8 t
  refine Eq.trans (congrArg (shapeCast S2x1x128 (m ((c : Thread nD τ).loc main_arg8)) Facts₀.shapeCasts_S2x128_S2x1x128)
    (?_ : _ = ix3 (⟨M, hM'⟩ : Fin 2) (0 : Fin 1) g)) (shapeCast_ab_a1b_apply _ _ _ _ _)
  refine funext fun a => Fin.ext ?_
  match a with
  | ⟨0, _⟩ => show win0_8.index t (0 : Fin 3) * 1 + 1 * 0 = M; omega
  | ⟨1, _⟩ => show win0_8.index t (1 : Fin 3) * 1 + 1 * 0 = 0; omega
  | ⟨2, _⟩ => show win0_8.index t (2 : Fin 3) * 128 + 1 * g.val = g.val; omega

omit hST in
theorem blk9 (g : Fin 128) :
    (iblk m c 9 t : S1x128x1.Idx → EReal) (ix3 (0 : Fin 1) g (0 : Fin 1))
      = m ((c : Thread nD τ).loc main_arg9) (ix3 (⟨M, hM'⟩ : Fin 2) g (0 : Fin 1)) := by
  show V m c main_arg9 (((cfg0.win 9).blk t).view.emb (ix3 (0 : Fin 1) g (0 : Fin 1))) = _
  rw [V_main_arg9]
  obtain ⟨e0, e1, e2⟩ := idx9 t
  refine congrArg (m ((c : Thread nD τ).loc main_arg9)) (funext fun a => Fin.ext ?_)
  match a with
  | ⟨0, _⟩ => show win0_9.index t (0 : Fin 3) * 1 + 1 * 0 = M; omega
  | ⟨1, _⟩ => show win0_9.index t (1 : Fin 3) * 128 + 1 * g.val = g.val; omega
  | ⟨2, _⟩ => show win0_9.index t (2 : Fin 3) * 1 + 1 * 0 = 0; omega

omit hST in
theorem blk10 :
    (iblk m c 10 t : S1x1x1.Idx → EReal) (ix3 (0 : Fin 1) (0 : Fin 1) (0 : Fin 1))
      = m ((c : Thread nD τ).loc main_arg10) (ix2 (⟨M, hM'⟩ : Fin 2) (0 : Fin 1)) := by
  show V m c main_v6 (((cfg0.win 10).blk t).view.emb (ix3 (0 : Fin 1) (0 : Fin 1) (0 : Fin 1))) = _
  rw [V_v6]
  obtain ⟨e0, e1, e2⟩ := idx10 t
  refine Eq.trans (congrArg (shapeCast S2x1x1 (m ((c : Thread nD τ).loc main_arg10)) Facts₀.shapeCasts_S2x1_S2x1x1)
    (?_ : _ = ix3 (⟨M, hM'⟩ : Fin 2) (0 : Fin 1) (0 : Fin 1))) (shapeCast_ab_a1b_apply _ _ _ _ _)
  refine funext fun a => Fin.ext ?_
  match a with
  | ⟨0, _⟩ => show win0_10.index t (0 : Fin 3) * 1 + 1 * 0 = M; omega
  | ⟨1, _⟩ => show win0_10.index t (1 : Fin 3) * 1 + 1 * 0 = 0; omega
  | ⟨2, _⟩ => show win0_10.index t (2 : Fin 3) * 1 + 1 * 0 = 0; omega

end Blocks

/-! ## The score array, and what a point writes back -/

theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- The launch's output array [2, 4, 4096]: entry (mm, b, s) is the score of model mm at batch entry b, position s. -/
def scores (a0 : (⟨4, ![2, 4, 4096, 4096]⟩ : Shape).Idx → EReal) (a1 : (⟨3, ![2, 4096, 256]⟩ : Shape).Idx → EReal)
    (a2 a3 a4 : (⟨2, ![2, 256]⟩ : Shape).Idx → EReal) (a5 : (⟨3, ![2, 256, 128]⟩ : Shape).Idx → EReal)
    (a6 a7 a8 : (⟨2, ![2, 128]⟩ : Shape).Idx → EReal) (a9 : (⟨3, ![2, 128, 1]⟩ : Shape).Idx → EReal)
    (a10 : (⟨2, ![2, 1]⟩ : Shape).Idx → EReal) : (⟨3, ![2, 4, 4096]⟩ : Shape).Idx → EReal :=
  fun i => Cert.Head.score a0 a1 a2 a3 a4 a5 a6 a7 a8 a9 a10 (i 1) (i 2) (i 0)

/-- WHAT POINT t WRITES BACK is block t of the score array of the arguments. -/
theorem flushed_eq (c : Dev nD) (t : Fin cfg0.N) :
    (dats m 0 c).flushed 11 t = ((cfg0.win 11).blk t).view.read (Elt Ideal) (scores (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) := by
  show (cfg0.win 11).cut (grid0.coords t) ((dats m 0 c).after 11 t) = _
  rw [after0_11]
  unfold out0_11
  rw [View.canon_unit_zero hz3]
  simp only [View.ld_unit_zero (S := S1x4x128x4096) hz4, View.ld_unit_zero (S := S1x4096x256) hz3,
    View.ld_unit_zero (S := S1x1x256) hz3, View.ld_unit_zero (S := S1x256x128) hz3,
    View.ld_unit_zero (S := S1x1x128) hz3, View.ld_unit_zero (S := S1x128x1) hz3, View.ld_unit_zero (S := S1x1x1) hz3]
  obtain ⟨q0, q1, q2⟩ := idx11 t
  refine funext fun (y : S1x4x128.Idx) => ?_
  obtain ⟨u, b, r, rfl⟩ : ∃ (u : Fin 1) (b : Fin 4) (r : Fin 128), y = ix3 u b r := ⟨y 0, y 1, y 2, eq_ix3 y⟩
  obtain rfl : u = 0 := Subsingleton.elim _ _
  have hM' : win0_11.index t (0 : Fin 3) < 2 := by omega
  have hST' : win0_11.index t (2 : Fin 3) < 32 := by omega
  have key := Cert.KernelIdeal.Body.block_value (iblk m c 0 t) (iblk m c 1 t) (iblk m c 2 t) (iblk m c 3 t) (iblk m c 4 t)
    (iblk m c 5 t) (iblk m c 6 t) (iblk m c 7 t) (iblk m c 8 t) (iblk m c 9 t) (iblk m c 10 t)
    (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))
    ⟨win0_11.index t (0 : Fin 3), hM'⟩ (win0_11.index t (2 : Fin 3)) hST'
    (blk0 m c t (win0_11.index t (0 : Fin 3)) (win0_11.index t (2 : Fin 3)) rfl rfl hM' hST') (blk1 m c t (win0_11.index t (0 : Fin 3)) rfl hM') (blk2 m c t (win0_11.index t (0 : Fin 3)) rfl hM') (blk3 m c t (win0_11.index t (0 : Fin 3)) rfl hM')
    (blk4 m c t (win0_11.index t (0 : Fin 3)) rfl hM') (blk5 m c t (win0_11.index t (0 : Fin 3)) rfl hM') (blk6 m c t (win0_11.index t (0 : Fin 3)) rfl hM') (blk7 m c t (win0_11.index t (0 : Fin 3)) rfl hM') (blk8 m c t (win0_11.index t (0 : Fin 3)) rfl hM')
    (blk9 m c t (win0_11.index t (0 : Fin 3)) rfl hM') (blk10 m c t (win0_11.index t (0 : Fin 3)) rfl hM') b r
  refine key.trans ?_
  show _ = scores (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (((cfg0.win 11).blk t).view.emb (ix3 (0 : Fin 1) b r))
  refine Eq.trans (rfl : _ = scores (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (ix3 (⟨win0_11.index t (0 : Fin 3), hM'⟩ : Fin 2) b (⟨win0_11.index t (2 : Fin 3) * 128 + r.val, by omega⟩ : Fin 4096)))
    (congrArg (scores (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) (funext fun a => Fin.ext ?_))
  match a with
  | ⟨0, _⟩ => show win0_11.index t (0 : Fin 3) = win0_11.index t (0 : Fin 3) * 1 + 1 * 0; omega
  | ⟨1, _⟩ => show b.val = win0_11.index t (1 : Fin 3) * 4 + 1 * b.val; omega
  | ⟨2, _⟩ => show win0_11.index t (2 : Fin 3) * 128 + r.val = win0_11.index t (2 : Fin 3) * 128 + 1 * r.val; omega

/-! ## The blocks tile the array -/

/-- An index of the score array is in point t's block iff each coordinate is in the block's range on its axis. -/
theorem mem_blk (t : Fin cfg0.N) (i : S2x4x4096.Idx) :
    i ∈ ((cfg0.win 11).blk t).view.set ↔ ∀ a : Fin 3, win0_11.index t a * S1x4x128.size a ≤ (i a).val
      ∧ (i a).val < win0_11.index t a * S1x4x128.size a + S1x4x128.size a := by
  show i ∈ ((View.whole main_v7).slice (win0_11.rect t)).set ↔ _
  rw [View.set_slice_whole, Rect.mem_set_unit]
  exact Iff.rfl

/-- Every index is in the block of the point of its model and of its position's tile. -/
theorem cover (i : S2x4x4096.Idx) :
    ∃ t : Fin cfg0.N, (cfg0.win 11).flush t = true ∧ i ∈ ((cfg0.win 11).blk t).view.set := by
  have hi0 : (i 0).val < 2 := (i 0).isLt
  have hi1 : (i 1).val < 4 := (i 1).isLt
  have hi2 : (i 2).val < 4096 := (i 2).isLt
  obtain ⟨t, ht⟩ := idx_onto ⟨(i 0).val, hi0⟩ ⟨(i 2).val / 128, by omega⟩
  have q0 : win0_11.index t (0 : Fin 3) = (i 0).val := congrFun ht 0
  have q1 : win0_11.index t (1 : Fin 3) = 0 := congrFun ht 1
  have q2 : win0_11.index t (2 : Fin 3) = (i 2).val / 128 := congrFun ht 2
  refine ⟨t, flush0_11 t, ?_⟩
  rw [mem_blk]
  intro a
  match a with
  | ⟨0, _⟩ => show win0_11.index t (0 : Fin 3) * 1 ≤ (i 0).val ∧ (i 0).val < win0_11.index t (0 : Fin 3) * 1 + 1; omega
  | ⟨1, _⟩ => show win0_11.index t (1 : Fin 3) * 4 ≤ (i 1).val ∧ (i 1).val < win0_11.index t (1 : Fin 3) * 4 + 4; omega
  | ⟨2, _⟩ => show win0_11.index t (2 : Fin 3) * 128 ≤ (i 2).val ∧ (i 2).val < win0_11.index t (2 : Fin 3) * 128 + 128; omega

/-- THE SCORE ARRAY after the launch. -/
theorem final (c : Dev nD) : (dats m 0 c).arrAt 11 cfg0.N = scores (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) :=
  (dats m 0 c).arrAt_eq_of_cover 11 _ (fun t _ => flushed_eq m c t) cover

/-! ## The transpose after the launch, and the run -/

/-- @main's result: the score array with its model axis moved last. -/
theorem result_eq (c : Dev nD) :
    Pipeline.afterTail₀ cfgs (dats m) 0 (V0 m) [hostOps1] c main_v8 = Cert.Head.result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  unfold Pipeline.afterTail₀
  show StableHlo.after hostOps1 _ (Proc.devRef .tc main_v8) = _
  after_results
  rw [(Pipeline.withArrays_arr spec0 launch0.win.arr_inj c _ _ 11).trans (final m c)]
  refine funext fun (j : S4x4096x2.Idx) => ?_
  obtain ⟨b, s, mm, rfl⟩ : ∃ (b : Fin 4) (s : Fin 4096) (mm : Fin 2), j = ix3 b s mm := ⟨j 0, j 1, j 2, eq_ix3 j⟩
  exact transpose_apply _ _ _ _ (ix3 mm b s) fun a => match a with | ⟨0, _⟩ => rfl | ⟨1, _⟩ => rfl | ⟨2, _⟩ => rfl

/-- THE KERNEL'S RUN: every weakly fair execution terminates with @main's result at `Cert.Head.result` of the argument
    arrays and the argument arrays unchanged. -/
theorem run : θ_run defs (onTc (τ := τ) (main (F := Ideal))) ⟨m, fun _ => 0, ρ⟩ (fun r => ∀ c : Dev nD,
      r.2.mem ((c.tc : Thread nD τ).loc main_v8) = Cert.Head.result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨((h c).2 main_v8 (Pipeline.mem_restRefs_of main_v8 (by decide) (by decide))).trans (result_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      ((h c).1 5).trans (((dats m 0 c).arrAt_in 5 rfl _).trans ((A_eq m c 5).trans (V_main_arg5 m c))),
      (((h c).2 main_arg6 (Pipeline.mem_restRefs_of main_arg6 (by decide) (by decide))).trans (W_main_arg6 m (dats m) c)),
      (((h c).2 main_arg7 (Pipeline.mem_restRefs_of main_arg7 (by decide) (by decide))).trans (W_main_arg7 m (dats m) c)),
      (((h c).2 main_arg8 (Pipeline.mem_restRefs_of main_arg8 (by decide) (by decide))).trans (W_main_arg8 m (dats m) c)),
      ((h c).1 9).trans (((dats m 0 c).arrAt_in 9 rfl _).trans ((A_eq m c 9).trans (V_main_arg9 m c))),
      (((h c).2 main_arg10 (Pipeline.mem_restRefs_of main_arg10 (by decide) (by decide))).trans (W_main_arg10 m (dats m) c))⟩)
    (run_main m ρ)

end Cert.KernelIdeal.RunValue

end
-- ==== Proof.RefValueStages.lean ====
/-
  The reference's arithmetic as pure functions of whole arrays, one definition per mathematical step:
  a linear layer (contraction over the input features plus a bias), the batch mean and the biased batch variance
  over the four batch entries (kept with a unit batch axis), batch normalisation, the rectifier — twice, for
  256 and then 128 features — and the last projection onto one output, re-laid from (model, batch, position)
  to (batch, position, model).  `out` composes them into the result array as a function of the eleven arguments.
-/
import proofs.«142921_j49486613185071_2_alg».proof.Proof.Gen.ReferenceIdeal

noncomputable section

namespace Cert.ReferenceIdeal.RefValue

open Cert.ReferenceIdeal Cert.ReferenceIdeal.Gen Idealize.ShloMosaic

variable {F : FTy → Type} [FloatOps F]

/-- The count a variance divides by: four less the zero correction, a scalar. -/
def cnt : FVec F S_ .f32 := subf (constant S_ .f32 0x40800000#32) (sitofp .f32 (constantI S_ 32 0#32))

/-- Layer 1, the linear map: the rows contracted with the model's weight matrix, plus the model's bias on every row. -/
def lin1 (x : FVec F S2x4x4096x4096 .f32) (w : FVec F S2x4096x256 .f32) (b : FVec F S2x256 .f32) : FVec F S2x4x4096x256 .f32 :=
  addf (Host.dotGeneral dot_S2x4x4096x4096_S2x4096x256_S2x4x4096x256_3_1_12_2_0_0 none x w)
    (broadcastInDim S2x4x4096x256 ![0, 1, 2, 3] bcast_S2x1x1x256_S2x4x4096x256_0_1_2_3 (broadcastInDim S2x1x1x256 ![0, 3] bcast_S2x256_S2x1x1x256_0_3 b))

/-- Layer 1, a per-feature parameter spread over batch entries and positions. -/
def par1 (p : FVec F S2x256 .f32) : FVec F S2x4x4096x256 .f32 :=
  broadcastInDim S2x4x4096x256 ![0, 1, 2, 3] bcast_S2x1x1x256_S2x4x4096x256_0_1_2_3 (broadcastInDim S2x1x1x256 ![0, 3] bcast_S2x256_S2x1x1x256_0_3 p)

/-- Layer 1, the batch mean: the sum over the four batch entries divided by four, kept with a unit batch axis. -/
def mean1 (y : FVec F S2x4x4096x256 .f32) : FVec F S2x1x4096x256 .f32 :=
  Host.divf
    (broadcastInDim S2x1x4096x256 ![0, 2, 3] bcast_S2x4096x256_S2x1x4096x256_0_2_3
      (Host.reduceAdd y (constant S_ .f32 0x00000000#32) reducesTo_S2x4x4096x256_S2x4096x256_d1 h_S_))
    (broadcastInDim S2x1x4096x256 ![] bcast_S_S2x1x4096x256 (constant S_ .f32 0x40800000#32))

/-- Layer 1, the deviation from the batch mean. -/
def dev1 (y : FVec F S2x4x4096x256 .f32) : FVec F S2x4x4096x256 .f32 :=
  subf y (broadcastInDim S2x4x4096x256 ![0, 1, 2, 3] bcast_S2x1x4096x256_S2x4x4096x256_0_1_2_3 (mean1 y))

/-- Layer 1, the biased batch variance: the sum of squared deviations divided by the count (four less a zero
    correction), taken where that count is positive (it always is) and otherwise the not-a-number word. -/
def var1 (y : FVec F S2x4x4096x256 .f32) : FVec F S2x1x4096x256 .f32 :=
  select (broadcastInDim S2x1x4096x256 ![] bcast_S_S2x1x4096x256 (cmpf .ogt (cnt (F := F)) (constant S_ .f32 0x00000000#32)))
    (Host.divf
      (broadcastInDim S2x1x4096x256 ![0, 2, 3] bcast_S2x4096x256_S2x1x4096x256_0_2_3
        (Host.reduceAdd (mulf (dev1 y) (dev1 y)) (constant S_ .f32 0x00000000#32) reducesTo_S2x4x4096x256_S2x4096x256_d1 h_S_))
      (broadcastInDim S2x1x4096x256 ![] bcast_S_S2x1x4096x256 (cnt (F := F))))
    (broadcastInDim S2x1x4096x256 ![1, 2, 3] bcast_S1x4096x256_S2x1x4096x256_1_2_3
      (broadcastInDim S1x4096x256 ![] bcast_S_S1x4096x256 (constant S_ .f32 0x7FC00000#32)))

/-- Layer 1, batch normalisation: scale times deviation times the reciprocal root of variance plus ε, plus shift. -/
def bn1 (y : FVec F S2x4x4096x256 .f32) (g be : FVec F S2x256 .f32) : FVec F S2x4x4096x256 .f32 :=
  addf
    (mulf (mulf (par1 g) (dev1 y))
      (broadcastInDim S2x4x4096x256 ![0, 1, 2, 3] bcast_S2x1x4096x256_S2x4x4096x256_0_1_2_3
        (Host.rsqrt (addf (var1 y) (broadcastInDim S2x1x4096x256 ![] bcast_S_S2x1x4096x256 (constant S_ .f32 0x3727C5AC#32))))))
    (par1 be)

/-- Layer 1, the rectifier: the maximum with zero. -/
def relu1 (x : FVec F S2x4x4096x256 .f32) : FVec F S2x4x4096x256 .f32 :=
  maximumf x (broadcastInDim S2x4x4096x256 ![] bcast_S_S2x4x4096x256 (constant S_ .f32 0x00000000#32))

/-- Layer 2, the linear map: the rows contracted with the model's weight matrix, plus the model's bias on every row. -/
def lin2 (x : FVec F S2x4x4096x256 .f32) (w : FVec F S2x256x128 .f32) (b : FVec F S2x128 .f32) : FVec F S2x4x4096x128 .f32 :=
  addf (Host.dotGeneral dot_S2x4x4096x256_S2x256x128_S2x4x4096x128_3_1_12_2_0_0 none x w)
    (broadcastInDim S2x4x4096x128 ![0, 1, 2, 3] bcast_S2x1x1x128_S2x4x4096x128_0_1_2_3 (broadcastInDim S2x1x1x128 ![0, 3] bcast_S2x128_S2x1x1x128_0_3 b))

/-- Layer 2, a per-feature parameter spread over batch entries and positions. -/
def par2 (p : FVec F S2x128 .f32) : FVec F S2x4x4096x128 .f32 :=
  broadcastInDim S2x4x4096x128 ![0, 1, 2, 3] bcast_S2x1x1x128_S2x4x4096x128_0_1_2_3 (broadcastInDim S2x1x1x128 ![0, 3] bcast_S2x128_S2x1x1x128_0_3 p)

/-- Layer 2, the batch mean: the sum over the four batch entries divided by four, kept with a unit batch axis. -/
def mean2 (y : FVec F S2x4x4096x128 .f32) : FVec F S2x1x4096x128 .f32 :=
  Host.divf
    (broadcastInDim S2x1x4096x128 ![0, 2, 3] bcast_S2x4096x128_S2x1x4096x128_0_2_3
      (Host.reduceAdd y (constant S_ .f32 0x00000000#32) reducesTo_S2x4x4096x128_S2x4096x128_d1 h_S_))
    (broadcastInDim S2x1x4096x128 ![] bcast_S_S2x1x4096x128 (constant S_ .f32 0x40800000#32))

/-- Layer 2, the deviation from the batch mean. -/
def dev2 (y : FVec F S2x4x4096x128 .f32) : FVec F S2x4x4096x128 .f32 :=
  subf y (broadcastInDim S2x4x4096x128 ![0, 1, 2, 3] bcast_S2x1x4096x128_S2x4x4096x128_0_1_2_3 (mean2 y))

/-- Layer 2, the biased batch variance: the sum of squared deviations divided by the count (four less a zero
    correction), taken where that count is positive (it always is) and otherwise the not-a-number word. -/
def var2 (y : FVec F S2x4x4096x128 .f32) : FVec F S2x1x4096x128 .f32 :=
  select (broadcastInDim S2x1x4096x128 ![] bcast_S_S2x1x4096x128 (cmpf .ogt (cnt (F := F)) (constant S_ .f32 0x00000000#32)))
    (Host.divf
      (broadcastInDim S2x1x4096x128 ![0, 2, 3] bcast_S2x4096x128_S2x1x4096x128_0_2_3
        (Host.reduceAdd (mulf (dev2 y) (dev2 y)) (constant S_ .f32 0x00000000#32) reducesTo_S2x4x4096x128_S2x4096x128_d1 h_S_))
      (broadcastInDim S2x1x4096x128 ![] bcast_S_S2x1x4096x128 (cnt (F := F))))
    (broadcastInDim S2x1x4096x128 ![1, 2, 3] bcast_S1x4096x128_S2x1x4096x128_1_2_3
      (broadcastInDim S1x4096x128 ![] bcast_S_S1x4096x128 (constant S_ .f32 0x7FC00000#32)))

/-- Layer 2, batch normalisation: scale times deviation times the reciprocal root of variance plus ε, plus shift. -/
def bn2 (y : FVec F S2x4x4096x128 .f32) (g be : FVec F S2x128 .f32) : FVec F S2x4x4096x128 .f32 :=
  addf
    (mulf (mulf (par2 g) (dev2 y))
      (broadcastInDim S2x4x4096x128 ![0, 1, 2, 3] bcast_S2x1x4096x128_S2x4x4096x128_0_1_2_3
        (Host.rsqrt (addf (var2 y) (broadcastInDim S2x1x4096x128 ![] bcast_S_S2x1x4096x128 (constant S_ .f32 0x3727C5AC#32))))))
    (par2 be)

/-- Layer 2, the rectifier: the maximum with zero. -/
def relu2 (x : FVec F S2x4x4096x128 .f32) : FVec F S2x4x4096x128 .f32 :=
  maximumf x (broadcastInDim S2x4x4096x128 ![] bcast_S_S2x4x4096x128 (constant S_ .f32 0x00000000#32))

/-- The last projection: 128 features onto one output, plus the model's bias. -/
def lin3 (x : FVec F S2x4x4096x128 .f32) (w : FVec F S2x128x1 .f32) (b : FVec F S2x1 .f32) : FVec F S2x4x4096x1 .f32 :=
  addf (Host.dotGeneral dot_S2x4x4096x128_S2x128x1_S2x4x4096x1_3_1_12_2_0_0 none x w)
    (broadcastInDim S2x4x4096x1 ![0, 1, 2, 3] bcast_S2x1x1x1_S2x4x4096x1_0_1_2_3 (broadcastInDim S2x1x1x1 ![0, 3] bcast_S2x1_S2x1x1x1_0_3 b))

section
variable (a0 : FVec F S2x4x4096x4096 .f32) (a1 : FVec F S2x4096x256 .f32) (a2 a3 a4 : FVec F S2x256 .f32)
  (a5 : FVec F S2x256x128 .f32) (a6 a7 a8 : FVec F S2x128 .f32) (a9 : FVec F S2x128x1 .f32) (a10 : FVec F S2x1 .f32)

/-- The first layer's output: linear, normalised over the batch, rectified. -/
def x1 : FVec F S2x4x4096x256 .f32 := relu1 (bn1 (lin1 a0 a1 a2) a3 a4)

/-- The second layer's output. -/
def x2 : FVec F S2x4x4096x128 .f32 := relu2 (bn2 (lin2 (x1 a0 a1 a2 a3 a4) a5 a6) a7 a8)

/-- The result array: the projection of the second layer's output, its unit axis dropped, re-laid (batch, position, model). -/
def out : FVec F S4x4096x2 .f32 :=
  transpose S4x4096x2 [1, 2, 0]
    (shapeCast S2x4x4096 (lin3 (x2 a0 a1 a2 a3 a4 a5 a6 a7 a8) a9 a10) shapeCasts_S2x4x4096x1_S2x4x4096)
    transposes_S2x4x4096_S4x4096x2_1_2_0

end

end Cert.ReferenceIdeal.RefValue

end
-- ==== Proof.RefRun.lean ====
/-
  The reference program's run.  Its @main is a straight line of 110 array operations once the four called
  functions (the two variances, each calling a select helper, and the two rectifiers) are written out at their
  call sites over the buffers of each call: `ops` lists them in program order and `main_eq` says @main is that
  line.  Every weakly fair execution then terminates with each buffer at the fold of the operations over the launch
  contents; read at the result buffer that fold is the composed function `RefValue.out` of the eleven argument
  arrays, and each argument buffer is written by no operation, so it ends as it began.
-/
import proofs.«142921_j49486613185071_2_alg».proof.Proof.RefValueStages
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's operations in order, the calls written out: a variance is twenty operations and the select helper's four
    into the call's own buffers, a rectifier three. -/
abbrev ops : List (HloOp τ sig (Elt F)) :=
  [ binary main_arg0 main_arg1 main_v0 ((fun l r => Host.dotGeneral dot_S2x4x4096x4096_S2x4096x256_S2x4x4096x256_3_1_12_2_0_0 none l r) : (⟨S2x4x4096x4096, .f32⟩ : BufTy).Contents (Elt F) → (⟨S2x4096x256, .f32⟩ : BufTy).Contents (Elt F) → (⟨S2x4x4096x256, .f32⟩ : BufTy).Contents (Elt F)),
    unary main_arg2 main_v1 (broadcastInDim S2x1x1x256 ![0, 3] bcast_S2x256_S2x1x1x256_0_3 : (⟨S2x256, .f32⟩ : BufTy).Contents (Elt F) → (⟨S2x1x1x256, .f32⟩ : BufTy).Contents (Elt F)),
    unary main_v1 main_v2 (broadcastInDim S2x4x4096x256 ![0, 1, 2, 3] bcast_S2x1x1x256_S2x4x4096x256_0_1_2_3 : (⟨S2x1x1x256, .f32⟩ : BufTy).Contents (Elt F) → (⟨S2x4x4096x256, .f32⟩ : BufTy).Contents (Elt F)),
    binary main_v0 main_v2 main_v3 (addf : (⟨S2x4x4096x256, .f32⟩ : BufTy).Contents (Elt F) → (⟨S2x4x4096x256, .f32⟩ : BufTy).Contents (Elt F) → (⟨S2x4x4096x256, .f32⟩ : BufTy).Contents (Elt F)),
    nullary main_cst (constant S_ .f32 0x00000000#32),
    binary main_v3 main_cst main_v4 ((fun x v => Host.reduceAdd x v reducesTo_S2x4x4096x256_S2x4096x256_d1 h_S_) : (⟨S2x4x4096x256, .f32⟩ : BufTy).Contents (Elt F) → (⟨S_, .f32⟩ : BufTy).Contents (Elt F) → (⟨S2x4096x256, .f32⟩ : BufTy).Contents (Elt F)),
    unary main_v4 main_v5 (broadcastInDim S2x1x4096x256 ![0, 2, 3] bcast_S2x4096x256_S2x1x4096x256_0_2_3 : (⟨S2x4096x256, .f32⟩ : BufTy).Contents (Elt F) → (⟨S2x1x4096x256, .f32⟩ : BufTy).Contents (Elt F)),
    nullary main_cst_0 (constant S_ .f32 0x40800000#32),
    unary main_cst_0 main_v6 (broadcastInDim S2x1x4096x256 ![] bcast_S_S2x1x4096x256 : (⟨S_, .f32⟩ : BufTy).Contents (Elt F) → (⟨S2x1x4096x256, .f32⟩ : BufTy).Contents (Elt F)),
    binary main_v5 main_v6 main_v7 (Host.divf : (⟨S2x1x4096x256, .f32⟩ : BufTy).Contents (Elt F) → (⟨S2x1x4096x256, .f32⟩ : BufTy).Contents (Elt F) → (⟨S2x1x4096x256, .f32⟩ : BufTy).Contents (Elt F)),
    nullary main_c (constantI S_ 32 0#32),
    TRef.nullary main_call0.cst (constant S_ .f32 0x00000000#32),
    TRef.binary (.of main_v3 : TRef sig ⟨S2x4x4096x256, .f32⟩) main_call0.cst main_call0.v0 (fun x v => Host.reduceAdd x v reducesTo_S2x4x4096x256_S2x4096x256_d1 h_S_),
    TRef.unary main_call0.v0 main_call0.v1 (broadcastInDim S2x1x4096x256 ![0, 2, 3] bcast_S2x4096x256_S2x1x4096x256_0_2_3),
    TRef.nullary main_call0.cst_0 (constant S_ .f32 0x40800000#32),
    TRef.unary main_call0.cst_0 main_call0.v2 (broadcastInDim S2x1x4096x256 ![] bcast_S_S2x1x4096x256),
    TRef.binary main_call0.v1 main_call0.v2 main_call0.v3 Host.divf,
    TRef.unary main_call0.v3 main_call0.v4 (broadcastInDim S2x4x4096x256 ![0, 1, 2, 3] bcast_S2x1x4096x256_S2x4x4096x256_0_1_2_3),
    TRef.binary (.of main_v3 : TRef sig ⟨S2x4x4096x256, .f32⟩) main_call0.v4 main_call0.v5 subf,
    TRef.binary main_call0.v5 main_call0.v5 main_call0.v6 mulf,
    TRef.unary (.of main_c : TRef sig ⟨S_, .i32⟩) main_call0.v7 (sitofp .f32),
    TRef.nullary main_call0.cst_1 (constant S_ .f32 0x40800000#32),
    TRef.binary main_call0.cst_1 main_call0.v7 main_call0.v8 subf,
    TRef.nullary main_call0.cst_2 (constant S_ .f32 0x00000000#32),
    TRef.binary main_call0.v6 main_call0.cst_2 main_call0.v9 (fun x v => Host.reduceAdd x v reducesTo_S2x4x4096x256_S2x4096x256_d1 h_S_),
    TRef.unary main_call0.v9 main_call0.v10 (broadcastInDim S2x1x4096x256 ![0, 2, 3] bcast_S2x4096x256_S2x1x4096x256_0_2_3),
    TRef.unary main_call0.v8 main_call0.v11 (broadcastInDim S2x1x4096x256 ![] bcast_S_S2x1x4096x256),
    TRef.binary main_call0.v10 main_call0.v11 main_call0.v12 Host.divf,
    TRef.nullary main_call0.cst_3 (constant S_ .f32 0x00000000#32),
    TRef.binary main_call0.v8 main_call0.cst_3 main_call0.v13 (cmpf .ogt),
    TRef.nullary main_call0.cst_4 (constant S_ .f32 0x7FC00000#32),
    TRef.unary main_call0.cst_4 main_call0.call0.v0 id,
    TRef.unary main_call0.call0.v0 main_call0.call0.v1 (broadcastInDim S1x4096x256 ![] bcast_S_S1x4096x256),
    TRef.unary main_call0.call0.v1 main_call0.call0.v2 (broadcastInDim S2x1x4096x256 ![1, 2, 3] bcast_S1x4096x256_S2x1x4096x256_1_2_3),
    TRef.ternary main_call0.v13 main_call0.v12 main_call0.call0.v2 main_call0.call0.v3 (fun p a b => select (broadcastInDim S2x1x4096x256 ![] bcast_S_S2x1x4096x256 p) a b),
    unary main_v7 main_v9 (broadcastInDim S2x4x4096x256 ![0, 1, 2, 3] bcast_S2x1x4096x256_S2x4x4096x256_0_1_2_3 : (⟨S2x1x4096x256, .f32⟩ : BufTy).Contents (Elt F) → (⟨S2x4x4096x256, .f32⟩ : BufTy).Contents (Elt F)),
    binary main_v3 main_v9 main_v10 (subf : (⟨S2x4x4096x256, .f32⟩ : BufTy).Contents (Elt F) → (⟨S2x4x4096x256, .f32⟩ : BufTy).Contents (Elt F) → (⟨S2x4x4096x256, .f32⟩ : BufTy).Contents (Elt F)),
    unary main_arg3 main_v11 (broadcastInDim S2x1x1x256 ![0, 3] bcast_S2x256_S2x1x1x256_0_3 : (⟨S2x256, .f32⟩ : BufTy).Contents (Elt F) → (⟨S2x1x1x256, .f32⟩ : BufTy).Contents (Elt F)),
    unary main_v11 main_v12 (broadcastInDim S2x4x4096x256 ![0, 1, 2, 3] bcast_S2x1x1x256_S2x4x4096x256_0_1_2_3 : (⟨S2x1x1x256, .f32⟩ : BufTy).Contents (Elt F) → (⟨S2x4x4096x256, .f32⟩ : BufTy).Contents (Elt F)),
    binary main_v12 main_v10 main_v13 (mulf : (⟨S2x4x4096x256, .f32⟩ : BufTy).Contents (Elt F) → (⟨S2x4x4096x256, .f32⟩ : BufTy).Contents (Elt F) → (⟨S2x4x4096x256, .f32⟩ : BufTy).Contents (Elt F)),
    nullary main_cst_1 (constant S_ .f32 0x3727C5AC#32),
    unary main_cst_1 main_v14 (broadcastInDim S2x1x4096x256 ![] bcast_S_S2x1x4096x256 : (⟨S_, .f32⟩ : BufTy).Contents (Elt F) → (⟨S2x1x4096x256, .f32⟩ : BufTy).Contents (Elt F)),
    binary main_v8 main_v14 main_v15 (addf : (⟨S2x1x4096x256, .f32⟩ : BufTy).Contents (Elt F) → (⟨S2x1x4096x256, .f32⟩ : BufTy).Contents (Elt F) → (⟨S2x1x4096x256, .f32⟩ : BufTy).Contents (Elt F)),
    unary main_v15 main_v16 (Host.rsqrt : (⟨S2x1x4096x256, .f32⟩ : BufTy).Contents (Elt F) → (⟨S2x1x4096x256, .f32⟩ : BufTy).Contents (Elt F)),
    unary main_v16 main_v17 (broadcastInDim S2x4x4096x256 ![0, 1, 2, 3] bcast_S2x1x4096x256_S2x4x4096x256_0_1_2_3 : (⟨S2x1x4096x256, .f32⟩ : BufTy).Contents (Elt F) → (⟨S2x4x4096x256, .f32⟩ : BufTy).Contents (Elt F)),
    binary main_v13 main_v17 main_v18 (mulf : (⟨S2x4x4096x256, .f32⟩ : BufTy).Contents (Elt F) → (⟨S2x4x4096x256, .f32⟩ : BufTy).Contents (Elt F) → (⟨S2x4x4096x256, .f32⟩ : BufTy).Contents (Elt F)),
    unary main_arg4 main_v19 (broadcastInDim S2x1x1x256 ![0, 3] bcast_S2x256_S2x1x1x256_0_3 : (⟨S2x256, .f32⟩ : BufTy).Contents (Elt F) → (⟨S2x1x1x256, .f32⟩ : BufTy).Contents (Elt F)),
    unary main_v19 main_v20 (broadcastInDim S2x4x4096x256 ![0, 1, 2, 3] bcast_S2x1x1x256_S2x4x4096x256_0_1_2_3 : (⟨S2x1x1x256, .f32⟩ : BufTy).Contents (Elt F) → (⟨S2x4x4096x256, .f32⟩ : BufTy).Contents (Elt F)),
    binary main_v18 main_v20 main_v21 (addf : (⟨S2x4x4096x256, .f32⟩ : BufTy).Contents (Elt F) → (⟨S2x4x4096x256, .f32⟩ : BufTy).Contents (Elt F) → (⟨S2x4x4096x256, .f32⟩ : BufTy).Contents (Elt F)),
    TRef.nullary main_call1.cst (constant S_ .f32 0x00000000#32),
    TRef.unary main_call1.cst main_call1.v0 (broadcastInDim S2x4x4096x256 ![] bcast_S_S2x4x4096x256),
    TRef.binary (.of main_v21 : TRef sig ⟨S2x4x4096x256, .f32⟩) main_call1.v0 main_call1.v1 maximumf,
    binary main_v22 main_arg5 main_v23 ((fun l r => Host.dotGeneral dot_S2x4x4096x256_S2x256x128_S2x4x4096x128_3_1_12_2_0_0 none l r) : (⟨S2x4x4096x256, .f32⟩ : BufTy).Contents (Elt F) → (⟨S2x256x128, .f32⟩ : BufTy).Contents (Elt F) → (⟨S2x4x4096x128, .f32⟩ : BufTy).Contents (Elt F)),
    unary main_arg6 main_v24 (broadcastInDim S2x1x1x128 ![0, 3] bcast_S2x128_S2x1x1x128_0_3 : (⟨S2x128, .f32⟩ : BufTy).Contents (Elt F) → (⟨S2x1x1x128, .f32⟩ : BufTy).Contents (Elt F)),
    unary main_v24 main_v25 (broadcastInDim S2x4x4096x128 ![0, 1, 2, 3] bcast_S2x1x1x128_S2x4x4096x128_0_1_2_3 : (⟨S2x1x1x128, .f32⟩ : BufTy).Contents (Elt F) → (⟨S2x4x4096x128, .f32⟩ : BufTy).Contents (Elt F)),
    binary main_v23 main_v25 main_v26 (addf : (⟨S2x4x4096x128, .f32⟩ : BufTy).Contents (Elt F) → (⟨S2x4x4096x128, .f32⟩ : BufTy).Contents (Elt F) → (⟨S2x4x4096x128, .f32⟩ : BufTy).Contents (Elt F)),
    nullary main_cst_2 (constant S_ .f32 0x00000000#32),
    binary main_v26 main_cst_2 main_v27 ((fun x v => Host.reduceAdd x v reducesTo_S2x4x4096x128_S2x4096x128_d1 h_S_) : (⟨S2x4x4096x128, .f32⟩ : BufTy).Contents (Elt F) → (⟨S_, .f32⟩ : BufTy).Contents (Elt F) → (⟨S2x4096x128, .f32⟩ : BufTy).Contents (Elt F)),
    unary main_v27 main_v28 (broadcastInDim S2x1x4096x128 ![0, 2, 3] bcast_S2x4096x128_S2x1x4096x128_0_2_3 : (⟨S2x4096x128, .f32⟩ : BufTy).Contents (Elt F) → (⟨S2x1x4096x128, .f32⟩ : BufTy).Contents (Elt F)),
    nullary main_cst_3 (constant S_ .f32 0x40800000#32),
    unary main_cst_3 main_v29 (broadcastInDim S2x1x4096x128 ![] bcast_S_S2x1x4096x128 : (⟨S_, .f32⟩ : BufTy).Contents (Elt F) → (⟨S2x1x4096x128, .f32⟩ : BufTy).Contents (Elt F)),
    binary main_v28 main_v29 main_v30 (Host.divf : (⟨S2x1x4096x128, .f32⟩ : BufTy).Contents (Elt F) → (⟨S2x1x4096x128, .f32⟩ : BufTy).Contents (Elt F) → (⟨S2x1x4096x128, .f32⟩ : BufTy).Contents (Elt F)),
    nullary main_c_4 (constantI S_ 32 0#32),
    TRef.nullary main_call2.cst (constant S_ .f32 0x00000000#32),
    TRef.binary (.of main_v26 : TRef sig ⟨S2x4x4096x128, .f32⟩) main_call2.cst main_call2.v0 (fun x v => Host.reduceAdd x v reducesTo_S2x4x4096x128_S2x4096x128_d1 h_S_),
    TRef.unary main_call2.v0 main_call2.v1 (broadcastInDim S2x1x4096x128 ![0, 2, 3] bcast_S2x4096x128_S2x1x4096x128_0_2_3),
    TRef.nullary main_call2.cst_0 (constant S_ .f32 0x40800000#32),
    TRef.unary main_call2.cst_0 main_call2.v2 (broadcastInDim S2x1x4096x128 ![] bcast_S_S2x1x4096x128),
    TRef.binary main_call2.v1 main_call2.v2 main_call2.v3 Host.divf,
    TRef.unary main_call2.v3 main_call2.v4 (broadcastInDim S2x4x4096x128 ![0, 1, 2, 3] bcast_S2x1x4096x128_S2x4x4096x128_0_1_2_3),
    TRef.binary (.of main_v26 : TRef sig ⟨S2x4x4096x128, .f32⟩) main_call2.v4 main_call2.v5 subf,
    TRef.binary main_call2.v5 main_call2.v5 main_call2.v6 mulf,
    TRef.unary (.of main_c_4 : TRef sig ⟨S_, .i32⟩) main_call2.v7 (sitofp .f32),
    TRef.nullary main_call2.cst_1 (constant S_ .f32 0x40800000#32),
    TRef.binary main_call2.cst_1 main_call2.v7 main_call2.v8 subf,
    TRef.nullary main_call2.cst_2 (constant S_ .f32 0x00000000#32),
    TRef.binary main_call2.v6 main_call2.cst_2 main_call2.v9 (fun x v => Host.reduceAdd x v reducesTo_S2x4x4096x128_S2x4096x128_d1 h_S_),
    TRef.unary main_call2.v9 main_call2.v10 (broadcastInDim S2x1x4096x128 ![0, 2, 3] bcast_S2x4096x128_S2x1x4096x128_0_2_3),
    TRef.unary main_call2.v8 main_call2.v11 (broadcastInDim S2x1x4096x128 ![] bcast_S_S2x1x4096x128),
    TRef.binary main_call2.v10 main_call2.v11 main_call2.v12 Host.divf,
    TRef.nullary main_call2.cst_3 (constant S_ .f32 0x00000000#32),
    TRef.binary main_call2.v8 main_call2.cst_3 main_call2.v13 (cmpf .ogt),
    TRef.nullary main_call2.cst_4 (constant S_ .f32 0x7FC00000#32),
    TRef.unary main_call2.cst_4 main_call2.call0.v0 id,
    TRef.unary main_call2.call0.v0 main_call2.call0.v1 (broadcastInDim S1x4096x128 ![] bcast_S_S1x4096x128),
    TRef.unary main_call2.call0.v1 main_call2.call0.v2 (broadcastInDim S2x1x4096x128 ![1, 2, 3] bcast_S1x4096x128_S2x1x4096x128_1_2_3),
    TRef.ternary main_call2.v13 main_call2.v12 main_call2.call0.v2 main_call2.call0.v3 (fun p a b => select (broadcastInDim S2x1x4096x128 ![] bcast_S_S2x1x4096x128 p) a b),
    unary main_v30 main_v32 (broadcastInDim S2x4x4096x128 ![0, 1, 2, 3] bcast_S2x1x4096x128_S2x4x4096x128_0_1_2_3 : (⟨S2x1x4096x128, .f32⟩ : BufTy).Contents (Elt F) → (⟨S2x4x4096x128, .f32⟩ : BufTy).Contents (Elt F)),
    binary main_v26 main_v32 main_v33 (subf : (⟨S2x4x4096x128, .f32⟩ : BufTy).Contents (Elt F) → (⟨S2x4x4096x128, .f32⟩ : BufTy).Contents (Elt F) → (⟨S2x4x4096x128, .f32⟩ : BufTy).Contents (Elt F)),
    unary main_arg7 main_v34 (broadcastInDim S2x1x1x128 ![0, 3] bcast_S2x128_S2x1x1x128_0_3 : (⟨S2x128, .f32⟩ : BufTy).Contents (Elt F) → (⟨S2x1x1x128, .f32⟩ : BufTy).Contents (Elt F)),
    unary main_v34 main_v35 (broadcastInDim S2x4x4096x128 ![0, 1, 2, 3] bcast_S2x1x1x128_S2x4x4096x128_0_1_2_3 : (⟨S2x1x1x128, .f32⟩ : BufTy).Contents (Elt F) → (⟨S2x4x4096x128, .f32⟩ : BufTy).Contents (Elt F)),
    binary main_v35 main_v33 main_v36 (mulf : (⟨S2x4x4096x128, .f32⟩ : BufTy).Contents (Elt F) → (⟨S2x4x4096x128, .f32⟩ : BufTy).Contents (Elt F) → (⟨S2x4x4096x128, .f32⟩ : BufTy).Contents (Elt F)),
    nullary main_cst_5 (constant S_ .f32 0x3727C5AC#32),
    unary main_cst_5 main_v37 (broadcastInDim S2x1x4096x128 ![] bcast_S_S2x1x4096x128 : (⟨S_, .f32⟩ : BufTy).Contents (Elt F) → (⟨S2x1x4096x128, .f32⟩ : BufTy).Contents (Elt F)),
    binary main_v31 main_v37 main_v38 (addf : (⟨S2x1x4096x128, .f32⟩ : BufTy).Contents (Elt F) → (⟨S2x1x4096x128, .f32⟩ : BufTy).Contents (Elt F) → (⟨S2x1x4096x128, .f32⟩ : BufTy).Contents (Elt F)),
    unary main_v38 main_v39 (Host.rsqrt : (⟨S2x1x4096x128, .f32⟩ : BufTy).Contents (Elt F) → (⟨S2x1x4096x128, .f32⟩ : BufTy).Contents (Elt F)),
    unary main_v39 main_v40 (broadcastInDim S2x4x4096x128 ![0, 1, 2, 3] bcast_S2x1x4096x128_S2x4x4096x128_0_1_2_3 : (⟨S2x1x4096x128, .f32⟩ : BufTy).Contents (Elt F) → (⟨S2x4x4096x128, .f32⟩ : BufTy).Contents (Elt F)),
    binary main_v36 main_v40 main_v41 (mulf : (⟨S2x4x4096x128, .f32⟩ : BufTy).Contents (Elt F) → (⟨S2x4x4096x128, .f32⟩ : BufTy).Contents (Elt F) → (⟨S2x4x4096x128, .f32⟩ : BufTy).Contents (Elt F)),
    unary main_arg8 main_v42 (broadcastInDim S2x1x1x128 ![0, 3] bcast_S2x128_S2x1x1x128_0_3 : (⟨S2x128, .f32⟩ : BufTy).Contents (Elt F) → (⟨S2x1x1x128, .f32⟩ : BufTy).Contents (Elt F)),
    unary main_v42 main_v43 (broadcastInDim S2x4x4096x128 ![0, 1, 2, 3] bcast_S2x1x1x128_S2x4x4096x128_0_1_2_3 : (⟨S2x1x1x128, .f32⟩ : BufTy).Contents (Elt F) → (⟨S2x4x4096x128, .f32⟩ : BufTy).Contents (Elt F)),
    binary main_v41 main_v43 main_v44 (addf : (⟨S2x4x4096x128, .f32⟩ : BufTy).Contents (Elt F) → (⟨S2x4x4096x128, .f32⟩ : BufTy).Contents (Elt F) → (⟨S2x4x4096x128, .f32⟩ : BufTy).Contents (Elt F)),
    TRef.nullary main_call3.cst (constant S_ .f32 0x00000000#32),
    TRef.unary main_call3.cst main_call3.v0 (broadcastInDim S2x4x4096x128 ![] bcast_S_S2x4x4096x128),
    TRef.binary (.of main_v44 : TRef sig ⟨S2x4x4096x128, .f32⟩) main_call3.v0 main_call3.v1 maximumf,
    binary main_v45 main_arg9 main_v46 ((fun l r => Host.dotGeneral dot_S2x4x4096x128_S2x128x1_S2x4x4096x1_3_1_12_2_0_0 none l r) : (⟨S2x4x4096x128, .f32⟩ : BufTy).Contents (Elt F) → (⟨S2x128x1, .f32⟩ : BufTy).Contents (Elt F) → (⟨S2x4x4096x1, .f32⟩ : BufTy).Contents (Elt F)),
    unary main_arg10 main_v47 (broadcastInDim S2x1x1x1 ![0, 3] bcast_S2x1_S2x1x1x1_0_3 : (⟨S2x1, .f32⟩ : BufTy).Contents (Elt F) → (⟨S2x1x1x1, .f32⟩ : BufTy).Contents (Elt F)),
    unary main_v47 main_v48 (broadcastInDim S2x4x4096x1 ![0, 1, 2, 3] bcast_S2x1x1x1_S2x4x4096x1_0_1_2_3 : (⟨S2x1x1x1, .f32⟩ : BufTy).Contents (Elt F) → (⟨S2x4x4096x1, .f32⟩ : BufTy).Contents (Elt F)),
    binary main_v46 main_v48 main_v49 (addf : (⟨S2x4x4096x1, .f32⟩ : BufTy).Contents (Elt F) → (⟨S2x4x4096x1, .f32⟩ : BufTy).Contents (Elt F) → (⟨S2x4x4096x1, .f32⟩ : BufTy).Contents (Elt F)),
    reshape main_v49 main_v50 rfl shapeCasts_S2x4x4096x1_S2x4x4096,
    unary main_v50 main_v51 ((transpose S4x4096x2 [1, 2, 0] · transposes_S2x4x4096_S4x4096x2_1_2_0) : (⟨S2x4x4096, .f32⟩ : BufTy).Contents (Elt F) → (⟨S4x4096x2, .f32⟩ : BufTy).Contents (Elt F)) ]

set_option maxRecDepth 8192 in
set_option maxHeartbeats 4000000 in
/-- @main is that straight line: the called functions unfold at their calls, and sequencing reassociates. -/
theorem main_eq (c : Dev nD) : main (F := F) c = seq ops := by
  simp only [main, main_part0, main_part1, fn_var.body, fn_where.body, fn_relu.body, fn_var_0.body, fn_where_1.body,
    fn_relu_2.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
theorem ops_sub : (ops : List (HloOp τ sig (Elt F))).Forall fun op => op.bufs ⊆ tcRefs τ sig :=
  ⟨
    binary_bufs_sub .., unary_bufs_sub .., unary_bufs_sub .., binary_bufs_sub .., nullary_bufs_sub .., binary_bufs_sub ..,
    unary_bufs_sub .., nullary_bufs_sub .., unary_bufs_sub .., binary_bufs_sub .., nullary_bufs_sub .., nullary_bufs_sub ..,
    binary_bufs_sub .., unary_bufs_sub .., nullary_bufs_sub .., unary_bufs_sub .., binary_bufs_sub .., unary_bufs_sub ..,
    binary_bufs_sub .., binary_bufs_sub .., unary_bufs_sub .., nullary_bufs_sub .., binary_bufs_sub .., nullary_bufs_sub ..,
    binary_bufs_sub .., unary_bufs_sub .., unary_bufs_sub .., binary_bufs_sub .., nullary_bufs_sub .., binary_bufs_sub ..,
    nullary_bufs_sub .., unary_bufs_sub .., unary_bufs_sub .., unary_bufs_sub .., ternary_bufs_sub .., unary_bufs_sub ..,
    binary_bufs_sub .., unary_bufs_sub .., unary_bufs_sub .., binary_bufs_sub .., nullary_bufs_sub .., unary_bufs_sub ..,
    binary_bufs_sub .., unary_bufs_sub .., unary_bufs_sub .., binary_bufs_sub .., unary_bufs_sub .., unary_bufs_sub ..,
    binary_bufs_sub .., nullary_bufs_sub .., unary_bufs_sub .., binary_bufs_sub .., binary_bufs_sub .., unary_bufs_sub ..,
    unary_bufs_sub .., binary_bufs_sub .., nullary_bufs_sub .., binary_bufs_sub .., unary_bufs_sub .., nullary_bufs_sub ..,
    unary_bufs_sub .., binary_bufs_sub .., nullary_bufs_sub .., nullary_bufs_sub .., binary_bufs_sub .., unary_bufs_sub ..,
    nullary_bufs_sub .., unary_bufs_sub .., binary_bufs_sub .., unary_bufs_sub .., binary_bufs_sub .., binary_bufs_sub ..,
    unary_bufs_sub .., nullary_bufs_sub .., binary_bufs_sub .., nullary_bufs_sub .., binary_bufs_sub .., unary_bufs_sub ..,
    unary_bufs_sub .., binary_bufs_sub .., nullary_bufs_sub .., binary_bufs_sub .., nullary_bufs_sub .., unary_bufs_sub ..,
    unary_bufs_sub .., unary_bufs_sub .., ternary_bufs_sub .., unary_bufs_sub .., binary_bufs_sub .., unary_bufs_sub ..,
    unary_bufs_sub .., binary_bufs_sub .., nullary_bufs_sub .., unary_bufs_sub .., binary_bufs_sub .., unary_bufs_sub ..,
    unary_bufs_sub .., binary_bufs_sub .., unary_bufs_sub .., unary_bufs_sub .., binary_bufs_sub .., nullary_bufs_sub ..,
    unary_bufs_sub .., binary_bufs_sub .., binary_bufs_sub .., unary_bufs_sub .., unary_bufs_sub .., binary_bufs_sub ..,
    reshape_bufs_sub .., unary_bufs_sub ..⟩

/-- Every weakly fair execution of @main terminates with each buffer at the operations' fold over the launch contents. -/
theorem run_after (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

set_option maxRecDepth 8192 in
set_option maxHeartbeats 44000000 in
/-- The fold read at the result buffer is the composed function of the argument arrays. -/
theorem out_eq (V : Valuation τ sig (Elt F)) :
    after ops V (main_v51 : DevRef τ sig)
      = RefValue.out (V (main_arg0 : DevRef τ sig)) (V (main_arg1 : DevRef τ sig)) (V (main_arg2 : DevRef τ sig))
          (V (main_arg3 : DevRef τ sig)) (V (main_arg4 : DevRef τ sig)) (V (main_arg5 : DevRef τ sig))
          (V (main_arg6 : DevRef τ sig)) (V (main_arg7 : DevRef τ sig)) (V (main_arg8 : DevRef τ sig))
          (V (main_arg9 : DevRef τ sig)) (V (main_arg10 : DevRef τ sig)) := by
  after_results_simp <;> rfl

set_option maxRecDepth 8192 in
set_option maxHeartbeats 44000000 in
theorem keep_main_arg0 (V : Valuation τ sig (Elt F)) : after ops V (main_arg0 : DevRef τ sig) = V (main_arg0 : DevRef τ sig) := by
  after_results_simp

set_option maxRecDepth 8192 in
set_option maxHeartbeats 44000000 in
theorem keep_main_arg1 (V : Valuation τ sig (Elt F)) : after ops V (main_arg1 : DevRef τ sig) = V (main_arg1 : DevRef τ sig) := by
  after_results_simp

set_option maxRecDepth 8192 in
set_option maxHeartbeats 44000000 in
theorem keep_main_arg2 (V : Valuation τ sig (Elt F)) : after ops V (main_arg2 : DevRef τ sig) = V (main_arg2 : DevRef τ sig) := by
  after_results_simp

set_option maxRecDepth 8192 in
set_option maxHeartbeats 44000000 in
theorem keep_main_arg3 (V : Valuation τ sig (Elt F)) : after ops V (main_arg3 : DevRef τ sig) = V (main_arg3 : DevRef τ sig) := by
  after_results_simp

set_option maxRecDepth 8192 in
set_option maxHeartbeats 44000000 in
theorem keep_main_arg4 (V : Valuation τ sig (Elt F)) : after ops V (main_arg4 : DevRef τ sig) = V (main_arg4 : DevRef τ sig) := by
  after_results_simp

set_option maxRecDepth 8192 in
set_option maxHeartbeats 44000000 in
theorem keep_main_arg5 (V : Valuation τ sig (Elt F)) : after ops V (main_arg5 : DevRef τ sig) = V (main_arg5 : DevRef τ sig) := by
  after_results_simp

set_option maxRecDepth 8192 in
set_option maxHeartbeats 44000000 in
theorem keep_main_arg6 (V : Valuation τ sig (Elt F)) : after ops V (main_arg6 : DevRef τ sig) = V (main_arg6 : DevRef τ sig) := by
  after_results_simp

set_option maxRecDepth 8192 in
set_option maxHeartbeats 44000000 in
theorem keep_main_arg7 (V : Valuation τ sig (Elt F)) : after ops V (main_arg7 : DevRef τ sig) = V (main_arg7 : DevRef τ sig) := by
  after_results_simp

set_option maxRecDepth 8192 in
set_option maxHeartbeats 44000000 in
theorem keep_main_arg8 (V : Valuation τ sig (Elt F)) : after ops V (main_arg8 : DevRef τ sig) = V (main_arg8 : DevRef τ sig) := by
  after_results_simp

set_option maxRecDepth 8192 in
set_option maxHeartbeats 44000000 in
theorem keep_main_arg9 (V : Valuation τ sig (Elt F)) : after ops V (main_arg9 : DevRef τ sig) = V (main_arg9 : DevRef τ sig) := by
  after_results_simp

set_option maxRecDepth 8192 in
set_option maxHeartbeats 44000000 in
theorem keep_main_arg10 (V : Valuation τ sig (Elt F)) : after ops V (main_arg10 : DevRef τ sig) = V (main_arg10 : DevRef τ sig) := by
  after_results_simp

/-- The run with the result named: the result buffer ends at `RefValue.out` of the argument arrays, the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v51)
          = RefValue.out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun _ h c => ⟨(h c main_v51).trans (out_eq _),
      (h c main_arg0).trans (keep_main_arg0 _),
      (h c main_arg1).trans (keep_main_arg1 _),
      (h c main_arg2).trans (keep_main_arg2 _),
      (h c main_arg3).trans (keep_main_arg3 _),
      (h c main_arg4).trans (keep_main_arg4 _),
      (h c main_arg5).trans (keep_main_arg5 _),
      (h c main_arg6).trans (keep_main_arg6 _),
      (h c main_arg7).trans (keep_main_arg7 _),
      (h c main_arg8).trans (keep_main_arg8 _),
      (h c main_arg9).trans (keep_main_arg9 _),
      (h c main_arg10).trans (keep_main_arg10 _)⟩)
    (run_after m ρ)

end Cert.ReferenceIdeal.RefRun

end
-- ==== Proof.RefConsts.lean ====
/-
  The three float words the reference's batch statistics meet, as extended reals: the word of 4.0 is the real 4, the
  word of 0.25 is the real 1/4, and the zero word is 0.  Hence dividing by four is multiplying by the quarter on every
  extended real (infinities included: both sides are the product with the real 1/4), the variance's count — four
  less the integer zero converted to a float — is four, and that count is greater than zero.
-/
import Idealize.ShloMosaic.PureOps.Ideal
import Idealize.ShloMosaic.PureOps.Ideal.Laws
import proofs.«142921_j49486613185071_2_alg».proof.Proof.Spec

noncomputable section

namespace Cert.ReferenceIdeal.RefConsts

open Idealize.ShloMosaic

/-- The word of 4.0 denotes the real 4. -/
theorem four : Ideal.ofBits .f32 0x40800000#32 = ((4 : ℝ) : EReal) := by
  simp [Ideal.ofBits, Ideal.ieee, -EReal.coe_mul]; norm_num

/-- The quarter (the word of 0.25) denotes the real 1/4. -/
theorem quarter : Cert.Head.quarter = ((1 / 4 : ℝ) : EReal) := by
  unfold Cert.Head.quarter
  simp [Ideal.ofBits, Ideal.ieee, -EReal.coe_mul]; norm_num

/-- Dividing by four is multiplying by the quarter, on every extended real. -/
theorem div_four (x : EReal) : Ideal.div x ((4 : ℝ) : EReal) = x * Cert.Head.quarter := by
  rw [quarter]; exact Ideal.div_coe (by norm_num) x

/-- The same with the divisor spelt as the word of 4.0. -/
theorem div_four_word (x : EReal) : Ideal.div x (Ideal.ofBits .f32 0x40800000#32) = x * Cert.Head.quarter := by
  rw [four]; exact div_four x

/-- Four less the integer zero, converted exactly, is four. -/
theorem count : (Ideal.ofBits .f32 0x40800000#32 : EReal) - (((0#32 : BitVec 32).toInt : ℝ) : EReal) = ((4 : ℝ) : EReal) := by
  rw [four]
  simp

/-- Four is greater than the zero word: the comparison's bit is set. -/
theorem count_pos : Ideal.cmp .ogt ((4 : ℝ) : EReal) (Ideal.ofBits .f32 0x00000000#32) = 1#1 := by
  rw [Ideal.ofBits_zero_f32]
  have h : (0 : EReal) < ((4 : ℝ) : EReal) := by exact_mod_cast (by norm_num : (0 : ℝ) < 4)
  simp [Ideal.cmp, h]

end Cert.ReferenceIdeal.RefConsts

end
-- ==== Proof.RefValueStat.lean ====
/-
  Scalar facts the batch statistics rest on, stated once for both layers.  The variance's count is the real four at
  its one index and is greater than zero, so the select on "count > 0" always takes the quotient; a host quotient read
  at an index is the quotient of the elements; a sum over the four batch entries divided by four is the mean, and the
  sum of squared deviations divided by four is the variance (division by four being multiplication by the quarter).
-/
import proofs.«142921_j49486613185071_2_alg».proof.Proof.RefValueStages
import proofs.«142921_j49486613185071_2_alg».proof.Proof.RefConsts
import Idealize.ShloMosaic.Lib.ValueIdx

noncomputable section

open scoped BigOperators

namespace Cert.ReferenceIdeal.RefValue

open Cert.ReferenceIdeal Cert.ReferenceIdeal.Gen Idealize.ShloMosaic Idealize.ShloMosaic.ValueIdx

/-- The count is four. -/
theorem cnt_eq (j : S_.Idx) : cnt (F := Ideal) j = ((4 : ℝ) : EReal) := RefConsts.count

/-- The count is greater than zero: the comparison's bit is set. -/
theorem cnt_gt (j : S_.Idx) : cmpf .ogt (cnt (F := Ideal)) (constant (F := Ideal) S_ .f32 0x00000000#32) j = 1#1 := by
  show Ideal.cmp .ogt (cnt (F := Ideal) j) (Ideal.ofBits .f32 0x00000000#32) = 1#1
  rw [cnt_eq]
  exact RefConsts.count_pos

/-- A host quotient at an index is the quotient of the elements. -/
theorem hdivf_apply {s : Shape} {φ : FTy} (a b : FVec Ideal s φ) (i : s.Idx) : Host.divf a b i = Ideal.div (a i) (b i) := rfl

/-- A host reciprocal square root at an index is that of the element. -/
theorem hrsqrt_apply {s : Shape} {φ : FTy} (a : FVec Ideal s φ) (i : s.Idx) : Host.rsqrt a i = Ideal.rsqrt (a i) := rfl

/-- The sum over the batch divided by the word of four is the mean. -/
theorem mean_eq (y : Fin 4 → EReal) :
    Ideal.div (∑ b : Fin 4, y b) (Ideal.ofBits .f32 0x40800000#32) = Cert.Head.mean y := RefConsts.div_four_word _

/-- The sum of squared deviations divided by four is the variance. -/
theorem var_eq (y : Fin 4 → EReal) :
    Ideal.div (∑ b : Fin 4, (y b - Cert.Head.mean y) * (y b - Cert.Head.mean y)) ((4 : ℝ) : EReal) = Cert.Head.var y :=
  RefConsts.div_four _

end Cert.ReferenceIdeal.RefValue

end
-- ==== Proof.RefValueL1.lean ====
/-
  The first layer of the reference read index by index.  The product contracts the 4096 input features of a row with
  the model's weights; the batch mean and variance at (model, position, feature) are those of the four batch entries
  there; normalisation, scale, shift and the rectifier act entry by entry.  Together: the layer's output at
  (model, batch entry, position, feature) is the specification's first layer applied to that position's four rows.
-/
import proofs.«142921_j49486613185071_2_alg».proof.Proof.RefValueStat
import Idealize.ShloMosaic.Lib.Pipeline.Value
import Idealize.ShloMosaic.Lib.StableHlo.Run
import Idealize.ShloMosaic.PureOps.Ideal.Laws

noncomputable section

open scoped BigOperators

namespace Cert.ReferenceIdeal.RefValue

open Cert.ReferenceIdeal Cert.ReferenceIdeal.Gen Idealize.ShloMosaic Idealize.ShloMosaic.ValueIdx

/-- The contraction record of layer 1's product. -/
abbrev D1 : DotDims S2x4x4096x4096 S2x4096x256 S2x4x4096x256 := dot_S2x4x4096x4096_S2x4096x256_S2x4x4096x256_3_1_12_2_0_0

theorem lhs1_0 (i : S2x4x4096x256.Idx) (q : D1.contr.Idx) : (D1.lhsIdx i q 0).val = (i 0).val := by
  unfold DotDims.lhsIdx
  rw [dif_pos (show (0 : Fin S2x4x4096x4096.rank) ∈ D1.lhsBatch by decide)]
  rfl
theorem lhs1_1 (i : S2x4x4096x256.Idx) (q : D1.contr.Idx) : (D1.lhsIdx i q 1).val = (i 1).val := by
  unfold DotDims.lhsIdx
  rw [dif_neg (show ¬(1 : Fin S2x4x4096x4096.rank) ∈ D1.lhsBatch by decide), dif_pos (show (1 : Fin S2x4x4096x4096.rank) ∈ D1.lhsNonContracting by decide)]
  rfl
theorem lhs1_2 (i : S2x4x4096x256.Idx) (q : D1.contr.Idx) : (D1.lhsIdx i q 2).val = (i 2).val := by
  unfold DotDims.lhsIdx
  rw [dif_neg (show ¬(2 : Fin S2x4x4096x4096.rank) ∈ D1.lhsBatch by decide), dif_pos (show (2 : Fin S2x4x4096x4096.rank) ∈ D1.lhsNonContracting by decide)]
  rfl
theorem lhs1_3 (i : S2x4x4096x256.Idx) (q : D1.contr.Idx) : (D1.lhsIdx i q 3).val = (q ⟨0, by decide⟩).val :=
  D1.lhsIdx_val_of_single rfl i q
theorem rhs1_0 (i : S2x4x4096x256.Idx) (q : D1.contr.Idx) : (D1.rhsIdx i q 0).val = (i 0).val := by
  unfold DotDims.rhsIdx
  rw [dif_pos (show (0 : Fin S2x4096x256.rank) ∈ D1.rhsBatch by decide)]
  rfl
theorem rhs1_1 (i : S2x4x4096x256.Idx) (q : D1.contr.Idx) : (D1.rhsIdx i q 1).val = (q ⟨0, by decide⟩).val :=
  D1.rhsIdx_val_of_single rfl i q
theorem rhs1_2 (i : S2x4x4096x256.Idx) (q : D1.contr.Idx) : (D1.rhsIdx i q 2).val = (i 3).val := by
  unfold DotDims.rhsIdx
  rw [dif_neg (show ¬(2 : Fin S2x4096x256.rank) ∈ D1.rhsBatch by decide), dif_pos (show (2 : Fin S2x4096x256.rank) ∈ D1.rhsNonContracting by decide)]
  rfl

/-- The product read at an index: the sum over the 4096 contracted features of row entry times weight. -/
theorem dot1_apply (x : FVec Ideal S2x4x4096x4096 .f32) (w : FVec Ideal S2x4096x256 .f32) (m : Fin 2) (b : Fin 4) (s : Fin 4096) (f : Fin 256) :
    Host.dotGeneral D1 none x w (ix4 m b s f) = ∑ h : Fin 4096, x (ix4 m b s h) * w (ix3 m h f) := by
  simp only [Host.dotGeneral]
  rw [Ideal.dotGeneral_apply, ← Equiv.sum_comp (ValueIdx.contrEquiv1 D1 4096 rfl rfl).symm]
  refine Finset.sum_congr rfl fun k _ => ?_
  have hk := ValueIdx.contrEquiv1_symm_val D1 4096 rfl rfl k
  have el : D1.lhsIdx (ix4 m b s f) ((ValueIdx.contrEquiv1 D1 4096 rfl rfl).symm k) = ix4 m b s k := funext fun a => Fin.ext (by
    match a with
    | ⟨0, _⟩ => exact lhs1_0 _ _
    | ⟨1, _⟩ => exact lhs1_1 _ _
    | ⟨2, _⟩ => exact lhs1_2 _ _
    | ⟨3, _⟩ => exact (lhs1_3 _ _).trans hk)
  have er : D1.rhsIdx (ix4 m b s f) ((ValueIdx.contrEquiv1 D1 4096 rfl rfl).symm k) = ix3 m k f := funext fun a => Fin.ext (by
    match a with
    | ⟨0, _⟩ => exact rhs1_0 _ _
    | ⟨1, _⟩ => exact (rhs1_1 _ _).trans hk
    | ⟨2, _⟩ => exact rhs1_2 _ _)
  rw [el, er]

/-- A per-feature parameter spread over batch entries and positions reads the parameter of its model and feature. -/
theorem bias1_apply (p : FVec Ideal S2x256 .f32) (m : Fin 2) (b : Fin 4) (s : Fin 4096) (f : Fin 256) :
    broadcastInDim S2x4x4096x256 ![0, 1, 2, 3] bcast_S2x1x1x256_S2x4x4096x256_0_1_2_3 (broadcastInDim S2x1x1x256 ![0, 3] bcast_S2x256_S2x1x1x256_0_3 p) (ix4 m b s f)
      = p (ix2 m f) := by
  refine (broadcastInDim_apply _ _ _ (ix4 m b s f) (ix4 m (0 : Fin 1) (0 : Fin 1) f) ?_).trans ?_
  · intro a; match a with | ⟨0, _⟩ => rfl | ⟨1, _⟩ => rfl | ⟨2, _⟩ => rfl | ⟨3, _⟩ => rfl
  · refine broadcastInDim_apply _ _ _ _ (ix2 m f) ?_
    intro a; match a with | ⟨0, _⟩ => rfl | ⟨1, _⟩ => rfl

/-- The linear layer read at an index. -/
theorem lin1_apply (x : FVec Ideal S2x4x4096x4096 .f32) (w : FVec Ideal S2x4096x256 .f32) (p : FVec Ideal S2x256 .f32)
    (m : Fin 2) (b : Fin 4) (s : Fin 4096) (f : Fin 256) :
    lin1 x w p (ix4 m b s f) = (∑ h : Fin 4096, x (ix4 m b s h) * w (ix3 m h f)) + p (ix2 m f) := by
  unfold lin1
  refine (addf_apply _ _ _).trans ?_
  rw [dot1_apply, bias1_apply]

/-- A parameter spread over the layer's activations, read at an index. -/
theorem par1_apply (p : FVec Ideal S2x256 .f32) (m : Fin 2) (b : Fin 4) (s : Fin 4096) (f : Fin 256) :
    par1 p (ix4 m b s f) = p (ix2 m f) := bias1_apply p m b s f

/-- The sum over the batch axis read at an index: the zero initial value plus the four entries. -/
theorem sum1_apply (y : FVec Ideal S2x4x4096x256 .f32) (m : Fin 2) (s : Fin 4096) (f : Fin 256) :
    Host.reduceAdd y (constant (F := Ideal) S_ .f32 0x00000000#32) reducesTo_S2x4x4096x256_S2x4096x256_d1 h_S_ (ix3 m s f)
      = ∑ b : Fin 4, y (ix4 m b s f) := by
  simp only [Host.reduceAdd, Ideal.hostReduceAdd_def]
  rw [Ideal.hostReduceAdd_single reducesTo_S2x4x4096x256_S2x4096x256_d1 (by decide)]
  show Ideal.ofBits .f32 0x00000000#32 + _ = _
  rw [Ideal.ofBits_zero_f32, zero_add]
  refine Finset.sum_congr rfl fun k _ => ?_
  exact congrArg y (funext fun a => Fin.ext (by match a with | ⟨0, _⟩ => rfl | ⟨1, _⟩ => rfl | ⟨2, _⟩ => rfl | ⟨3, _⟩ => rfl))

/-- The batch mean read at an index. -/
theorem mean1_apply (y : FVec Ideal S2x4x4096x256 .f32) (m : Fin 2) (s : Fin 4096) (f : Fin 256) :
    mean1 y (ix4 m (0 : Fin 1) s f) = Cert.Head.mean (fun b => y (ix4 m b s f)) := by
  unfold mean1
  refine (hdivf_apply _ _ _).trans ?_
  rw [broadcastInDim_apply _ _ _ (ix4 m (0 : Fin 1) s f) (ix3 m s f) (by intro a; match a with | ⟨0, _⟩ => rfl | ⟨1, _⟩ => rfl | ⟨2, _⟩ => rfl), sum1_apply]
  exact mean_eq (fun b => y (ix4 m b s f))

/-- The deviation from the batch mean read at an index. -/
theorem dev1_apply (y : FVec Ideal S2x4x4096x256 .f32) (m : Fin 2) (b : Fin 4) (s : Fin 4096) (f : Fin 256) :
    dev1 y (ix4 m b s f) = y (ix4 m b s f) - Cert.Head.mean (fun b' => y (ix4 m b' s f)) := by
  unfold dev1
  refine (subf_apply _ _ _).trans ?_
  rw [broadcastInDim_apply _ _ _ (ix4 m b s f) (ix4 m (0 : Fin 1) s f) (by intro a; match a with | ⟨0, _⟩ => rfl | ⟨1, _⟩ => rfl | ⟨2, _⟩ => rfl | ⟨3, _⟩ => rfl), mean1_apply]

/-- The batch variance read at an index: the count is positive, so the select takes the quotient, and dividing by the
    count (four) is multiplying by the quarter. -/
theorem var1_apply (y : FVec Ideal S2x4x4096x256 .f32) (m : Fin 2) (s : Fin 4096) (f : Fin 256) :
    var1 y (ix4 m (0 : Fin 1) s f) = Cert.Head.var (fun b => y (ix4 m b s f)) := by
  unfold var1
  refine (select_apply _ _ _ _).trans ?_
  have hc : broadcastInDim S2x1x4096x256 ![] bcast_S_S2x1x4096x256 (cmpf .ogt (cnt (F := Ideal)) (constant (F := Ideal) S_ .f32 0x00000000#32))
      (ix4 m (0 : Fin 1) s f) = 1#1 := cnt_gt _
  rw [hc, select_one]
  refine (hdivf_apply _ _ _).trans ?_
  rw [broadcastInDim_apply _ _ _ (ix4 m (0 : Fin 1) s f) (ix3 m s f) (by intro a; match a with | ⟨0, _⟩ => rfl | ⟨1, _⟩ => rfl | ⟨2, _⟩ => rfl), sum1_apply]
  have hd : broadcastInDim S2x1x4096x256 ![] bcast_S_S2x1x4096x256 (cnt (F := Ideal)) (ix4 m (0 : Fin 1) s f) = ((4 : ℝ) : EReal) := cnt_eq _
  rw [hd]
  simp only [mulf_apply, dev1_apply]
  exact var_eq (fun b => y (ix4 m b s f))

/-- Batch normalisation read at an index. -/
theorem bn1_apply (y : FVec Ideal S2x4x4096x256 .f32) (g be : FVec Ideal S2x256 .f32) (m : Fin 2) (b : Fin 4) (s : Fin 4096) (f : Fin 256) :
    bn1 y g be (ix4 m b s f) = Cert.Head.bn (fun b' => y (ix4 m b' s f)) (g (ix2 m f)) (be (ix2 m f)) b := by
  have e : bn1 y g be (ix4 m b s f)
      = par1 g (ix4 m b s f) * dev1 y (ix4 m b s f)
          * Ideal.rsqrt (var1 y (ix4 m (0 : Fin 1) s f) + Ideal.ofBits .f32 0x3727C5AC#32)
        + par1 be (ix4 m b s f) := by
    unfold bn1
    refine (addf_apply _ _ _).trans (congrArg (· + _) ?_)
    refine (mulf_apply _ _ _).trans (congrArg₂ (· * ·) (mulf_apply _ _ _) ?_)
    refine (broadcastInDim_apply _ _ _ (ix4 m b s f) (ix4 m (0 : Fin 1) s f) (by intro a; match a with | ⟨0, _⟩ => rfl | ⟨1, _⟩ => rfl | ⟨2, _⟩ => rfl | ⟨3, _⟩ => rfl)).trans ?_
    rfl
  rw [e, par1_apply, par1_apply, dev1_apply, var1_apply]
  rfl

/-- The rectifier read at an index. -/
theorem relu1_apply (x : FVec Ideal S2x4x4096x256 .f32) (j : S2x4x4096x256.Idx) : relu1 x j = max (x j) Cert.Head.zero := rfl

/-- The first layer's output read at an index: the specification's first layer on position s's four rows under model m's
    parameters. -/
theorem x1_apply (a0 : FVec Ideal S2x4x4096x4096 .f32) (a1 : FVec Ideal S2x4096x256 .f32) (a2 a3 a4 : FVec Ideal S2x256 .f32)
    (m : Fin 2) (b : Fin 4) (s : Fin 4096) (f : Fin 256) :
    x1 a0 a1 a2 a3 a4 (ix4 m b s f)
      = Cert.Head.x1 (fun b h => a0 (ix4 m b s h)) (fun h f => a1 (ix3 m h f)) (fun f => a2 (ix2 m f))
          (fun f => a3 (ix2 m f)) (fun f => a4 (ix2 m f)) b f := by
  unfold x1
  rw [relu1_apply, bn1_apply]
  simp only [lin1_apply]
  rfl

end Cert.ReferenceIdeal.RefValue

end
-- ==== Proof.RefValueL2.lean ====
/-
  The second layer of the reference read index by index, as the first: the product now contracts the 256 features of
  the first layer's output, and the statistics are over the same four batch entries.  The layer's output at
  (model, batch entry, position, feature) is the specification's second layer applied to that position's four rows.
-/
import proofs.«142921_j49486613185071_2_alg».proof.Proof.RefValueL1
import proofs.«142921_j49486613185071_2_alg».proof.Proof.RefValueStat
import Idealize.ShloMosaic.Lib.Pipeline.Value
import Idealize.ShloMosaic.Lib.StableHlo.Run
import Idealize.ShloMosaic.PureOps.Ideal.Laws

noncomputable section

open scoped BigOperators

namespace Cert.ReferenceIdeal.RefValue

open Cert.ReferenceIdeal Cert.ReferenceIdeal.Gen Idealize.ShloMosaic Idealize.ShloMosaic.ValueIdx

/-- The contraction record of layer 2's product. -/
abbrev D2 : DotDims S2x4x4096x256 S2x256x128 S2x4x4096x128 := dot_S2x4x4096x256_S2x256x128_S2x4x4096x128_3_1_12_2_0_0

theorem lhs2_0 (i : S2x4x4096x128.Idx) (q : D2.contr.Idx) : (D2.lhsIdx i q 0).val = (i 0).val := by
  unfold DotDims.lhsIdx
  rw [dif_pos (show (0 : Fin S2x4x4096x256.rank) ∈ D2.lhsBatch by decide)]
  rfl
theorem lhs2_1 (i : S2x4x4096x128.Idx) (q : D2.contr.Idx) : (D2.lhsIdx i q 1).val = (i 1).val := by
  unfold DotDims.lhsIdx
  rw [dif_neg (show ¬(1 : Fin S2x4x4096x256.rank) ∈ D2.lhsBatch by decide), dif_pos (show (1 : Fin S2x4x4096x256.rank) ∈ D2.lhsNonContracting by decide)]
  rfl
theorem lhs2_2 (i : S2x4x4096x128.Idx) (q : D2.contr.Idx) : (D2.lhsIdx i q 2).val = (i 2).val := by
  unfold DotDims.lhsIdx
  rw [dif_neg (show ¬(2 : Fin S2x4x4096x256.rank) ∈ D2.lhsBatch by decide), dif_pos (show (2 : Fin S2x4x4096x256.rank) ∈ D2.lhsNonContracting by decide)]
  rfl
theorem lhs2_3 (i : S2x4x4096x128.Idx) (q : D2.contr.Idx) : (D2.lhsIdx i q 3).val = (q ⟨0, by decide⟩).val :=
  D2.lhsIdx_val_of_single rfl i q
theorem rhs2_0 (i : S2x4x4096x128.Idx) (q : D2.contr.Idx) : (D2.rhsIdx i q 0).val = (i 0).val := by
  unfold DotDims.rhsIdx
  rw [dif_pos (show (0 : Fin S2x256x128.rank) ∈ D2.rhsBatch by decide)]
  rfl
theorem rhs2_1 (i : S2x4x4096x128.Idx) (q : D2.contr.Idx) : (D2.rhsIdx i q 1).val = (q ⟨0, by decide⟩).val :=
  D2.rhsIdx_val_of_single rfl i q
theorem rhs2_2 (i : S2x4x4096x128.Idx) (q : D2.contr.Idx) : (D2.rhsIdx i q 2).val = (i 3).val := by
  unfold DotDims.rhsIdx
  rw [dif_neg (show ¬(2 : Fin S2x256x128.rank) ∈ D2.rhsBatch by decide), dif_pos (show (2 : Fin S2x256x128.rank) ∈ D2.rhsNonContracting by decide)]
  rfl

/-- The product read at an index: the sum over the 256 contracted features of row entry times weight. -/
theorem dot2_apply (x : FVec Ideal S2x4x4096x256 .f32) (w : FVec Ideal S2x256x128 .f32) (m : Fin 2) (b : Fin 4) (s : Fin 4096) (f : Fin 128) :
    Host.dotGeneral D2 none x w (ix4 m b s f) = ∑ h : Fin 256, x (ix4 m b s h) * w (ix3 m h f) := by
  simp only [Host.dotGeneral]
  rw [Ideal.dotGeneral_apply, ← Equiv.sum_comp (ValueIdx.contrEquiv1 D2 256 rfl rfl).symm]
  refine Finset.sum_congr rfl fun k _ => ?_
  have hk := ValueIdx.contrEquiv1_symm_val D2 256 rfl rfl k
  have el : D2.lhsIdx (ix4 m b s f) ((ValueIdx.contrEquiv1 D2 256 rfl rfl).symm k) = ix4 m b s k := funext fun a => Fin.ext (by
    match a with
    | ⟨0, _⟩ => exact lhs2_0 _ _
    | ⟨1, _⟩ => exact lhs2_1 _ _
    | ⟨2, _⟩ => exact lhs2_2 _ _
    | ⟨3, _⟩ => exact (lhs2_3 _ _).trans hk)
  have er : D2.rhsIdx (ix4 m b s f) ((ValueIdx.contrEquiv1 D2 256 rfl rfl).symm k) = ix3 m k f := funext fun a => Fin.ext (by
    match a with
    | ⟨0, _⟩ => exact rhs2_0 _ _
    | ⟨1, _⟩ => exact (rhs2_1 _ _).trans hk
    | ⟨2, _⟩ => exact rhs2_2 _ _)
  rw [el, er]

/-- A per-feature parameter spread over batch entries and positions reads the parameter of its model and feature. -/
theorem bias2_apply (p : FVec Ideal S2x128 .f32) (m : Fin 2) (b : Fin 4) (s : Fin 4096) (f : Fin 128) :
    broadcastInDim S2x4x4096x128 ![0, 1, 2, 3] bcast_S2x1x1x128_S2x4x4096x128_0_1_2_3 (broadcastInDim S2x1x1x128 ![0, 3] bcast_S2x128_S2x1x1x128_0_3 p) (ix4 m b s f)
      = p (ix2 m f) := by
  refine (broadcastInDim_apply _ _ _ (ix4 m b s f) (ix4 m (0 : Fin 1) (0 : Fin 1) f) ?_).trans ?_
  · intro a; match a with | ⟨0, _⟩ => rfl | ⟨1, _⟩ => rfl | ⟨2, _⟩ => rfl | ⟨3, _⟩ => rfl
  · refine broadcastInDim_apply _ _ _ _ (ix2 m f) ?_
    intro a; match a with | ⟨0, _⟩ => rfl | ⟨1, _⟩ => rfl

/-- The linear layer read at an index. -/
theorem lin2_apply (x : FVec Ideal S2x4x4096x256 .f32) (w : FVec Ideal S2x256x128 .f32) (p : FVec Ideal S2x128 .f32)
    (m : Fin 2) (b : Fin 4) (s : Fin 4096) (f : Fin 128) :
    lin2 x w p (ix4 m b s f) = (∑ h : Fin 256, x (ix4 m b s h) * w (ix3 m h f)) + p (ix2 m f) := by
  unfold lin2
  refine (addf_apply _ _ _).trans ?_
  rw [dot2_apply, bias2_apply]

/-- A parameter spread over the layer's activations, read at an index. -/
theorem par2_apply (p : FVec Ideal S2x128 .f32) (m : Fin 2) (b : Fin 4) (s : Fin 4096) (f : Fin 128) :
    par2 p (ix4 m b s f) = p (ix2 m f) := bias2_apply p m b s f

/-- The sum over the batch axis read at an index: the zero initial value plus the four entries. -/
theorem sum2_apply (y : FVec Ideal S2x4x4096x128 .f32) (m : Fin 2) (s : Fin 4096) (f : Fin 128) :
    Host.reduceAdd y (constant (F := Ideal) S_ .f32 0x00000000#32) reducesTo_S2x4x4096x128_S2x4096x128_d1 h_S_ (ix3 m s f)
      = ∑ b : Fin 4, y (ix4 m b s f) := by
  simp only [Host.reduceAdd, Ideal.hostReduceAdd_def]
  rw [Ideal.hostReduceAdd_single reducesTo_S2x4x4096x128_S2x4096x128_d1 (by decide)]
  show Ideal.ofBits .f32 0x00000000#32 + _ = _
  rw [Ideal.ofBits_zero_f32, zero_add]
  refine Finset.sum_congr rfl fun k _ => ?_
  exact congrArg y (funext fun a => Fin.ext (by match a with | ⟨0, _⟩ => rfl | ⟨1, _⟩ => rfl | ⟨2, _⟩ => rfl | ⟨3, _⟩ => rfl))

/-- The batch mean read at an index. -/
theorem mean2_apply (y : FVec Ideal S2x4x4096x128 .f32) (m : Fin 2) (s : Fin 4096) (f : Fin 128) :
    mean2 y (ix4 m (0 : Fin 1) s f) = Cert.Head.mean (fun b => y (ix4 m b s f)) := by
  unfold mean2
  refine (hdivf_apply _ _ _).trans ?_
  rw [broadcastInDim_apply _ _ _ (ix4 m (0 : Fin 1) s f) (ix3 m s f) (by intro a; match a with | ⟨0, _⟩ => rfl | ⟨1, _⟩ => rfl | ⟨2, _⟩ => rfl), sum2_apply]
  exact mean_eq (fun b => y (ix4 m b s f))

/-- The deviation from the batch mean read at an index. -/
theorem dev2_apply (y : FVec Ideal S2x4x4096x128 .f32) (m : Fin 2) (b : Fin 4) (s : Fin 4096) (f : Fin 128) :
    dev2 y (ix4 m b s f) = y (ix4 m b s f) - Cert.Head.mean (fun b' => y (ix4 m b' s f)) := by
  unfold dev2
  refine (subf_apply _ _ _).trans ?_
  rw [broadcastInDim_apply _ _ _ (ix4 m b s f) (ix4 m (0 : Fin 1) s f) (by intro a; match a with | ⟨0, _⟩ => rfl | ⟨1, _⟩ => rfl | ⟨2, _⟩ => rfl | ⟨3, _⟩ => rfl), mean2_apply]

/-- The batch variance read at an index: the count is positive, so the select takes the quotient, and dividing by the
    count (four) is multiplying by the quarter. -/
theorem var2_apply (y : FVec Ideal S2x4x4096x128 .f32) (m : Fin 2) (s : Fin 4096) (f : Fin 128) :
    var2 y (ix4 m (0 : Fin 1) s f) = Cert.Head.var (fun b => y (ix4 m b s f)) := by
  unfold var2
  refine (select_apply _ _ _ _).trans ?_
  have hc : broadcastInDim S2x1x4096x128 ![] bcast_S_S2x1x4096x128 (cmpf .ogt (cnt (F := Ideal)) (constant (F := Ideal) S_ .f32 0x00000000#32))
      (ix4 m (0 : Fin 1) s f) = 1#1 := cnt_gt _
  rw [hc, select_one]
  refine (hdivf_apply _ _ _).trans ?_
  rw [broadcastInDim_apply _ _ _ (ix4 m (0 : Fin 1) s f) (ix3 m s f) (by intro a; match a with | ⟨0, _⟩ => rfl | ⟨1, _⟩ => rfl | ⟨2, _⟩ => rfl), sum2_apply]
  have hd : broadcastInDim S2x1x4096x128 ![] bcast_S_S2x1x4096x128 (cnt (F := Ideal)) (ix4 m (0 : Fin 1) s f) = ((4 : ℝ) : EReal) := cnt_eq _
  rw [hd]
  simp only [mulf_apply, dev2_apply]
  exact var_eq (fun b => y (ix4 m b s f))

/-- Batch normalisation read at an index. -/
theorem bn2_apply (y : FVec Ideal S2x4x4096x128 .f32) (g be : FVec Ideal S2x128 .f32) (m : Fin 2) (b : Fin 4) (s : Fin 4096) (f : Fin 128) :
    bn2 y g be (ix4 m b s f) = Cert.Head.bn (fun b' => y (ix4 m b' s f)) (g (ix2 m f)) (be (ix2 m f)) b := by
  have e : bn2 y g be (ix4 m b s f)
      = par2 g (ix4 m b s f) * dev2 y (ix4 m b s f)
          * Ideal.rsqrt (var2 y (ix4 m (0 : Fin 1) s f) + Ideal.ofBits .f32 0x3727C5AC#32)
        + par2 be (ix4 m b s f) := by
    unfold bn2
    refine (addf_apply _ _ _).trans (congrArg (· + _) ?_)
    refine (mulf_apply _ _ _).trans (congrArg₂ (· * ·) (mulf_apply _ _ _) ?_)
    refine (broadcastInDim_apply _ _ _ (ix4 m b s f) (ix4 m (0 : Fin 1) s f) (by intro a; match a with | ⟨0, _⟩ => rfl | ⟨1, _⟩ => rfl | ⟨2, _⟩ => rfl | ⟨3, _⟩ => rfl)).trans ?_
    rfl
  rw [e, par2_apply, par2_apply, dev2_apply, var2_apply]
  rfl

/-- The rectifier read at an index. -/
theorem relu2_apply (x : FVec Ideal S2x4x4096x128 .f32) (j : S2x4x4096x128.Idx) : relu2 x j = max (x j) Cert.Head.zero := rfl

/-- The second layer's output read at an index: the specification's second layer on position s's four rows under
    model m's parameters. -/
theorem x2_apply (a0 : FVec Ideal S2x4x4096x4096 .f32) (a1 : FVec Ideal S2x4096x256 .f32) (a2 a3 a4 : FVec Ideal S2x256 .f32)
    (a5 : FVec Ideal S2x256x128 .f32) (a6 a7 a8 : FVec Ideal S2x128 .f32)
    (m : Fin 2) (b : Fin 4) (s : Fin 4096) (g : Fin 128) :
    x2 a0 a1 a2 a3 a4 a5 a6 a7 a8 (ix4 m b s g)
      = Cert.Head.x2 (fun b h => a0 (ix4 m b s h)) (fun h f => a1 (ix3 m h f)) (fun f => a2 (ix2 m f))
          (fun f => a3 (ix2 m f)) (fun f => a4 (ix2 m f)) (fun f g => a5 (ix3 m f g)) (fun g => a6 (ix2 m g))
          (fun g => a7 (ix2 m g)) (fun g => a8 (ix2 m g)) b g := by
  unfold x2
  rw [relu2_apply, bn2_apply]
  simp only [lin2_apply, x1_apply]
  rfl

end Cert.ReferenceIdeal.RefValue

end
-- ==== Proof.RefValueOut.lean ====
/-
  The last projection and the re-laying of the result, read index by index, and the conclusion: the reference's composed
  function of the eleven argument arrays is the specification's result array.  The projection contracts the 128
  features of the second layer's output with the model's weight column and adds the model's bias; the reshape drops its
  unit output axis, and the transpose moves the model axis last.
-/
import proofs.«142921_j49486613185071_2_alg».proof.Proof.RefValueL2
import proofs.«142921_j49486613185071_2_alg».proof.Proof.RefValueStat
import Idealize.ShloMosaic.Lib.Pipeline.Value
import Idealize.ShloMosaic.Lib.StableHlo.Run
import Idealize.ShloMosaic.PureOps.Ideal.Laws

noncomputable section

open scoped BigOperators

namespace Cert.ReferenceIdeal.RefValue

open Cert.ReferenceIdeal Cert.ReferenceIdeal.Gen Idealize.ShloMosaic Idealize.ShloMosaic.ValueIdx

/-- The contraction record of layer 3's product. -/
abbrev D3 : DotDims S2x4x4096x128 S2x128x1 S2x4x4096x1 := dot_S2x4x4096x128_S2x128x1_S2x4x4096x1_3_1_12_2_0_0

theorem lhs3_0 (i : S2x4x4096x1.Idx) (q : D3.contr.Idx) : (D3.lhsIdx i q 0).val = (i 0).val := by
  unfold DotDims.lhsIdx
  rw [dif_pos (show (0 : Fin S2x4x4096x128.rank) ∈ D3.lhsBatch by decide)]
  rfl
theorem lhs3_1 (i : S2x4x4096x1.Idx) (q : D3.contr.Idx) : (D3.lhsIdx i q 1).val = (i 1).val := by
  unfold DotDims.lhsIdx
  rw [dif_neg (show ¬(1 : Fin S2x4x4096x128.rank) ∈ D3.lhsBatch by decide), dif_pos (show (1 : Fin S2x4x4096x128.rank) ∈ D3.lhsNonContracting by decide)]
  rfl
theorem lhs3_2 (i : S2x4x4096x1.Idx) (q : D3.contr.Idx) : (D3.lhsIdx i q 2).val = (i 2).val := by
  unfold DotDims.lhsIdx
  rw [dif_neg (show ¬(2 : Fin S2x4x4096x128.rank) ∈ D3.lhsBatch by decide), dif_pos (show (2 : Fin S2x4x4096x128.rank) ∈ D3.lhsNonContracting by decide)]
  rfl
theorem lhs3_3 (i : S2x4x4096x1.Idx) (q : D3.contr.Idx) : (D3.lhsIdx i q 3).val = (q ⟨0, by decide⟩).val :=
  D3.lhsIdx_val_of_single rfl i q
theorem rhs3_0 (i : S2x4x4096x1.Idx) (q : D3.contr.Idx) : (D3.rhsIdx i q 0).val = (i 0).val := by
  unfold DotDims.rhsIdx
  rw [dif_pos (show (0 : Fin S2x128x1.rank) ∈ D3.rhsBatch by decide)]
  rfl
theorem rhs3_1 (i : S2x4x4096x1.Idx) (q : D3.contr.Idx) : (D3.rhsIdx i q 1).val = (q ⟨0, by decide⟩).val :=
  D3.rhsIdx_val_of_single rfl i q
theorem rhs3_2 (i : S2x4x4096x1.Idx) (q : D3.contr.Idx) : (D3.rhsIdx i q 2).val = (i 3).val := by
  unfold DotDims.rhsIdx
  rw [dif_neg (show ¬(2 : Fin S2x128x1.rank) ∈ D3.rhsBatch by decide), dif_pos (show (2 : Fin S2x128x1.rank) ∈ D3.rhsNonContracting by decide)]
  rfl

/-- The product read at an index: the sum over the 128 contracted features of row entry times weight. -/
theorem dot3_apply (x : FVec Ideal S2x4x4096x128 .f32) (w : FVec Ideal S2x128x1 .f32) (m : Fin 2) (b : Fin 4) (s : Fin 4096) (f : Fin 1) :
    Host.dotGeneral D3 none x w (ix4 m b s f) = ∑ h : Fin 128, x (ix4 m b s h) * w (ix3 m h f) := by
  simp only [Host.dotGeneral]
  rw [Ideal.dotGeneral_apply, ← Equiv.sum_comp (ValueIdx.contrEquiv1 D3 128 rfl rfl).symm]
  refine Finset.sum_congr rfl fun k _ => ?_
  have hk := ValueIdx.contrEquiv1_symm_val D3 128 rfl rfl k
  have el : D3.lhsIdx (ix4 m b s f) ((ValueIdx.contrEquiv1 D3 128 rfl rfl).symm k) = ix4 m b s k := funext fun a => Fin.ext (by
    match a with
    | ⟨0, _⟩ => exact lhs3_0 _ _
    | ⟨1, _⟩ => exact lhs3_1 _ _
    | ⟨2, _⟩ => exact lhs3_2 _ _
    | ⟨3, _⟩ => exact (lhs3_3 _ _).trans hk)
  have er : D3.rhsIdx (ix4 m b s f) ((ValueIdx.contrEquiv1 D3 128 rfl rfl).symm k) = ix3 m k f := funext fun a => Fin.ext (by
    match a with
    | ⟨0, _⟩ => exact rhs3_0 _ _
    | ⟨1, _⟩ => exact (rhs3_1 _ _).trans hk
    | ⟨2, _⟩ => exact rhs3_2 _ _)
  rw [el, er]

/-- A per-feature parameter spread over batch entries and positions reads the parameter of its model and feature. -/
theorem bias3_apply (p : FVec Ideal S2x1 .f32) (m : Fin 2) (b : Fin 4) (s : Fin 4096) (f : Fin 1) :
    broadcastInDim S2x4x4096x1 ![0, 1, 2, 3] bcast_S2x1x1x1_S2x4x4096x1_0_1_2_3 (broadcastInDim S2x1x1x1 ![0, 3] bcast_S2x1_S2x1x1x1_0_3 p) (ix4 m b s f)
      = p (ix2 m f) := by
  obtain rfl : f = 0 := Subsingleton.elim _ _
  refine (broadcastInDim_apply _ _ _ (ix4 m b s (0 : Fin 1)) (ix4 m (0 : Fin 1) (0 : Fin 1) (0 : Fin 1)) ?_).trans ?_
  · intro a; match a with | ⟨0, _⟩ => rfl | ⟨1, _⟩ => rfl | ⟨2, _⟩ => rfl | ⟨3, _⟩ => rfl
  · refine broadcastInDim_apply _ _ _ _ (ix2 m (0 : Fin 1)) ?_
    intro a; match a with | ⟨0, _⟩ => rfl | ⟨1, _⟩ => rfl

/-- The linear layer read at an index. -/
theorem lin3_apply (x : FVec Ideal S2x4x4096x128 .f32) (w : FVec Ideal S2x128x1 .f32) (p : FVec Ideal S2x1 .f32)
    (m : Fin 2) (b : Fin 4) (s : Fin 4096) (f : Fin 1) :
    lin3 x w p (ix4 m b s f) = (∑ h : Fin 128, x (ix4 m b s h) * w (ix3 m h f)) + p (ix2 m f) := by
  unfold lin3
  refine (addf_apply _ _ _).trans ?_
  rw [dot3_apply, bias3_apply]

section
variable (a0 : FVec Ideal S2x4x4096x4096 .f32) (a1 : FVec Ideal S2x4096x256 .f32) (a2 a3 a4 : FVec Ideal S2x256 .f32)
  (a5 : FVec Ideal S2x256x128 .f32) (a6 a7 a8 : FVec Ideal S2x128 .f32) (a9 : FVec Ideal S2x128x1 .f32) (a10 : FVec Ideal S2x1 .f32)

/-- The result array read at (batch entry, position, model): the transpose reads (model, batch entry, position), the
    dropped unit axis reads output 0 of the projection, and the projection contracts the second layer's 128 features. -/
theorem out_apply (b : Fin 4) (s : Fin 4096) (m : Fin 2) :
    out a0 a1 a2 a3 a4 a5 a6 a7 a8 a9 a10 (ix3 b s m) = Cert.Head.score a0 a1 a2 a3 a4 a5 a6 a7 a8 a9 a10 b s m := by
  unfold out
  refine (transpose_apply _ _ _ (ix3 b s m) (ix3 m b s) (by intro a; match a with | ⟨0, _⟩ => rfl | ⟨1, _⟩ => rfl | ⟨2, _⟩ => rfl)).trans ?_
  refine (shapeCast_apply _ _ (ix3 m b s) (ix4 m b s (0 : Fin 1)) ?_).trans ?_
  · rw [Shape.rowMajor_val_four, Shape.rowMajor_val_three]
    show ((m.val * 4 + b.val) * 4096 + s.val) * 1 + 0 = (m.val * 4 + b.val) * 4096 + s.val
    omega
  rw [lin3_apply]
  simp only [x2_apply]
  rfl

/-- The reference's composed function of the argument arrays is the specification's result array. -/
theorem out_eq_result :
    out a0 a1 a2 a3 a4 a5 a6 a7 a8 a9 a10 = Cert.Head.result a0 a1 a2 a3 a4 a5 a6 a7 a8 a9 a10 := by
  funext j
  obtain ⟨b, s, m, rfl⟩ : ∃ (b : Fin 4) (s : Fin 4096) (m : Fin 2), j = ix3 b s m := ⟨j 0, j 1, j 2, eq_ix3 j⟩
  exact out_apply a0 a1 a2 a3 a4 a5 a6 a7 a8 a9 a10 b s m

end

end Cert.ReferenceIdeal.RefValue

end
-- ==== Proof.RefValue.lean ====
/-
  The reference's run with its result named by the specification: every weakly fair execution of the reference
  terminates, its result buffer holds the specification's result array of the eleven argument arrays (the three-layer
  head applied position by position), and the argument buffers are unchanged.  The run gives the composed function of
  the arguments; read index by index that function is the specification's.
-/
import proofs.«142921_j49486613185071_2_alg».proof.Proof.RefRun
import proofs.«142921_j49486613185071_2_alg».proof.Proof.RefValueOut

noncomputable section

namespace Cert.ReferenceIdeal.RefValue

open Cert.ReferenceIdeal Cert.ReferenceIdeal.Gen Idealize.ShloMosaic Idealize.ShloMosaic.TcCoe Idealize.SL.Sem

/-- At the ideal values, from any memory with zero counters: the reference terminates with its result at the
    specification's result array of the argument arrays, the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v51)
          = Cert.Head.result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run (defs (F := Ideal)) _ _).mono
    (fun _ h c => ⟨(h c).1.trans (out_eq_result _ _ _ _ _ _ _ _ _ _ _), (h c).2⟩)
    (RefRun.run (F := Ideal) m ρ)

end Cert.ReferenceIdeal.RefValue

end
-- ==== Proof.lean ====
/-
  The certificate: a Pallas kernel that scores every (model, batch entry, position) with a three-layer head —
  Linear, batch normalisation over the FOUR batch entries of a position, relu, twice, then a projection onto one
  output — against the jnp reference that does the same with einsums, `mean` and `var`.

  At the ideal values both programs compute ONE function of the argument arrays, `Cert.Head.result` (Proof/Spec.lean).
  The kernel: at the grid point of model mm and position tile st the body's stored block is the head of each of the
  tile's 128 positions (Proof/KBody.lean, over Proof/BlockNorm.lean and the layout lemmas), the 64 blocks tile the
  score array, and the transpose after the launch reorders its axes (Proof/KValue.lean).  The reference: its
  operations in order, the outlined `var`, `where` and `relu` unfolded at their calls, read index by index
  (Proof/RefRun.lean, Proof/RefValue*.lean).  The one law between the two sides is that the reference divides a batch
  sum by 4 where the kernel multiplies it by the word of 0.25: x / 4 = x · ¼ on every extended real, so no finiteness of
  the inputs is used.  The ideal pass rewrote nothing, so `preserves` is trivial; the three frames are the generated
  frame runs (the reference's: its run with the result dropped).
-/
import proofs.«142921_j49486613185071_2_alg».proof.Defs
import proofs.«142921_j49486613185071_2_alg».proof.Proof.Gen.Kernel
import proofs.«142921_j49486613185071_2_alg».proof.Proof.Gen.Kernel.Skeleton
import proofs.«142921_j49486613185071_2_alg».proof.Proof.Gen.Kernel.Launch
import proofs.«142921_j49486613185071_2_alg».proof.Proof.Gen.Kernel.Points
import proofs.«142921_j49486613185071_2_alg».proof.Proof.Gen.Kernel.Frame
import proofs.«142921_j49486613185071_2_alg».proof.Proof.Gen.KernelIdeal
import proofs.«142921_j49486613185071_2_alg».proof.Proof.Gen.KernelIdeal.Skeleton
import proofs.«142921_j49486613185071_2_alg».proof.Proof.Gen.KernelIdeal.Launch
import proofs.«142921_j49486613185071_2_alg».proof.Proof.Gen.KernelIdeal.Points
import proofs.«142921_j49486613185071_2_alg».proof.Proof.Gen.KernelIdeal.Frame
import proofs.«142921_j49486613185071_2_alg».proof.Proof.Gen.ReferenceIdeal
import proofs.«142921_j49486613185071_2_alg».proof.Proof.Gen.Pre_finite_inputs
import proofs.«142921_j49486613185071_2_alg».proof.Proof.KValue
import proofs.«142921_j49486613185071_2_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs and keeps its arguments: the generated frame. -/
theorem frame_kernel : Cert.frame_Kernel := fun m ρ _ => Cert.Kernel.Gen.frame m ρ

/-- The idealized kernel likewise. -/
theorem frame_kernelIdeal : Cert.frame_KernelIdeal := fun m ρ _ => Cert.KernelIdeal.Gen.frame m ρ

/-- The reference runs and keeps its arguments: its run, the result dropped. -/
theorem frame_referenceIdeal : Cert.frame_ReferenceIdeal := fun m ρ _ =>
  (θ_run Cert.ReferenceIdeal.defs _ _).mono (fun _ h c => (h c).2) (Cert.ReferenceIdeal.RefValue.run m ρ)

/-- The ideal pass rewrote no operation. -/
theorem preserves : Cert.preserves_Kernel_KernelIdeal := trivial

/-- From memories that agree on the arguments both programs end with their result at `Cert.Head.result` of the
    argument arrays. -/
theorem algebraic : Cert.algebraic_KernelIdeal_ReferenceIdeal := by
  intro m ρ m' ρ' _ hagree
  refine ⟨fun c => Cert.Head.result (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10)),
    Cert.KernelIdeal.RunValue.run m ρ, ?_⟩
  refine (θ_run Cert.ReferenceIdeal.defs _ _).mono (fun _ h c => ⟨(h c).1.trans ?_, (h c).2⟩)
    (Cert.ReferenceIdeal.RefValue.run m' ρ')
  obtain ⟨e0, e1, e2, e3, e4, e5, e6, e7, e8, e9, e10⟩ := hagree c
  rw [e0, e1, e2, e3, e4, e5, e6, e7, e8, e9, e10]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
